-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "inv_sqrt_dk" .f32 0x3D3504F3#32 ((524288 / 11863283 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x64x64 : Shape := ⟨4, ![32, 64, 64, 64]⟩
abbrev S4096x4096 : Shape := ⟨2, ![4096, 4096]⟩
abbrev S64x64 : Shape := ⟨2, ![64, 64]⟩
abbrev S_ : Shape := ⟨0, ![]⟩

class Facts : Prop where
  bcast_S_S32x64x64x64 : S_.BroadcastsInDim S32x64x64x64 (![] : Fin 0 → Fin S32x64x64x64.rank)
  reducesTo_S32x64x64x64_S_d0_1_2_3 : S32x64x64x64.ReducesTo [0, 1, 2, 3] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S64x64 : S_.BroadcastsInDim S64x64 (![] : Fin 0 → Fin S64x64.rank)
  reducesTo_S64x64_S_d0_1 : S64x64.ReducesTo [0, 1] S_

variable [Facts]

def fn_part1 {F : FTy → Type} [FloatOps F] (main_arg4 : FVec F S64x64 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  main_v23

def fn {F : FTy → Type} [FloatOps F] (main_arg0 : FVec F S32x64x64x64 .f32) (main_arg1 : FVec F S32x64x64x64 .f32) (main_arg2 : FVec F S4096x4096 .f32) (main_arg3 : FVec F S4096x4096 .f32) (main_arg4 : FVec F S64x64 .f32) : IVec S_ 1 :=
  let main_v0 : FVec F S32x64x64x64 .f32 := Host.absf main_arg0
  let main_cst : FVec F S_ .f32 := constant S_ .f32 0x7F800000#32
  let main_v1 : FVec F S32x64x64x64 .f32 := broadcastInDim S32x64x64x64 ![] bcast_S_S32x64x64x64 main_cst
  let main_v2 : IVec S32x64x64x64 1 := cmpf .olt main_v0 main_v1
  let main_c : IVec S_ 1 := constantI S_ 1 1#1
  let main_v3 : IVec S_ 1 := (fun x v => Host.reduce IntOp.andi x v reducesTo_S32x64x64x64_S_d0_1_2_3 h_S_) main_v2 main_c
  let main_v4 : FVec F S32x64x64x64 .f32 := Host.absf main_arg1
  let main_cst_0 : FVec F S_ .f32 := constant S_ .f32 0x7F800000#32
  let main_v5 : FVec F S32x64x64x64 .f32 := broadcastInDim S32x64x64x64 ![] bcast_S_S32x64x64x64 main_cst_0
  let main_v6 : IVec S32x64x64x64 1 := cmpf .olt main_v4 main_v5
  let main_c_1 : IVec S_ 1 := constantI S_ 1 1#1
  let main_v7 : IVec S_ 1 := (fun x v => Host.reduce IntOp.andi x v reducesTo_S32x64x64x64_S_d0_1_2_3 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_v13 main_v16
-- ==== Kernel.lean ====
abbrev S32x64x64x64 : Shape := ⟨4, ![32, 64, 64, 64]⟩
abbrev S4096x4096 : Shape := ⟨2, ![4096, 4096]⟩
abbrev S64x64 : Shape := ⟨2, ![64, 64]⟩
abbrev S2048x4096 : Shape := ⟨2, ![2048, 4096]⟩
abbrev S1024x512 : Shape := ⟨2, ![1024, 512]⟩
abbrev S1024x1024 : Shape := ⟨2, ![1024, 1024]⟩
abbrev S256x512x64 : Shape := ⟨3, ![256, 512, 64]⟩
abbrev S32x64x4096 : Shape := ⟨3, ![32, 64, 4096]⟩
abbrev S256x64x512 : Shape := ⟨3, ![256, 64, 512]⟩
abbrev S8x512x64 : Shape := ⟨3, ![8, 512, 64]⟩
abbrev S1x64x4096 : Shape := ⟨3, ![1, 64, 4096]⟩
abbrev S8x64x512 : Shape := ⟨3, ![8, 64, 512]⟩
abbrev S64x4096 : Shape := ⟨2, ![64, 4096]⟩
abbrev S4096x64 : Shape := ⟨2, ![4096, 64]⟩
abbrev S8x64x64 : Shape := ⟨3, ![8, 64, 64]⟩
abbrev S8x64 : Shape := ⟨2, ![8, 64]⟩
abbrev S8x64x1 : Shape := ⟨3, ![8, 64, 1]⟩

abbrev nBuf : Space → Nat
  | .hbm => 13
  | .vmem => 21
  | .smem => 0
  | _ => 0

abbrev bufTy : (tb : Table) → Fin (tcTables nBuf tb) → BufTy
  | .hbm, ⟨0, _⟩ => ⟨S32x64x64x64, .f32⟩
  | .hbm, ⟨1, _⟩ => ⟨S32x64x64x64, .f32⟩
  | .hbm, ⟨2, _⟩ => ⟨S4096x4096, .f32⟩
  | .hbm, ⟨3, _⟩ => ⟨S4096x4096, .f32⟩
  | .hbm, ⟨4, _⟩ => ⟨S64x64, .f32⟩
  | .hbm, ⟨5, _⟩ => ⟨S2048x4096, .f32⟩
  | .hbm, ⟨6, _⟩ => ⟨S2048x4096, .bf16⟩
  | .hbm, ⟨7, _⟩ => ⟨S2048x4096, .bf16⟩
  | .hbm, ⟨8, _⟩ => ⟨S256x512x64, .bf16⟩
  | .hbm, ⟨9, _⟩ => ⟨S256x512x64, .bf16⟩
  | .hbm, ⟨10, _⟩ => ⟨S32x64x4096, .f32⟩
  | .hbm, ⟨11, _⟩ => ⟨S256x64x512, .f32⟩
  | .hbm, ⟨12, _⟩ => ⟨S32x64x64x64, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S8x512x64, .bf16⟩
  | .local _ .vmem, ⟨13, _⟩ => ⟨S8x512x64, .bf16⟩
  | .local _ .vmem, ⟨14, _⟩ => ⟨S8x512x64, .bf16⟩
  | .local _ .vmem, ⟨15, _⟩ => ⟨S8x512x64, .bf16⟩
  | .local _ .vmem, ⟨16, _⟩ => ⟨S1x64x4096, .f32⟩
  | .local _ .vmem, ⟨17, _⟩ => ⟨S1x64x4096, .f32⟩
  | .local _ .vmem, ⟨18, _⟩ => ⟨S64x64, .f32⟩
  | .local _ .vmem, ⟨19, _⟩ => ⟨S8x64x512, .f32⟩
  | .local _ .vmem, ⟨20, _⟩ => ⟨S8x64x512, .f32⟩
  | _, _ => ⟨S32x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v22 : BitVec 1 := Scalar.cmpi .eq arg2 c7_i32
  let v23 : BitVec 32 := Scalar.extui v22
  let c0_i32_15 : BitVec 32 := 0#32
  let v24 : BitVec 1 := Scalar.cmpi .ne v23 c0_i32_15
  v24

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S8x512x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x512x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x64x4096 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8x64x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S32x64x64x64_S2048x4096 : S32x64x64x64.ShapeCasts S2048x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  bitsLt_bf16_f32 : FTy.bits .bf16 < FTy.bits .f32
  packedbf16_S1024x1024_S1024x1024_0_0 : (Rect.unit (s := S1024x1024) ![0, 0] S1024x1024.size inb_S1024x1024_S1024x1024_0_0).PackedRows (EltTy.packing .bf16)
  shapeCasts_S2048x4096_S256x512x64 : S2048x4096.ShapeCasts S256x512x64
  shapeCasts_S32x64x64x64_S32x64x4096 : S32x64x64x64.ShapeCasts S32x64x4096
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  inb_S64x64_S64x64_0_0 : ∀ a, (![0, 0] : Fin 2 → Nat) a + S64x64.size a ≤ S64x64.size a
  h_S64x64 : 0 < S64x64.numel
  shapeCasts_S4096x64_S8x512x64 : S4096x64.ShapeCasts S8x512x64
  inb_S8x512x64_S8x512x64_0_0_0 : ∀ a, (![0, 0, 0] : Fin 3 → Nat) a + S8x512x64.size a ≤ S8x512x64.size a
  h_S8x512x64 : 0 < S8x512x64.numel
  shapeCasts_S8x512x64_S8x512x64 : S8x512x64.ShapeCasts S8x512x64
  reduces_S8x64x64_S8x64 : S8x64x64.Reduces [2] S8x64
  shapeCasts_S8x64_S8x64x1 : S8x64.ShapeCasts S8x64x1
  broadcasts_S8x64x1_S8x64x64 : S8x64x1.Broadcasts S8x64x64
  inb_S8x64x512_S8x64x512_0_0_0 : ∀ a, (![0, 0, 0] : Fin 3 → Nat) a + S8x64x512.size a ≤ S8x64x512.size a
  h_S8x64x512 : 0 < S8x64x512.numel
  shapeCasts_S256x64x512_S32x64x64x64 : S256x64x512.ShapeCasts S32x64x64x64
  dot_S1024x512_S1024x512_S1024x1024_1_1_0_0_n_n_wf : DotDims.WF S1024x512 S1024x512 S1024x1024 [1] [1] [0] [0] [] []
  dot_S64x4096_S64x64_S4096x64_0_1_1_0_n_n_wf : DotDims.WF S64x4096 S64x64 S4096x64 [0] [1] [1] [0] [] []
  dot_S8x512x64_S8x512x64_S8x64x64_1_1_2_2_0_0_wf : DotDims.WF S8x512x64 S8x512x64 S8x64x64 [1] [1] [2] [2] [0] [0]
  dot_S8x64x64_S8x512x64_S8x64x512_1_2_2_1_0_0_wf : DotDims.WF S8x64x64 S8x512x64 S8x64x512 [1] [2] [2] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S2048x4096.size a
  hwx0_0 : ∀ i : grid0.Coords, EltTy.bits .f32 = 32 ∨ (Rect.block (s := S2048x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x4096.size a
  hwx0_2 : ∀ i : grid0.Coords, EltTy.bits .f32 = 32 ∨ (Rect.block (s := S4096x4096) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S2048x4096.size a
  hwx0_3 : ∀ i : grid0.Coords, EltTy.bits .bf16 = 32 ∨ (Rect.block (s := S2048x4096) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S2048x4096.size a
  hwx0_4 : ∀ i : grid0.Coords, EltTy.bits .bf16 = 32 ∨ (Rect.block (s := S2048x4096) S1024x1024.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512x64.size a ≤ S256x512x64.size a
  hwx1_0 : ∀ i : grid1.Coords, EltTy.bits .bf16 = 32 ∨ (Rect.block (s := S256x512x64) S8x512x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x512x64.size a ≤ S256x512x64.size a
  hwx1_1 : ∀ i : grid1.Coords, EltTy.bits .bf16 = 32 ∨ (Rect.block (s := S256x512x64) S8x512x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x64x4096.size a ≤ S32x64x4096.size a
  hwx1_2 : ∀ i : grid1.Coords, EltTy.bits .f32 = 32 ∨ (Rect.block (s := S32x64x4096) S1x64x4096.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x64x512.size a ≤ S256x64x512.size a
  hwx1_4 : ∀ i : grid1.Coords, EltTy.bits .f32 = 32 ∨ (Rect.block (s := S256x64x512) S8x64x512.size (cc1_transform_4 i) (hinb1_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S64x4096_S64x64_S4096x64_0_1_1_0_n_n : DotDims S64x4096 S64x64 S4096x64 where
  lhsContracting := [0]
  rhsContracting := [1]
  lhsNonContracting := [1]
  rhsNonContracting := [0]
  lhsBatch := []
  rhsBatch := []
  wf := dot_S64x4096_S64x64_S4096x64_0_1_1_0_n_n_wf
def dot_S8x512x64_S8x512x64_S8x64x64_1_1_2_2_0_0 : DotDims S8x512x64 S8x512x64 S8x64x64 where
  lhsContracting := [1]
  rhsContracting := [1]
  lhsNonContracting := [2]
  rhsNonContracting := [2]
  lhsBatch := [0]
  rhsBatch := [0]
  wf := dot_S8x512x64_S8x512x64_S8x64x64_1_1_2_2_0_0_wf
def dot_S8x64x64_S8x512x64_S8x64x512_1_2_2_1_0_0 : DotDims S8x64x64 S8x512x64 S8x64x512 where
  lhsContracting := [1]
  rhsContracting := [2]
  lhsNonContracting := [2]
  rhsNonContracting := [1]
  lhsBatch := [0]
  rhsBatch := [0]
  wf := dot_S8x64x64_S8x512x64_S8x64x512_1_2_2_1_0_0_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_0) S1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_1) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

abbrev win1_0 : Pipeline.Window sig grid1 :=
  Pipeline.Window.ofSpec (Memref.whole main_v2) S8x512x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S8x512x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x64x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S8x64x512.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S32x64x64x64 : Shape := ⟨4, ![32, 64, 64, 64]⟩
abbrev S4096x4096 : Shape := ⟨2, ![4096, 4096]⟩
abbrev S64x64 : Shape := ⟨2, ![64, 64]⟩
abbrev S32x64x4096 : Shape := ⟨3, ![32, 64, 4096]⟩
abbrev S32x4096x64 : Shape := ⟨3, ![32, 4096, 64]⟩
abbrev S256x512x64 : Shape := ⟨3, ![256, 512, 64]⟩
abbrev S256x64x64 : Shape := ⟨3, ![256, 64, 64]⟩
abbrev S_ : Shape := ⟨0, ![]⟩
abbrev S256x64 : Shape := ⟨2, ![256, 64]⟩
abbrev S256x64x1 : Shape := ⟨3, ![256, 64, 1]⟩
abbrev S256x64x512 : Shape := ⟨3, ![256, 64, 512]⟩

abbrev nBuf : Space → Nat
  | .hbm => 43
  | .vmem => 0
  | .smem => 0
  | _ => 0

abbrev bufTy : (tb : Table) → Fin (tcTables nBuf tb) → BufTy
  | .hbm, ⟨0, _⟩ => ⟨S32x64x64x64, .f32⟩
  | .hbm, ⟨1, _⟩ => ⟨S32x64x64x64, .f32⟩
  | .hbm, ⟨2, _⟩ => ⟨S4096x4096, .f32⟩
  | .hbm, ⟨3, _⟩ => ⟨S4096x4096, .f32⟩
  | .hbm, ⟨4, _⟩ => ⟨S64x64, .f32⟩
  | .hbm, ⟨5, _⟩ => ⟨S32x64x4096, .f32⟩
  | .hbm, ⟨6, _⟩ => ⟨S32x64x4096, .f32⟩
  | .hbm, ⟨7, _⟩ => ⟨S32x4096x64, .f32⟩
  | .hbm, ⟨8, _⟩ => ⟨S32x64x4096, .f32⟩
  | .hbm, ⟨9, _⟩ => ⟨S256x512x64, .f32⟩
  | .hbm, ⟨10, _⟩ => ⟨S32x64x4096, .f32⟩
  | .hbm, ⟨11, _⟩ => ⟨S256x512x64, .f32⟩
  | .hbm, ⟨12, _⟩ => ⟨S32x4096x64, .f32⟩
  | .hbm, ⟨13, _⟩ => ⟨S256x512x64, .f32⟩
  | .hbm, ⟨14, _⟩ => ⟨S256x64x64, .f32⟩
  | .hbm, ⟨15, _⟩ => ⟨S_, .f32⟩
  | .hbm, ⟨16, _⟩ => ⟨S256x64x64, .f32⟩
  | .hbm, ⟨17, _⟩ => ⟨S256x64x64, .f32⟩
  | .hbm, ⟨18, _⟩ => ⟨S_, .f32⟩
  | .hbm, ⟨19, _⟩ => ⟨S256x64, .f32⟩
  | .hbm, ⟨20, _⟩ => ⟨S_, .f32⟩
  | .hbm, ⟨21, _⟩ => ⟨S256x64, .f32⟩
  | .hbm, ⟨22, _⟩ => ⟨S256x64, .f32⟩
  | .hbm, ⟨23, _⟩ => ⟨S256x64x1, .f32⟩
  | .hbm, ⟨24, _⟩ => ⟨S256x64x64, .f32⟩
  | .hbm, ⟨25, _⟩ => ⟨S256x64x64, .f32⟩
  | .hbm, ⟨26, _⟩ => ⟨S256x64x64, .f32⟩
  | .hbm, ⟨27, _⟩ => ⟨S_, .f32⟩
  | .hbm, ⟨28, _⟩ => ⟨S256x64, .f32⟩
  | .hbm, ⟨29, _⟩ => ⟨S256x64x1, .f32⟩
  | .hbm, ⟨30, _⟩ => ⟨S256x64x64, .f32⟩
  | .hbm, ⟨31, _⟩ => ⟨S256x64x64, .f32⟩
  | .hbm, ⟨32, _⟩ => ⟨S256x512x64, .f32⟩
  | .hbm, ⟨33, _⟩ => ⟨S_, .f32⟩
  | .hbm, ⟨34, _⟩ => ⟨S_, .f32⟩
  | .hbm, ⟨35, _⟩ => ⟨S256x512x64, .f32⟩
  | .hbm, ⟨36, _⟩ => ⟨S256x512x64, .i1⟩
  | .hbm, ⟨37, _⟩ => ⟨S_, .f32⟩
  | .hbm, ⟨38, _⟩ => ⟨S256x512x64, .f32⟩
  | .hbm, ⟨39, _⟩ => ⟨S256x512x64, .f32⟩
  | .hbm, ⟨40, _⟩ => ⟨S256x512x64, .f32⟩
  | .hbm, ⟨41, _⟩ => ⟨S256x64x512, .f32⟩
  | .hbm, ⟨42, _⟩ => ⟨S32x64x64x64, .f32⟩
  | _, _ => ⟨S32x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]

class Facts₀ : Prop where
  shapeCasts_S32x64x64x64_S32x64x4096 : S32x64x64x64.ShapeCasts S32x64x4096
  transposes_S32x64x4096_S32x4096x64_0_2_1 : S32x64x4096.Transposes [0, 2, 1] S32x4096x64
  shapeCasts_S32x64x4096_S256x512x64 : S32x64x4096.ShapeCasts S256x512x64
  shapeCasts_S32x4096x64_S256x512x64 : S32x4096x64.ShapeCasts S256x512x64
  bcast_S_S256x64x64 : S_.BroadcastsInDim S256x64x64 (![] : Fin 0 → Fin S256x64x64.rank)
  reducesTo_S256x64x64_S256x64_d2 : S256x64x64.ReducesTo [2] S256x64
  h_S_ : 0 < S_.numel
  bcast_S_S256x64 : S_.BroadcastsInDim S256x64 (![] : Fin 0 → Fin S256x64.rank)
  bcast_S256x64_S256x64x1_0_1 : S256x64.BroadcastsInDim S256x64x1 (![0, 1] : Fin 2 → Fin S256x64x1.rank)
  bcast_S256x64x1_S256x64x64_0_1_2 : S256x64x1.BroadcastsInDim S256x64x64 (![0, 1, 2] : Fin 3 → Fin S256x64x64.rank)
  bcast_S_S256x512x64 : S_.BroadcastsInDim S256x512x64 (![] : Fin 0 → Fin S256x512x64.rank)
  transposes_S256x512x64_S256x64x512_0_2_1 : S256x512x64.Transposes [0, 2, 1] S256x64x512
  shapeCasts_S256x64x512_S32x64x64x64 : S256x64x512.ShapeCasts S32x64x64x64
  dot_S32x64x4096_S4096x4096_S32x64x4096_2_1_01_0_n_n_wf : DotDims.WF S32x64x4096 S4096x4096 S32x64x4096 [2] [1] [0, 1] [0] [] []
  dot_S32x4096x64_S64x64_S32x4096x64_2_1_01_0_n_n_wf : DotDims.WF S32x4096x64 S64x64 S32x4096x64 [2] [1] [0, 1] [0] [] []
  dot_S256x512x64_S256x512x64_S256x64x64_1_1_2_2_0_0_wf : DotDims.WF S256x512x64 S256x512x64 S256x64x64 [1] [1] [2] [2] [0] [0]
  dot_S256x512x64_S256x64x64_S256x512x64_2_1_1_2_0_0_wf : DotDims.WF S256x512x64 S256x64x64 S256x512x64 [2] [1] [1] [2] [0] [0]

variable [Facts₀]

def dot_S32x64x4096_S4096x4096_S32x64x4096_2_1_01_0_n_n : DotDims S32x64x4096 S4096x4096 S32x64x4096 where
  lhsContracting := [2]
  rhsContracting := [1]
  lhsNonContracting := [0, 1]
  rhsNonContracting := [0]
  lhsBatch := []
  rhsBatch := []
  wf := dot_S32x64x4096_S4096x4096_S32x64x4096_2_1_01_0_n_n_wf
def dot_S32x4096x64_S64x64_S32x4096x64_2_1_01_0_n_n : DotDims S32x4096x64 S64x64 S32x4096x64 where
  lhsContracting := [2]
  rhsContracting := [1]
  lhsNonContracting := [0, 1]
  rhsNonContracting := [0]
  lhsBatch := []
  rhsBatch := []
  wf := dot_S32x4096x64_S64x64_S32x4096x64_2_1_01_0_n_n_wf
def dot_S256x512x64_S256x512x64_S256x64x64_1_1_2_2_0_0 : DotDims S256x512x64 S256x512x64 S256x64x64 where
  lhsContracting := [1]
  rhsContracting := [1]
  lhsNonContracting := [2]
  rhsNonContracting := [2]
  lhsBatch := [0]
  rhsBatch := [0]
  wf := dot_S256x512x64_S256x512x64_S256x64x64_1_1_2_2_0_0_wf
def dot_S256x512x64_S256x64x64_S256x512x64_2_1_1_2_0_0 : DotDims S256x512x64 S256x64x64 S256x512x64 where
  lhsContracting := [2]
  rhsContracting := [1]
  lhsNonContracting := [1]
  rhsNonContracting := [2]
  lhsBatch := [0]
  rhsBatch := [0]
  wf := dot_S256x512x64_S256x64x64_S256x512x64_2_1_1_2_0_0_wf

class Facts : Prop extends Facts₀ where

variable [Facts]
-- ==== Proof.K.Reg0Base.lean ====
import proofs.«109021_j14542759264516_2_alg».proof.Proof.Gen.Kernel.Launch
import proofs.«109021_j14542759264516_2_alg».proof.Proof.Gen.Kernel.Skeleton
import proofs.«109021_j14542759264516_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (Pipeline.UD sig nD τ) ℕ
-- the TensorCore's buffer contents when the region is entered: a parameter, instantiated by the run
variable (V : (c : Dev nD) → (b : Ref sig .tc) → Buf (Elt F) ((c : Thread nD τ).loc b))

/-! # Region 0 (the accumulating matmul kernel on the grid (2,4,8)): what its three cases share -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    the entry contents and whose body leaves the block in place: the window is uncut, never idle, and an input. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, for any proof data whose array is
    the entry contents and whose body leaves the block in place: the window is uncut, never idle, and an input. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, for any proof data whose array is
    the entry contents and whose body leaves the block in place: the window is uncut, never idle, and an input. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions on the last grid coordinate -/

/-- The first conditional: the last coordinate is 0 (the accumulators are zeroed). -/
abbrev cond0_0 (i : grid0.Coords) : Prop := (Scalar.cmpi .ne (Scalar.extui (Scalar.cmpi .eq (BitVec.ofNat 32 (i 2).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)
/-- The second conditional: the last coordinate is 7 (the accumulators are cast and stored). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last step of a reduction the two outputs are idle and not written back; at it they are live. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
/-- The two accumulators: whole scoped buffers of the kernel's own. -/
abbrev scM0_0 : Memref sig .tc .vmem S1024x1024 .f32 := Memref.whole cc0_scratch0
abbrev scM0_1 : Memref sig .tc .vmem S1024x1024 .f32 := Memref.whole cc0_scratch1

/-! ## The class invariant with the accumulators set apart -/

/-- The scoped buffers that are neither this region's staging buffers nor its accumulators (the other region's
    staging buffers), each at some contents: the body never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant is the two accumulators at some contents, the untouched rest, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

/-! ## Whole-shape stores -/

theorem hz2 : (![0, 0] : Fin 2 → Nat) = fun _ => 0 := funext fun a => by fin_cases a <;> rfl

/-- A store through the whole-shape rectangle at zero offsets, made last, reads back as its payload, whatever the
    buffer held and whatever was stored before it. -/
theorem read_writes_cons_unit_zero {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

end Cert.Kernel.Hand
end
-- ==== Proof.K.Reg0RunA.lean ====
import proofs.«109021_j14542759264516_2_alg».proof.Proof.K.Reg0Base
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (Pipeline.UD sig nD τ) ℕ
-- the TensorCore's buffer contents when the region is entered: a parameter, instantiated by the run
variable (V : (c : Dev nD) → (b : Ref sig .tc) → Buf (Elt F) ((c : Thread nD τ).loc b))

/-! # Region 0, the first step of a reduction (last coordinate 0): both accumulators are zeroed, then accumulate -/

set_option maxHeartbeats 1000000 in
/-- On whole memrefs — the three inputs' at their blocks, the two outputs' at contents handed back untouched, the two
    accumulators at anything — the body at a point whose last coordinate is 0 leaves each accumulator at the product
    of the point's blocks added to the zero block. -/
theorem sound_kernel0_A (c : Dev nD) (E : Set ℕ) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 x1 x2 : Vec F S1024x512 .f32) (xi3 xi4 : Vec F S1024x1024 .bf16) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4
        ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4
            ∗ owns (c : Thread nD τ) arg8 fullShare (k0_pay4 x0 x1 (k0_pay1 (F := F))) ∗ owns (c : Thread nD τ) arg9 fullShare (k0_pay5 x0 x2 (k0_pay2 (F := F)))) -∗ K ⟨⟩))
      ⊢ wp frame (wpE (defs₀ (F := F)) Variants.none c none) E (cc0__qk_kernel i arg3 harg3 arg4 harg4 arg5 harg5 arg6 harg6 arg7 harg7 arg8 harg8 arg9 harg9) K := by
  simp only [cc0__qk_kernel_eq_skeleton]; unfold cc0__qk_kernel_skel
  unfold owns
  iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%d9, %f9, -, H9⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; exact hf3
    iexact H3
  isplitl [H4]
  · iexists f4; isplitr; · ipureintro; exact hf4
    iexact H4
  isplitl [H8]
  · iexists _; isplitr
    swap; · iexact H8
    ipureintro
    rw [read_writes_cons_unit_zero (S := S1024x1024) _ _ hz2]
    sl_unfold_run_names
    simp only [View.readCov_cons_toLoadRect, View.readAt_eq_ld, View.ld_unit_zero (S := S1024x512) hz2, View.ld_unit_zero (S := S1024x1024) hz2]
  iexists _; isplitr
  swap; · iexact H9
  ipureintro
  rw [read_writes_cons_unit_zero (S := S1024x1024) _ _ hz2]
  sl_unfold_run_names
  simp only [View.readCov_cons_toLoadRect, View.readAt_eq_ld, View.ld_unit_zero (S := S1024x512) hz2, View.ld_unit_zero (S := S1024x1024) hz2]

end Cert.Kernel.Hand
end
-- ==== Proof.K.Reg0RunB.lean ====
import proofs.«109021_j14542759264516_2_alg».proof.Proof.K.Reg0Base
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (Pipeline.UD sig nD τ) ℕ
-- the TensorCore's buffer contents when the region is entered: a parameter, instantiated by the run
variable (V : (c : Dev nD) → (b : Ref sig .tc) → Buf (Elt F) ((c : Thread nD τ).loc b))

/-! # Region 0, an inner step of a reduction (last coordinate neither 0 nor 7): accumulate only -/

set_option maxHeartbeats 1000000 in
/-- On whole memrefs — the three inputs' at their blocks, the two outputs' at contents handed back untouched, the two
    accumulators at what the step before left — the body at a point whose last coordinate is neither 0 nor 7 leaves
    each accumulator at the product of the point's blocks added to what it held. -/
theorem sound_kernel0_B (c : Dev nD) (E : Set ℕ) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 x1 x2 : Vec F S1024x512 .f32) (xi3 xi4 : Vec F S1024x1024 .bf16) (xs0 xs1 : Vec F S1024x1024 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4
        ∗ owns (c : Thread nD τ) arg8 fullShare xs0 ∗ owns (c : Thread nD τ) arg9 fullShare xs1
        ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4
            ∗ owns (c : Thread nD τ) arg8 fullShare (k0_pay4 x0 x1 xs0) ∗ owns (c : Thread nD τ) arg9 fullShare (k0_pay5 x0 x2 xs1)) -∗ K ⟨⟩))
      ⊢ wp frame (wpE (defs₀ (F := F)) Variants.none c none) E (cc0__qk_kernel i arg3 harg3 arg4 harg4 arg5 harg5 arg6 harg6 arg7 harg7 arg8 harg8 arg9 harg9) K := by
  simp only [cc0__qk_kernel_eq_skeleton]; unfold cc0__qk_kernel_skel
  unfold owns
  iintro ⟨⟨%f0, %hf0, H0⟩, ⟨%f1, %hf1, H1⟩, ⟨%f2, %hf2, H2⟩, ⟨%f3, %hf3, H3⟩, ⟨%f4, %hf4, H4⟩, ⟨%f8, %hf8, H8⟩, ⟨%f9, %hf9, H9⟩, Hk⟩
  subst hf0; subst hf1; subst hf2; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; exact hf3
    iexact H3
  isplitl [H4]
  · iexists f4; isplitr; · ipureintro; exact hf4
    iexact H4
  isplitl [H8]
  · iexists _; isplitr
    swap; · iexact H8
    ipureintro
    rw [read_writes_cons_unit_zero (S := S1024x1024) _ _ hz2]
    sl_unfold_run_names
    simp only [View.readCov_cons_toLoadRect, View.readAt_eq_ld, View.ld_unit_zero (S := S1024x512) hz2, View.ld_unit_zero (S := S1024x1024) hz2]
  iexists _; isplitr
  swap; · iexact H9
  ipureintro
  rw [read_writes_cons_unit_zero (S := S1024x1024) _ _ hz2]
  sl_unfold_run_names
  simp only [View.readCov_cons_toLoadRect, View.readAt_eq_ld, View.ld_unit_zero (S := S1024x512) hz2, View.ld_unit_zero (S := S1024x1024) hz2]

end Cert.Kernel.Hand
end
-- ==== Proof.K.Reg0RunC.lean ====
import proofs.«109021_j14542759264516_2_alg».proof.Proof.K.Reg0Base
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (Pipeline.UD sig nD τ) ℕ
-- the TensorCore's buffer contents when the region is entered: a parameter, instantiated by the run
variable (V : (c : Dev nD) → (b : Ref sig .tc) → Buf (Elt F) ((c : Thread nD τ).loc b))

/-! # Region 0, the last step of a reduction (last coordinate 7): accumulate, then cast and store both outputs -/

set_option maxHeartbeats 1000000 in
/-- On whole memrefs — the three inputs' at their blocks, the two outputs' at anything, the two accumulators at what
    the step before left — the body at a point whose last coordinate is 7 leaves each accumulator at the product of
    the point's blocks added to what it held, and each output at that sum narrowed to bf16. -/
theorem sound_kernel0_C (c : Dev nD) (E : Set ℕ) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 x1 x2 : Vec F S1024x512 .f32) (xs0 xs1 : Vec F S1024x1024 .f32) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
        ∗ owns (c : Thread nD τ) arg8 fullShare xs0 ∗ owns (c : Thread nD τ) arg9 fullShare xs1
        ∗ (iprop(owns (c : Thread nD τ) arg3 fullShare x0 ∗ owns (c : Thread nD τ) arg4 fullShare x1 ∗ owns (c : Thread nD τ) arg5 fullShare x2
            ∗ owns (c : Thread nD τ) arg6 fullShare (k0_pay6 (k0_pay4 x0 x1 xs0)) ∗ owns (c : Thread nD τ) arg7 fullShare (k0_pay7 (k0_pay5 x0 x2 xs1))
            ∗ owns (c : Thread nD τ) arg8 fullShare (k0_pay4 x0 x1 xs0) ∗ owns (c : Thread nD τ) arg9 fullShare (k0_pay5 x0 x2 xs1)) -∗ K ⟨⟩))
      ⊢ wp frame (wpE (defs₀ (F := F)) Variants.none c none) E (cc0__qk_kernel i arg3 harg3 arg4 harg4 arg5 harg5 arg6 harg6 arg7 harg7 arg8 harg8 arg9 harg9) K := by
  simp only [cc0__qk_kernel_eq_skeleton]; unfold cc0__qk_kernel_skel
  unfold owns
  iintro ⟨⟨%f0, %hf0, H0⟩, ⟨%f1, %hf1, H1⟩, ⟨%f2, %hf2, H2⟩, ⟨%d3, %f3, -, H3⟩, ⟨%d4, %f4, -, H4⟩, ⟨%f8, %hf8, H8⟩, ⟨%f9, %hf9, H9⟩, Hk⟩
  subst hf0; subst hf1; subst hf2; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_writes_cons_unit_zero (S := S1024x1024) _ _ hz2]
    sl_unfold_run_names
    simp only [View.readCov_cons_toLoadRect, View.readAt_eq_ld, View.ld_unit_zero (S := S1024x512) hz2, View.ld_unit_zero (S := S1024x1024) hz2]
  isplitl [H4]
  · iexists _; isplitr
    swap; · iexact H4
    ipureintro
    rw [read_writes_cons_unit_zero (S := S1024x1024) _ _ hz2]
    sl_unfold_run_names
    simp only [View.readCov_cons_toLoadRect, View.readAt_eq_ld, View.ld_unit_zero (S := S1024x512) hz2, View.ld_unit_zero (S := S1024x1024) hz2]
  isplitl [H8]
  · iexists _; isplitr
    swap; · iexact H8
    ipureintro
    sl_unfold_run_names
    rw [read_writes_cons_unit_zero (S := S1024x1024) _ _ hz2]
    simp only [View.readCov_cons_toLoadRect, View.readAt_eq_ld, View.ld_unit_zero (S := S1024x512) hz2, View.ld_unit_zero (S := S1024x1024) hz2]
  iexists _; isplitr
  swap; · iexact H9
  ipureintro
  sl_unfold_run_names
  rw [read_writes_cons_unit_zero (S := S1024x1024) _ _ hz2]
  simp only [View.readCov_cons_toLoadRect, View.readAt_eq_ld, View.ld_unit_zero (S := S1024x512) hz2, View.ld_unit_zero (S := S1024x1024) hz2]

end Cert.Kernel.Hand
end
-- ==== Proof.K.Reg0.lean ====
import proofs.«109021_j14542759264516_2_alg».proof.Proof.K.Reg0RunA
import proofs.«109021_j14542759264516_2_alg».proof.Proof.K.Reg0RunB
import proofs.«109021_j14542759264516_2_alg».proof.Proof.K.Reg0RunC
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (Pipeline.UD sig nD τ) ℕ
-- the TensorCore's buffer contents when the region is entered: a parameter, instantiated by the run
variable (V : (c : Dev nD) → (b : Ref sig .tc) → Buf (Elt F) ((c : Thread nD τ).loc b))

/-! # Region 0: the accumulators point by point, the proof data, the body obligation -/

/-! ## What the two accumulators hold after each point -/

/-- The two accumulators' contents after point `n`: at the first step of a reduction (`n ≡ 0 mod 8`) the product of
    the point's blocks added to the zero block, otherwise added to what the point before left. -/
def accAt0 (c : Dev nD) : (n : ℕ) → n < cfg0.N → Vec F S1024x1024 .f32 × Vec F S1024x1024 .f32
  | 0, hn => (k0_pay4 (iblk0 V c 0 ⟨0, hn⟩) (iblk0 V c 1 ⟨0, hn⟩) (k0_pay1 (F := F)), k0_pay5 (iblk0 V c 0 ⟨0, hn⟩) (iblk0 V c 2 ⟨0, hn⟩) (k0_pay2 (F := F)))
  | n + 1, hn =>
    if (n + 1) % 8 = 0 then
      (k0_pay4 (iblk0 V c 0 ⟨n + 1, hn⟩) (iblk0 V c 1 ⟨n + 1, hn⟩) (k0_pay1 (F := F)), k0_pay5 (iblk0 V c 0 ⟨n + 1, hn⟩) (iblk0 V c 2 ⟨n + 1, hn⟩) (k0_pay2 (F := F)))
    else
      (k0_pay4 (iblk0 V c 0 ⟨n + 1, hn⟩) (iblk0 V c 1 ⟨n + 1, hn⟩) (accAt0 c n (Nat.lt_of_succ_lt hn)).1, k0_pay5 (iblk0 V c 0 ⟨n + 1, hn⟩) (iblk0 V c 2 ⟨n + 1, hn⟩) (accAt0 c n (Nat.lt_of_succ_lt hn)).2)

theorem accAt0_first (c : Dev nD) (t : Fin cfg0.N) (h : t.val % 8 = 0) :
    accAt0 V c t.val t.isLt = (k0_pay4 (iblk0 V c 0 t) (iblk0 V c 1 t) (k0_pay1 (F := F)), k0_pay5 (iblk0 V c 0 t) (iblk0 V c 2 t) (k0_pay2 (F := F))) := by
  obtain ⟨n, hn⟩ := t
  cases n with
  | zero => rfl
  | succ n => exact if_pos h

theorem accAt0_next (c : Dev nD) (t : Fin cfg0.N) (h : t.val % 8 ≠ 0) (h' : t.val - 1 < cfg0.N) :
    accAt0 V c t.val t.isLt = (k0_pay4 (iblk0 V c 0 t) (iblk0 V c 1 t) (accAt0 V c (t.val - 1) h').1, k0_pay5 (iblk0 V c 0 t) (iblk0 V c 2 t) (accAt0 V c (t.val - 1) h').2) := by
  obtain ⟨n, hn⟩ := t
  cases n with
  | zero => exact absurd (Nat.zero_mod _) h
  | succ n => exact if_neg h

/-! ## The invariant: the class's before the first point, then the accumulators at their contents -/

def PhiS0 (c : Dev nD) : (n : ℕ) → n ≤ cfg0.N → sProp 𝕄
  | 0, _ => Pipeline.ΦA spec0 c
  | n + 1, hn => iprop(iprop(owns (c : Thread nD τ) scM0_0 fullShare (accAt0 V c n hn).1 ∗ owns (c : Thread nD τ) scM0_1 fullShare (accAt0 V c n hn).2 ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (accAt0 V c n hn).1 ∗ owns (c : Thread nD τ) scM0_1 fullShare (accAt0 V c n hn).2 ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (accAt0 V c (n - 1) (by omega)).1 ∗ owns (c : Thread nD τ) scM0_1 fullShare (accAt0 V c (n - 1) (by omega)).2 ∗ rest0 (F := F) c) ∗ (∃ r, prngReg c r)) := by
  cases n with
  | zero => exact absurd rfl hz
  | succ n => rfl

/-! ## The proof data -/

/-- The proof data of region 0 on core `c`: the arrays as the region finds them; after the body each input's buffer
    at its block and each output's at the accumulator's contents narrowed to bf16 (consulted at the last step of a
    reduction only: elsewhere the window is idle and not written back); the invariant above; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay6 (accAt0 V c t.val t.isLt).1
    | ⟨4, _⟩ => k0_pay7 (accAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay6 (accAt0 V c t.val t.isLt).1 := by dsimp only [dat0]
theorem after0_4 (c : Dev nD) (t : Fin cfg0.N) : (dat0 V c).after 4 t = k0_pay7 (accAt0 V c t.val t.isLt).2 := by dsimp only [dat0]

theorem after0_3_last (c : Dev nD) (t : Fin cfg0.N) (h : t.val % 8 = 7) : (dat0 V c).after 3 t = k0_pay6 (accAt0 V c t.val t.isLt).1 :=
  after0_3 V c t
theorem after0_4_last (c : Dev nD) (t : Fin cfg0.N) (h : t.val % 8 = 7) : (dat0 V c).after 4 t = k0_pay7 (accAt0 V c t.val t.isLt).2 :=
  after0_4 V c t

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4800000 in
/-- The body at any point: the inputs' memrefs hold their blocks; the point's last coordinate selects the case; the
    invariant hands the body the accumulators (at anything before the first point, else at what the point before left)
    and takes them back at this point's contents; an idle output's buffer goes through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 64 := lt_of_lt_of_eq t.isLt (show cfg0.N = 64 from N_0)
  by_cases h0 : t.val % 8 = 0
  · have hc0 : cond0_0 (grid0.coords t) := (hcond0_0 t).mpr h0
    have hc1 : ¬cond0_1 (grid0.coords t) := fun h => by have := (hcond0_1 t).mp h; omega
    rw [Dat.leavesExact_idle (dat0 V c) 3 t (idleAt0_3 t hc1) (noFlush0_3 t hc1),
      Dat.leavesExact_idle (dat0 V c) 4 t (idleAt0_4 t hc1) (noFlush0_4 t hc1)]
    rw [accAt0_first V c t h0]
    (try dsimp only)
    by_cases hz : t.val = 0
    · rw [PhiS0_castSucc V c t, PhiS0_zero V c _ _ hz, PhiA0_eq]
      iintro ⟨⟨⟨HS0, HS1, HR⟩, Hg⟩, Ho, ⟨%d0, H0⟩, ⟨%d1, H1⟩, ⟨%d2, H2⟩, ⟨%d3, H3⟩, ⟨%d4, H4⟩⟩
      iapply (sound_kernel0_A c Set.univ (grid0.coords t) _ _ _ _ _ _ _ _ _ _ _ _ _ _ hc0 hc1 (iblk0 V c 0 t) (iblk0 V c 1 t) (iblk0 V c 2 t) _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply (sound_kernel0_A c Set.univ (grid0.coords t) _ _ _ _ _ _ _ _ _ _ _ _ _ _ hc0 hc1 (iblk0 V c 0 t) (iblk0 V c 1 t) (iblk0 V c 2 t) _ _ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexists _; iexact H3
      iexists _; iexact H4
  · have hc0 : ¬cond0_0 (grid0.coords t) := fun h => h0 ((hcond0_0 t).mp h)
    have hz : t.val ≠ 0 := fun h => h0 (by omega)
    by_cases h1 : t.val % 8 = 7
    · have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3]
      rw [show (dat0 V c).leavesExact 4 t = owns (c : Thread nD τ) (ms0_4 t) fullShare ((dat0 V c).after 4 t) from by
        unfold Dat.leavesExact; rw [liveAt0_4 t hc1], after0_4]
      rw [accAt0_next V c t h0 (Nat.lt_of_le_of_lt (Nat.sub_le _ _) t.isLt)]
      (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply (sound_kernel0_C c Set.univ (grid0.coords t) _ _ _ _ _ _ _ _ _ _ _ _ _ _ hc0 hc1 (iblk0 V c 0 t) (iblk0 V c 1 t) (iblk0 V c 2 t) _ _ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      iexact H4
    · have hc1 : ¬cond0_1 (grid0.coords t) := fun h => h1 ((hcond0_1 t).mp h)
      rw [Dat.leavesExact_idle (dat0 V c) 3 t (idleAt0_3 t hc1) (noFlush0_3 t hc1),
        Dat.leavesExact_idle (dat0 V c) 4 t (idleAt0_4 t hc1) (noFlush0_4 t hc1)]
      rw [accAt0_next V c t h0 (Nat.lt_of_le_of_lt (Nat.sub_le _ _) t.isLt)]
      (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply (sound_kernel0_B c Set.univ (grid0.coords t) _ _ _ _ _ _ _ _ _ _ _ _ _ _ hc0 hc1 (iblk0 V c 0 t) (iblk0 V c 1 t) (iblk0 V c 2 t) _ _ _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After any point the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.Kernel.Hand
end
-- ==== Proof.K.Reg1.lean ====
import proofs.«109021_j14542759264516_2_alg».proof.Proof.Gen.Kernel.Launch
import proofs.«109021_j14542759264516_2_alg».proof.Proof.Gen.Kernel.Skeleton
import proofs.«109021_j14542759264516_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic
set_option maxRecDepth 16384
noncomputable section
namespace Cert.Kernel.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen
variable {F : FTy → Type} [FloatOps F]
local notation "𝕄" => MT nD τ sig Unit (Elt F) ℕ (Pipeline.UD sig nD τ) ℕ
-- the TensorCore's buffer contents when the region is entered: a parameter, instantiated by the run
variable (V : (c : Dev nD) → (b : Ref sig .tc) → Buf (Elt F) ((c : Thread nD τ).loc b))

/-! # Region 1: the attention-times-values kernel (custom_call 1, pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: an unfetched input's block index has not
    moved, so the buffer still holds this point's block. The window is uncut and never idle. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: an unfetched input's block index has not
    moved, so the buffer still holds this point's block. The window is uncut and never idle. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: an unfetched input's block index has not
    moved, so the buffer still holds this point's block. The window is uncut and never idle. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: an unfetched input's block index has not
    moved, so the buffer still holds this point's block. The window is uncut and never idle. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The zero offsets of the body's whole-buffer accesses are the zero function. -/
theorem off3_zero : (![0, 0, 0] : Fin 3 → Nat) = fun _ => 0 := by
  funext a; fin_cases a <;> rfl
theorem off2_zero : (![0, 0] : Fin 2 → Nat) = fun _ => 0 := by
  funext a; fin_cases a <;> rfl

/-- The rectangle of the body's one store: the whole output block. -/
abbrev r1_4 : Rect S8x64x512 := Rect.unit (s := S8x64x512) ![0, 0, 0] S8x64x512.size inb_S8x64x512_S8x64x512_0_0_0

/-! ## The body's triple -/

set_option maxHeartbeats 1000000 in
/-- The kernel body on whole staging memrefs — the four inputs' at read contents, the output's at anything — runs to
    the continuation holding the inputs' as they were and the output's at the payload of the four input blocks: the body
    loads each input whole, loads the output buffer (a value it does not use), and stores the whole output block once,
    so what the output buffer held before does not survive. -/
theorem sound_kernel1 (c : Dev nD) (E : Set ℕ) (i : grid1.Coords)
    (arg1 : Memref sig .tc .vmem S8x512x64 .bf16) (harg1 : arg1.IsWhole) (arg2 : Memref sig .tc .vmem S8x512x64 .bf16) (harg2 : arg2.IsWhole)
    (arg3 : Memref sig .tc .vmem S1x64x4096 .f32) (harg3 : arg3.IsWhole) (arg4 : Memref sig .tc .vmem S64x64 .f32) (harg4 : arg4.IsWhole)
    (arg5 : Memref sig .tc .vmem S8x64x512 .f32) (harg5 : arg5.IsWhole)
    (x8 : Vec F S8x512x64 .bf16) (x10 : Vec F S8x512x64 .bf16) (x0 : Vec F S1x64x4096 .f32) (x3 : Vec F S64x64 .f32) (K : PUnit → sProp 𝕄) :
    iprop(owns (c : Thread nD τ) arg1 fullShare x8 ∗ owns (c : Thread nD τ) arg2 fullShare x10 ∗ owns (c : Thread nD τ) arg3 fullShare x0
        ∗ owns (c : Thread nD τ) arg4 fullShare x3 ∗ (∃ d, owns (c : Thread nD τ) arg5 fullShare d)
        ∗ (iprop(owns (c : Thread nD τ) arg1 fullShare x8 ∗ owns (c : Thread nD τ) arg2 fullShare x10 ∗ owns (c : Thread nD τ) arg3 fullShare x0
            ∗ owns (c : Thread nD τ) arg4 fullShare x3 ∗ owns (c : Thread nD τ) arg5 fullShare (k1_pay1 x0 x3 x8 x10)) -∗ K ⟨⟩))
      ⊢ wp frame (wpE (defs₀ (F := F)) Variants.none c none) E (cc1__attn_v_kernel i arg1 harg1 arg2 harg2 arg3 harg3 arg4 harg4 arg5 harg5) K := by
  simp only [cc1__attn_v_kernel_eq_skeleton]; unfold cc1__attn_v_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ ?_).trans ?_
  · exact fun y => ⟨_, List.mem_singleton_self _, View.mem_set_unit_zero (S := S8x64x512) off3_zero inb_S8x64x512_S8x64x512_0_0_0 y⟩
  rw [View.canon_unit_zero (S := S8x64x512) off3_zero]
  simp only [View.readAt_eq_ld, View.ld_unit_zero (S := S1x64x4096) off3_zero, View.ld_unit_zero (S := S64x64) off2_zero,
    View.ld_unit_zero (S := S8x512x64) off3_zero]

/-! ## The pipeline's proof data -/

/-- The proof data of pipeline 1 on core `c`: the arrays as the region finds them (`V`); after the body at point `t`
    each input's buffer at its block and the output's at the payload of the four input blocks there; the invariant
    the scoped rest and the generator register, untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (iblk1 V c 2 t) (iblk1 V c 3 t) (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay1 (iblk1 V c 2 t) (iblk1 V c 3 t) (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, the output's holds anything, so the body's triple
    applies; the invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The invariant, the shares and the debts of the proof data are the class's, by unfolding. -/
theorem Phi_eq1 (c : Dev nD) (t : Fin (cfg1.N + 1)) : (dat1 V c).Φ t = Pipeline.ΦA spec1 c := rfl
theorem q_eq1 (c : Dev nD) : (dat1 V c).q = fun _ => fullShare := rfl
theorem owed_eq1 (c : Dev nD) : (dat1 V c).owed = fun _ => 0 := rfl

end Cert.Kernel.Hand
-- ==== Proof.K.Run.lean ====
/-
  The run of @main: a reshape, the projection kernel's region, three reshapes, the attention kernel's region, a last
  reshape. The contents of every unscoped buffer at each of the six boundaries are a fold from the launch memory
  (`B0` … `B5`): a stretch of host operations applies them, a region leaves its windows' arrays at what its
  write-backs fold to and everything else as entered. Each region is a segment entered from and left at "every
  unscoped buffer held at the boundary's contents, the generator register at some state, nothing owed"; the launch
  theorem for a list of segments then gives: every weakly fair execution terminates, nothing faults, and the final
  memory holds `B5` at every unscoped buffer. The arguments are read back through the fold to the launch memory
  (no stretch writes one, a region only reads them), which is the frame, at any float instance.
-/
import proofs.«109021_j14542759264516_2_alg».proof.Proof.Gen.Kernel.Regions
import proofs.«109021_j14542759264516_2_alg».proof.Proof.K.Reg0
import proofs.«109021_j14542759264516_2_alg».proof.Proof.K.Reg1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary of @main -/

/-- at launch -/
abbrev B0 : Dev nD → Valuation τ sig (Elt F) := fun c b => (s₀ m ρ).mem ((c : Dev nD), b)
/-- after the first reshape: region 0's entry -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- after region 0: its arrays at what its write-backs leave -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)
/-- after the three reshapes: region 1's entry -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- after region 1 -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)
/-- after the last reshape: the end -/
abbrev B5 : Dev nD → Valuation τ sig (Elt F) := fun c => StableHlo.after hostOps2 (B4 m ρ c)

/-! ## The proof data family and the thread state -/

def pdats : (p : Fin 2) → (c : Dev nD) → Dat τ (Elt F) Unit ℕ (Pipeline.UD sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- what rides beside the buffers: the generator register at some state, nothing owed -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B5 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun w => A_eq0 (E1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (E1 m ρ) c).Φ 0 from rfl]
    refine BI.Entails.trans (Q := (Pipeline.ΦA spec0 c : sProp 𝕄)) ?_ (hin0 (E1 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none, show (pdats m ρ 0 c).Φ (Fin.last _) = (dat0 (E1 m ρ) c).Φ (Fin.last cfg0.N) from rfl]
    refine BI.Entails.trans (Q := (Pipeline.ΦA spec0 c : sProp 𝕄)) (hout0 (E1 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun w => A_eq1 (E3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)) ]
theorem main_run (c : Dev nD) : main (F := F) c = Pipeline.Seg.run (segs m ρ) := (main_chain c).trans (by chain_rfl)

set_option backward.isDefEq.respectTransparency.types false in
/-- every weakly fair execution of @main terminates, nothing faulting, with every unscoped buffer at the last boundary's contents -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (B5 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h c => h c)

/-! ## The arguments end as launched -/

section Args
variable {F : FTy → Type} [FloatOps F]
variable (m : (ℓ : Loc nD τ sig) → Buf (Elt F) ℓ) (ρ : Dev nD → PrngReg)

theorem B1_of (c : Dev nD) (r : Ref sig .tc) (h : r ∉ hostOps0_W) : B1 m ρ c (Proc.devRef .tc r) = B0 m ρ c (Proc.devRef .tc r) :=
  StableHlo.after_of_writes_sub hostOps0 _ hostOps0_writes h
theorem B3_of (c : Dev nD) (r : Ref sig .tc) (h : r ∉ hostOps1_W) : B3 m ρ c (Proc.devRef .tc r) = B2 m ρ c (Proc.devRef .tc r) :=
  StableHlo.after_of_writes_sub hostOps1 _ hostOps1_writes h
theorem B5_of (c : Dev nD) (r : Ref sig .tc) (h : r ∉ hostOps2_W) : B5 m ρ c (Proc.devRef .tc r) = B4 m ρ c (Proc.devRef .tc r) :=
  StableHlo.after_of_writes_sub hostOps2 _ hostOps2_writes h

theorem B5_main_arg0 (c : Dev nD) : B5 m ρ c (Proc.devRef .tc main_arg0) = m ((c : Thread nD τ).loc main_arg0) :=
  calc B5 m ρ c (Proc.devRef .tc main_arg0)
    _ = B4 m ρ c (Proc.devRef .tc main_arg0) := B5_of m ρ c main_arg0 (by decide)
    _ = B3 m ρ c (Proc.devRef .tc main_arg0) := B4_of_ne m ρ c main_arg0 (by decide)
    _ = B2 m ρ c (Proc.devRef .tc main_arg0) := B3_of m ρ c main_arg0 (by decide)
    _ = B1 m ρ c (Proc.devRef .tc main_arg0) := B2_of_ne m ρ c main_arg0 (by decide)
    _ = B0 m ρ c (Proc.devRef .tc main_arg0) := B1_of m ρ c main_arg0 (by decide)
    _ = m ((c : Thread nD τ).loc main_arg0) := rfl
theorem B5_main_arg1 (c : Dev nD) : B5 m ρ c (Proc.devRef .tc main_arg1) = m ((c : Thread nD τ).loc main_arg1) :=
  calc B5 m ρ c (Proc.devRef .tc main_arg1)
    _ = B4 m ρ c (Proc.devRef .tc main_arg1) := B5_of m ρ c main_arg1 (by decide)
    _ = B3 m ρ c (Proc.devRef .tc main_arg1) := B4_of_ne m ρ c main_arg1 (by decide)
    _ = B2 m ρ c (Proc.devRef .tc main_arg1) := B3_of m ρ c main_arg1 (by decide)
    _ = B1 m ρ c (Proc.devRef .tc main_arg1) := B2_of_ne m ρ c main_arg1 (by decide)
    _ = B0 m ρ c (Proc.devRef .tc main_arg1) := B1_of m ρ c main_arg1 (by decide)
    _ = m ((c : Thread nD τ).loc main_arg1) := rfl
theorem B2_main_arg2 (c : Dev nD) : B2 m ρ c (Proc.devRef .tc main_arg2) = m ((c : Thread nD τ).loc main_arg2) :=
  calc B2 m ρ c (Proc.devRef .tc main_arg2)
    _ = B1 m ρ c (Proc.devRef .tc main_arg2) := (B2_arr m ρ c 1).trans (((dat0 (E1 m ρ) c).arrAt_in 1 rfl _).trans (A_eq0 (E1 m ρ) c 1))
    _ = B0 m ρ c (Proc.devRef .tc main_arg2) := B1_of m ρ c main_arg2 (by decide)
    _ = m ((c : Thread nD τ).loc main_arg2) := rfl
theorem B2_main_arg3 (c : Dev nD) : B2 m ρ c (Proc.devRef .tc main_arg3) = m ((c : Thread nD τ).loc main_arg3) :=
  calc B2 m ρ c (Proc.devRef .tc main_arg3)
    _ = B1 m ρ c (Proc.devRef .tc main_arg3) := (B2_arr m ρ c 2).trans (((dat0 (E1 m ρ) c).arrAt_in 2 rfl _).trans (A_eq0 (E1 m ρ) c 2))
    _ = B0 m ρ c (Proc.devRef .tc main_arg3) := B1_of m ρ c main_arg3 (by decide)
    _ = m ((c : Thread nD τ).loc main_arg3) := rfl
theorem B5_main_arg2 (c : Dev nD) : B5 m ρ c (Proc.devRef .tc main_arg2) = m ((c : Thread nD τ).loc main_arg2) :=
  calc B5 m ρ c (Proc.devRef .tc main_arg2)
    _ = B4 m ρ c (Proc.devRef .tc main_arg2) := B5_of m ρ c main_arg2 (by decide)
    _ = B3 m ρ c (Proc.devRef .tc main_arg2) := B4_of_ne m ρ c main_arg2 (by decide)
    _ = B2 m ρ c (Proc.devRef .tc main_arg2) := B3_of m ρ c main_arg2 (by decide)
    _ = m ((c : Thread nD τ).loc main_arg2) := B2_main_arg2 m ρ c
theorem B5_main_arg3 (c : Dev nD) : B5 m ρ c (Proc.devRef .tc main_arg3) = m ((c : Thread nD τ).loc main_arg3) :=
  calc B5 m ρ c (Proc.devRef .tc main_arg3)
    _ = B4 m ρ c (Proc.devRef .tc main_arg3) := B5_of m ρ c main_arg3 (by decide)
    _ = B3 m ρ c (Proc.devRef .tc main_arg3) := B4_of_ne m ρ c main_arg3 (by decide)
    _ = B2 m ρ c (Proc.devRef .tc main_arg3) := B3_of m ρ c main_arg3 (by decide)
    _ = m ((c : Thread nD τ).loc main_arg3) := B2_main_arg3 m ρ c
theorem B3_main_arg4 (c : Dev nD) : B3 m ρ c (Proc.devRef .tc main_arg4) = m ((c : Thread nD τ).loc main_arg4) :=
  calc B3 m ρ c (Proc.devRef .tc main_arg4)
    _ = B2 m ρ c (Proc.devRef .tc main_arg4) := B3_of m ρ c main_arg4 (by decide)
    _ = B1 m ρ c (Proc.devRef .tc main_arg4) := B2_of_ne m ρ c main_arg4 (by decide)
    _ = B0 m ρ c (Proc.devRef .tc main_arg4) := B1_of m ρ c main_arg4 (by decide)
    _ = m ((c : Thread nD τ).loc main_arg4) := rfl
theorem B5_main_arg4 (c : Dev nD) : B5 m ρ c (Proc.devRef .tc main_arg4) = m ((c : Thread nD τ).loc main_arg4) :=
  calc B5 m ρ c (Proc.devRef .tc main_arg4)
    _ = B4 m ρ c (Proc.devRef .tc main_arg4) := B5_of m ρ c main_arg4 (by decide)
    _ = B3 m ρ c (Proc.devRef .tc main_arg4) := (B4_arr m ρ c 3).trans (((dat1 (E3 m ρ) c).arrAt_in 3 rfl _).trans (A_eq1 (E3 m ρ) c 3))
    _ = m ((c : Thread nD τ).loc main_arg4) := B3_main_arg4 m ρ c

/-- the frame: every execution terminates, nothing faults, the five arguments end as launched, at any `F` -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (B5_main_arg0 m ρ c),
     (h c _ (mem_uc main_arg1 (by decide))).trans (B5_main_arg1 m ρ c),
     (h c _ (mem_uc main_arg2 (by decide))).trans (B5_main_arg2 m ρ c),
     (h c _ (mem_uc main_arg3 (by decide))).trans (B5_main_arg3 m ρ c),
     (h c _ (mem_uc main_arg4 (by decide))).trans (B5_main_arg4 m ρ c)⟩) (run_all m ρ)

/-- the run with the result named: the last reshape's buffer at the last boundary's contents -/
theorem run_value : θ_run defs (onTc (τ := τ) (main (F := F))) ⟨m, fun _ => 0, ρ⟩ (fun r => ∀ c : Dev nD,
      r.2.mem ((c.tc : Thread nD τ).loc main_v6) = B5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v6 (by decide)),
     (h c _ (mem_uc main_arg0 (by decide))).trans (B5_main_arg0 m ρ c),
     (h c _ (mem_uc main_arg1 (by decide))).trans (B5_main_arg1 m ρ c),
     (h c _ (mem_uc main_arg2 (by decide))).trans (B5_main_arg2 m ρ c),
     (h c _ (mem_uc main_arg3 (by decide))).trans (B5_main_arg3 m ρ c),
     (h c _ (mem_uc main_arg4 (by decide))).trans (B5_main_arg4 m ρ c)⟩) (run_all m ρ)
end Args

end Cert.Kernel.Hand

end
-- ==== Proof.KI.Reg0Base.lean ====
import proofs.«109021_j14542759264516_2_alg».proof.Proof.Gen.KernelIdeal.Launch
import proofs.«109021_j14542759264516_2_alg».proof.Proof.Gen.KernelIdeal.Skeleton
import proofs.«109021_j14542759264516_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F] [Named F]
local notation "𝕄" => MT nD τ sig Unit (Elt F) ℕ (Pipeline.UD sig nD τ) ℕ
-- the TensorCore's buffer contents when the region is entered: a parameter, instantiated by the run
variable (V : (c : Dev nD) → (b : Ref sig .tc) → Buf (Elt F) ((c : Thread nD τ).loc b))

/-! # Region 0 (the accumulating matmul kernel on the grid (2,4,8)): what its three cases share -/

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, for any proof data whose array is
    the entry contents and whose body leaves the block in place: the window is uncut, never idle, and an input. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, for any proof data whose array is
    the entry contents and whose body leaves the block in place: the window is uncut, never idle, and an input. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, for any proof data whose array is
    the entry contents and whose body leaves the block in place: the window is uncut, never idle, and an input. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions on the last grid coordinate -/

/-- The first conditional: the last coordinate is 0 (the accumulators are zeroed). -/
abbrev cond0_0 (i : grid0.Coords) : Prop := (Scalar.cmpi .ne (Scalar.extui (Scalar.cmpi .eq (BitVec.ofNat 32 (i 2).val) 0#32)) 0#32) = 1#1
/-- It holds at the points ≡ 0 (mod 8). -/
theorem hcond0_0 : ∀ t : Fin cfg0.N, cond0_0 (grid0.coords t) ↔ t.val % 8 = 0 :=
  (by decide +kernel : ∀ t : Fin grid0.N, cond0_0 (grid0.coords t) ↔ t.val % 8 = 0)
/-- The second conditional: the last coordinate is 7 (the accumulators are cast and stored). -/
abbrev cond0_1 (i : grid0.Coords) : Prop := k0_cond2 i = 1#1
/-- It holds at the points ≡ 7 (mod 8). -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last step of a reduction the two outputs are idle and not written back; at it they are live. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The memrefs the body is called with -/

abbrev ms0_0 (t : Fin cfg0.N) : Memref sig .tc .vmem S1024x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1024x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1024 .bf16 := win0_4.stage (cfg0.slots t 4)
abbrev hs0_4 (t : Fin cfg0.N) : (ms0_4 t).IsWhole := hstage0_4 ((cfg0.slots t 4).cast nbuf0_4)
/-- The two accumulators: whole scoped buffers of the kernel's own. -/
abbrev scM0_0 : Memref sig .tc .vmem S1024x1024 .f32 := Memref.whole cc0_scratch0
abbrev scM0_1 : Memref sig .tc .vmem S1024x1024 .f32 := Memref.whole cc0_scratch1

/-! ## The class invariant with the accumulators set apart -/

/-- The scoped buffers that are neither this region's staging buffers nor its accumulators (the other region's
    staging buffers), each at some contents: the body never touches them. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The class invariant is the two accumulators at some contents, the untouched rest, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

/-! ## Whole-shape stores -/

theorem hz2 : (![0, 0] : Fin 2 → Nat) = fun _ => 0 := funext fun a => by fin_cases a <;> rfl

/-- A store through the whole-shape rectangle at zero offsets, made last, reads back as its payload, whatever the
    buffer held and whatever was stored before it. -/
theorem read_writes_cons_unit_zero {sg : RefSig} {κ : Kind} {sp : Space} {S : Shape} {e : EltTy} {Val : EltTy → Type}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  subst h; funext y
  have e := View.read_writes_cons_emb v f (Rect.whole S) w L y
  rw [Rect.emb_whole_apply] at e
  exact e

end Cert.KernelIdeal.Hand
end
-- ==== Proof.KI.Reg0RunA.lean ====
import proofs.«109021_j14542759264516_2_alg».proof.Proof.KI.Reg0Base
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F] [Named F]
local notation "𝕄" => MT nD τ sig Unit (Elt F) ℕ (Pipeline.UD sig nD τ) ℕ
-- the TensorCore's buffer contents when the region is entered: a parameter, instantiated by the run
variable (V : (c : Dev nD) → (b : Ref sig .tc) → Buf (Elt F) ((c : Thread nD τ).loc b))

/-! # Region 0, the first step of a reduction (last coordinate 0): both accumulators are zeroed, then accumulate -/

set_option maxHeartbeats 1000000 in
/-- On whole memrefs — the three inputs' at their blocks, the two outputs' at contents handed back untouched, the two
    accumulators at anything — the body at a point whose last coordinate is 0 leaves each accumulator at the product
    of the point's blocks added to the zero block. -/
theorem sound_kernel0_A (c : Dev nD) (E : Set ℕ) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 x1 x2 : Vec F S1024x512 .f32) (xi3 xi4 : Vec F S1024x1024 .bf16) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4
        ∗ (∃ d, owns (c : Thread nD τ) arg8 fullShare d) ∗ (∃ d, owns (c : Thread nD τ) arg9 fullShare d)
        ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4
            ∗ owns (c : Thread nD τ) arg8 fullShare (k0_pay4 x0 x1 (k0_pay1 (F := F))) ∗ owns (c : Thread nD τ) arg9 fullShare (k0_pay5 x0 x2 (k0_pay2 (F := F)))) -∗ K ⟨⟩))
      ⊢ wp frame (wpE (defs₀ (F := F)) Variants.none c none) E (cc0__qk_kernel i arg3 harg3 arg4 harg4 arg5 harg5 arg6 harg6 arg7 harg7 arg8 harg8 arg9 harg9) K := by
  simp only [cc0__qk_kernel_eq_skeleton]; unfold cc0__qk_kernel_skel
  unfold owns
  iintro ⟨⟨%f0, %hf0, H0⟩, ⟨%f1, %hf1, H1⟩, ⟨%f2, %hf2, H2⟩, ⟨%f3, %hf3, H3⟩, ⟨%f4, %hf4, H4⟩, ⟨%d8, %f8, -, H8⟩, ⟨%d9, %f9, -, H9⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; exact hf3
    iexact H3
  isplitl [H4]
  · iexists f4; isplitr; · ipureintro; exact hf4
    iexact H4
  isplitl [H8]
  · iexists _; isplitr
    swap; · iexact H8
    ipureintro
    rw [read_writes_cons_unit_zero (S := S1024x1024) _ _ hz2]
    sl_unfold_run_names
    simp only [View.readCov_cons_toLoadRect, View.readAt_eq_ld, View.ld_unit_zero (S := S1024x512) hz2, View.ld_unit_zero (S := S1024x1024) hz2]
  iexists _; isplitr
  swap; · iexact H9
  ipureintro
  rw [read_writes_cons_unit_zero (S := S1024x1024) _ _ hz2]
  sl_unfold_run_names
  simp only [View.readCov_cons_toLoadRect, View.readAt_eq_ld, View.ld_unit_zero (S := S1024x512) hz2, View.ld_unit_zero (S := S1024x1024) hz2]

end Cert.KernelIdeal.Hand
end
-- ==== Proof.KI.Reg0RunB.lean ====
import proofs.«109021_j14542759264516_2_alg».proof.Proof.KI.Reg0Base
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F] [Named F]
local notation "𝕄" => MT nD τ sig Unit (Elt F) ℕ (Pipeline.UD sig nD τ) ℕ
-- the TensorCore's buffer contents when the region is entered: a parameter, instantiated by the run
variable (V : (c : Dev nD) → (b : Ref sig .tc) → Buf (Elt F) ((c : Thread nD τ).loc b))

/-! # Region 0, an inner step of a reduction (last coordinate neither 0 nor 7): accumulate only -/

set_option maxHeartbeats 1000000 in
/-- On whole memrefs — the three inputs' at their blocks, the two outputs' at contents handed back untouched, the two
    accumulators at what the step before left — the body at a point whose last coordinate is neither 0 nor 7 leaves
    each accumulator at the product of the point's blocks added to what it held. -/
theorem sound_kernel0_B (c : Dev nD) (E : Set ℕ) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 x1 x2 : Vec F S1024x512 .f32) (xi3 xi4 : Vec F S1024x1024 .bf16) (xs0 xs1 : Vec F S1024x1024 .f32) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4
        ∗ owns (c : Thread nD τ) arg8 fullShare xs0 ∗ owns (c : Thread nD τ) arg9 fullShare xs1
        ∗ (iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xi4
            ∗ owns (c : Thread nD τ) arg8 fullShare (k0_pay4 x0 x1 xs0) ∗ owns (c : Thread nD τ) arg9 fullShare (k0_pay5 x0 x2 xs1)) -∗ K ⟨⟩))
      ⊢ wp frame (wpE (defs₀ (F := F)) Variants.none c none) E (cc0__qk_kernel i arg3 harg3 arg4 harg4 arg5 harg5 arg6 harg6 arg7 harg7 arg8 harg8 arg9 harg9) K := by
  simp only [cc0__qk_kernel_eq_skeleton]; unfold cc0__qk_kernel_skel
  unfold owns
  iintro ⟨⟨%f0, %hf0, H0⟩, ⟨%f1, %hf1, H1⟩, ⟨%f2, %hf2, H2⟩, ⟨%f3, %hf3, H3⟩, ⟨%f4, %hf4, H4⟩, ⟨%f8, %hf8, H8⟩, ⟨%f9, %hf9, H9⟩, Hk⟩
  subst hf0; subst hf1; subst hf2; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; exact hf3
    iexact H3
  isplitl [H4]
  · iexists f4; isplitr; · ipureintro; exact hf4
    iexact H4
  isplitl [H8]
  · iexists _; isplitr
    swap; · iexact H8
    ipureintro
    rw [read_writes_cons_unit_zero (S := S1024x1024) _ _ hz2]
    sl_unfold_run_names
    simp only [View.readCov_cons_toLoadRect, View.readAt_eq_ld, View.ld_unit_zero (S := S1024x512) hz2, View.ld_unit_zero (S := S1024x1024) hz2]
  iexists _; isplitr
  swap; · iexact H9
  ipureintro
  rw [read_writes_cons_unit_zero (S := S1024x1024) _ _ hz2]
  sl_unfold_run_names
  simp only [View.readCov_cons_toLoadRect, View.readAt_eq_ld, View.ld_unit_zero (S := S1024x512) hz2, View.ld_unit_zero (S := S1024x1024) hz2]

end Cert.KernelIdeal.Hand
end
-- ==== Proof.KI.Reg0RunC.lean ====
import proofs.«109021_j14542759264516_2_alg».proof.Proof.KI.Reg0Base
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F] [Named F]
local notation "𝕄" => MT nD τ sig Unit (Elt F) ℕ (Pipeline.UD sig nD τ) ℕ
-- the TensorCore's buffer contents when the region is entered: a parameter, instantiated by the run
variable (V : (c : Dev nD) → (b : Ref sig .tc) → Buf (Elt F) ((c : Thread nD τ).loc b))

/-! # Region 0, the last step of a reduction (last coordinate 7): accumulate, then cast and store both outputs -/

set_option maxHeartbeats 1000000 in
/-- On whole memrefs — the three inputs' at their blocks, the two outputs' at anything, the two accumulators at what
    the step before left — the body at a point whose last coordinate is 7 leaves each accumulator at the product of
    the point's blocks added to what it held, and each output at that sum narrowed to bf16. -/
theorem sound_kernel0_C (c : Dev nD) (E : Set ℕ) (i : grid0.Coords) (arg3 : Memref sig .tc .vmem S1024x512 .f32) (harg3 : arg3.IsWhole) (arg4 : Memref sig .tc .vmem S1024x512 .f32) (harg4 : arg4.IsWhole) (arg5 : Memref sig .tc .vmem S1024x512 .f32) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 x1 x2 : Vec F S1024x512 .f32) (xs0 xs1 : Vec F S1024x1024 .f32) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
        ∗ owns (c : Thread nD τ) arg8 fullShare xs0 ∗ owns (c : Thread nD τ) arg9 fullShare xs1
        ∗ (iprop(owns (c : Thread nD τ) arg3 fullShare x0 ∗ owns (c : Thread nD τ) arg4 fullShare x1 ∗ owns (c : Thread nD τ) arg5 fullShare x2
            ∗ owns (c : Thread nD τ) arg6 fullShare (k0_pay6 (k0_pay4 x0 x1 xs0)) ∗ owns (c : Thread nD τ) arg7 fullShare (k0_pay7 (k0_pay5 x0 x2 xs1))
            ∗ owns (c : Thread nD τ) arg8 fullShare (k0_pay4 x0 x1 xs0) ∗ owns (c : Thread nD τ) arg9 fullShare (k0_pay5 x0 x2 xs1)) -∗ K ⟨⟩))
      ⊢ wp frame (wpE (defs₀ (F := F)) Variants.none c none) E (cc0__qk_kernel i arg3 harg3 arg4 harg4 arg5 harg5 arg6 harg6 arg7 harg7 arg8 harg8 arg9 harg9) K := by
  simp only [cc0__qk_kernel_eq_skeleton]; unfold cc0__qk_kernel_skel
  unfold owns
  iintro ⟨⟨%f0, %hf0, H0⟩, ⟨%f1, %hf1, H1⟩, ⟨%f2, %hf2, H2⟩, ⟨%d3, %f3, -, H3⟩, ⟨%d4, %f4, -, H4⟩, ⟨%f8, %hf8, H8⟩, ⟨%f9, %hf9, H9⟩, Hk⟩
  subst hf0; subst hf1; subst hf2; subst hf8; subst hf9
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [read_writes_cons_unit_zero (S := S1024x1024) _ _ hz2]
    sl_unfold_run_names
    simp only [View.readCov_cons_toLoadRect, View.readAt_eq_ld, View.ld_unit_zero (S := S1024x512) hz2, View.ld_unit_zero (S := S1024x1024) hz2]
  isplitl [H4]
  · iexists _; isplitr
    swap; · iexact H4
    ipureintro
    rw [read_writes_cons_unit_zero (S := S1024x1024) _ _ hz2]
    sl_unfold_run_names
    simp only [View.readCov_cons_toLoadRect, View.readAt_eq_ld, View.ld_unit_zero (S := S1024x512) hz2, View.ld_unit_zero (S := S1024x1024) hz2]
  isplitl [H8]
  · iexists _; isplitr
    swap; · iexact H8
    ipureintro
    sl_unfold_run_names
    rw [read_writes_cons_unit_zero (S := S1024x1024) _ _ hz2]
    simp only [View.readCov_cons_toLoadRect, View.readAt_eq_ld, View.ld_unit_zero (S := S1024x512) hz2, View.ld_unit_zero (S := S1024x1024) hz2]
  iexists _; isplitr
  swap; · iexact H9
  ipureintro
  sl_unfold_run_names
  rw [read_writes_cons_unit_zero (S := S1024x1024) _ _ hz2]
  simp only [View.readCov_cons_toLoadRect, View.readAt_eq_ld, View.ld_unit_zero (S := S1024x512) hz2, View.ld_unit_zero (S := S1024x1024) hz2]

end Cert.KernelIdeal.Hand
end
-- ==== Proof.KI.Reg0.lean ====
import proofs.«109021_j14542759264516_2_alg».proof.Proof.KI.Reg0RunA
import proofs.«109021_j14542759264516_2_alg».proof.Proof.KI.Reg0RunB
import proofs.«109021_j14542759264516_2_alg».proof.Proof.KI.Reg0RunC
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F] [Named F]
local notation "𝕄" => MT nD τ sig Unit (Elt F) ℕ (Pipeline.UD sig nD τ) ℕ
-- the TensorCore's buffer contents when the region is entered: a parameter, instantiated by the run
variable (V : (c : Dev nD) → (b : Ref sig .tc) → Buf (Elt F) ((c : Thread nD τ).loc b))

/-! # Region 0: the accumulators point by point, the proof data, the body obligation -/

/-! ## What the two accumulators hold after each point -/

/-- The two accumulators' contents after point `n`: at the first step of a reduction (`n ≡ 0 mod 8`) the product of
    the point's blocks added to the zero block, otherwise added to what the point before left. -/
def accAt0 (c : Dev nD) : (n : ℕ) → n < cfg0.N → Vec F S1024x1024 .f32 × Vec F S1024x1024 .f32
  | 0, hn => (k0_pay4 (iblk0 V c 0 ⟨0, hn⟩) (iblk0 V c 1 ⟨0, hn⟩) (k0_pay1 (F := F)), k0_pay5 (iblk0 V c 0 ⟨0, hn⟩) (iblk0 V c 2 ⟨0, hn⟩) (k0_pay2 (F := F)))
  | n + 1, hn =>
    if (n + 1) % 8 = 0 then
      (k0_pay4 (iblk0 V c 0 ⟨n + 1, hn⟩) (iblk0 V c 1 ⟨n + 1, hn⟩) (k0_pay1 (F := F)), k0_pay5 (iblk0 V c 0 ⟨n + 1, hn⟩) (iblk0 V c 2 ⟨n + 1, hn⟩) (k0_pay2 (F := F)))
    else
      (k0_pay4 (iblk0 V c 0 ⟨n + 1, hn⟩) (iblk0 V c 1 ⟨n + 1, hn⟩) (accAt0 c n (Nat.lt_of_succ_lt hn)).1, k0_pay5 (iblk0 V c 0 ⟨n + 1, hn⟩) (iblk0 V c 2 ⟨n + 1, hn⟩) (accAt0 c n (Nat.lt_of_succ_lt hn)).2)

theorem accAt0_first (c : Dev nD) (t : Fin cfg0.N) (h : t.val % 8 = 0) :
    accAt0 V c t.val t.isLt = (k0_pay4 (iblk0 V c 0 t) (iblk0 V c 1 t) (k0_pay1 (F := F)), k0_pay5 (iblk0 V c 0 t) (iblk0 V c 2 t) (k0_pay2 (F := F))) := by
  obtain ⟨n, hn⟩ := t
  cases n with
  | zero => rfl
  | succ n => exact if_pos h

theorem accAt0_next (c : Dev nD) (t : Fin cfg0.N) (h : t.val % 8 ≠ 0) (h' : t.val - 1 < cfg0.N) :
    accAt0 V c t.val t.isLt = (k0_pay4 (iblk0 V c 0 t) (iblk0 V c 1 t) (accAt0 V c (t.val - 1) h').1, k0_pay5 (iblk0 V c 0 t) (iblk0 V c 2 t) (accAt0 V c (t.val - 1) h').2) := by
  obtain ⟨n, hn⟩ := t
  cases n with
  | zero => exact absurd (Nat.zero_mod _) h
  | succ n => exact if_neg h

/-! ## The invariant: the class's before the first point, then the accumulators at their contents -/

def PhiS0 (c : Dev nD) : (n : ℕ) → n ≤ cfg0.N → sProp 𝕄
  | 0, _ => Pipeline.ΦA spec0 c
  | n + 1, hn => iprop(iprop(owns (c : Thread nD τ) scM0_0 fullShare (accAt0 V c n hn).1 ∗ owns (c : Thread nD τ) scM0_1 fullShare (accAt0 V c n hn).2 ∗ rest0 (F := F) c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare (accAt0 V c n hn).1 ∗ owns (c : Thread nD τ) scM0_1 fullShare (accAt0 V c n hn).2 ∗ rest0 (F := F) c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (accAt0 V c (n - 1) (by omega)).1 ∗ owns (c : Thread nD τ) scM0_1 fullShare (accAt0 V c (n - 1) (by omega)).2 ∗ rest0 (F := F) c) ∗ (∃ r, prngReg c r)) := by
  cases n with
  | zero => exact absurd rfl hz
  | succ n => rfl

/-! ## The proof data -/

/-- The proof data of region 0 on core `c`: the arrays as the region finds them; after the body each input's buffer
    at its block and each output's at the accumulator's contents narrowed to bf16 (consulted at the last step of a
    reduction only: elsewhere the window is idle and not written back); the invariant above; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => k0_pay6 (accAt0 V c t.val t.isLt).1
    | ⟨4, _⟩ => k0_pay7 (accAt0 V c t.val t.isLt).2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay6 (accAt0 V c t.val t.isLt).1 := by dsimp only [dat0]
theorem after0_4 (c : Dev nD) (t : Fin cfg0.N) : (dat0 V c).after 4 t = k0_pay7 (accAt0 V c t.val t.isLt).2 := by dsimp only [dat0]

theorem after0_3_last (c : Dev nD) (t : Fin cfg0.N) (h : t.val % 8 = 7) : (dat0 V c).after 3 t = k0_pay6 (accAt0 V c t.val t.isLt).1 :=
  after0_3 V c t
theorem after0_4_last (c : Dev nD) (t : Fin cfg0.N) (h : t.val % 8 = 7) : (dat0 V c).after 4 t = k0_pay7 (accAt0 V c t.val t.isLt).2 :=
  after0_4 V c t

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t
    ∗ (dat0 V c).leavesExact 3 t ∗ (dat0 V c).leavesExact 4 t)

set_option maxHeartbeats 4800000 in
/-- The body at any point: the inputs' memrefs hold their blocks; the point's last coordinate selects the case; the
    invariant hands the body the accumulators (at anything before the first point, else at what the point before left)
    and takes them back at this point's contents; an idle output's buffer goes through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  have hN : t.val < 64 := lt_of_lt_of_eq t.isLt (show cfg0.N = 64 from N_0)
  by_cases h0 : t.val % 8 = 0
  · have hc0 : cond0_0 (grid0.coords t) := (hcond0_0 t).mpr h0
    have hc1 : ¬cond0_1 (grid0.coords t) := fun h => by have := (hcond0_1 t).mp h; omega
    rw [Dat.leavesExact_idle (dat0 V c) 3 t (idleAt0_3 t hc1) (noFlush0_3 t hc1),
      Dat.leavesExact_idle (dat0 V c) 4 t (idleAt0_4 t hc1) (noFlush0_4 t hc1)]
    rw [accAt0_first V c t h0]
    (try dsimp only)
    by_cases hz : t.val = 0
    · rw [PhiS0_castSucc V c t, PhiS0_zero V c _ _ hz, PhiA0_eq]
      iintro ⟨⟨⟨HS0, HS1, HR⟩, Hg⟩, Ho, ⟨%d0, H0⟩, ⟨%d1, H1⟩, ⟨%d2, H2⟩, ⟨%d3, H3⟩, ⟨%d4, H4⟩⟩
      iapply (sound_kernel0_A c Set.univ (grid0.coords t) _ _ _ _ _ _ _ _ _ _ _ _ _ _ hc0 hc1 (iblk0 V c 0 t) (iblk0 V c 1 t) (iblk0 V c 2 t) _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexists _; iexact H3
      iexists _; iexact H4
    · rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply (sound_kernel0_A c Set.univ (grid0.coords t) _ _ _ _ _ _ _ _ _ _ _ _ _ _ hc0 hc1 (iblk0 V c 0 t) (iblk0 V c 1 t) (iblk0 V c 2 t) _ _ _)
      isplitl [H0]; · iexact H0
      isplitl [H1]; · iexact H1
      isplitl [H2]; · iexact H2
      isplitl [H3]; · iexact H3
      isplitl [H4]; · iexact H4
      isplitl [HS0]; · iexists _; iexact HS0
      isplitl [HS1]; · iexists _; iexact HS1
      iintro ⟨H0, H1, H2, H3, H4, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexists _; iexact H3
      iexists _; iexact H4
  · have hc0 : ¬cond0_0 (grid0.coords t) := fun h => h0 ((hcond0_0 t).mp h)
    have hz : t.val ≠ 0 := fun h => h0 (by omega)
    by_cases h1 : t.val % 8 = 7
    · have hc1 : cond0_1 (grid0.coords t) := (hcond0_1 t).mpr h1
      rw [show (dat0 V c).leavesExact 3 t = owns (c : Thread nD τ) (ms0_3 t) fullShare ((dat0 V c).after 3 t) from by
        unfold Dat.leavesExact; rw [liveAt0_3 t hc1], after0_3]
      rw [show (dat0 V c).leavesExact 4 t = owns (c : Thread nD τ) (ms0_4 t) fullShare ((dat0 V c).after 4 t) from by
        unfold Dat.leavesExact; rw [liveAt0_4 t hc1], after0_4]
      rw [accAt0_next V c t h0 (Nat.lt_of_le_of_lt (Nat.sub_le _ _) t.isLt)]
      (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply (sound_kernel0_C c Set.univ (grid0.coords t) _ _ _ _ _ _ _ _ _ _ _ _ _ _ hc0 hc1 (iblk0 V c 0 t) (iblk0 V c 1 t) (iblk0 V c 2 t) _ _ _)
      isplitl [H0]; · iexact H0
      isplitl [H1]; · iexact H1
      isplitl [H2]; · iexact H2
      isplitl [H3]; · iexists _; iexact H3
      isplitl [H4]; · iexists _; iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      iexact H4
    · have hc1 : ¬cond0_1 (grid0.coords t) := fun h => h1 ((hcond0_1 t).mp h)
      rw [Dat.leavesExact_idle (dat0 V c) 3 t (idleAt0_3 t hc1) (noFlush0_3 t hc1),
        Dat.leavesExact_idle (dat0 V c) 4 t (idleAt0_4 t hc1) (noFlush0_4 t hc1)]
      rw [accAt0_next V c t h0 (Nat.lt_of_le_of_lt (Nat.sub_le _ _) t.isLt)]
      (try dsimp only)
      rw [PhiS0_castSucc V c t, PhiS0_pos V c _ _ hz]
      iintro ⟨⟨⟨HS0, HS1, HR⟩, Hg⟩, Ho, ⟨%d0, H0⟩, ⟨%d1, H1⟩, ⟨%d2, H2⟩, ⟨%d3, H3⟩, ⟨%d4, H4⟩⟩
      iapply (sound_kernel0_B c Set.univ (grid0.coords t) _ _ _ _ _ _ _ _ _ _ _ _ _ _ hc0 hc1 (iblk0 V c 0 t) (iblk0 V c 1 t) (iblk0 V c 2 t) _ _ _ _ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 HR Hg]
      · isplitl [HS0 HS1 HR]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexists _; iexact H3
      iexists _; iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]

/-- After any point the invariant gives the class's back: the accumulators' named contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HR⟩, Hg⟩
  isplitl [HS0 HS1 HR]
  · isplitl [HS0]; · iexists _; iexact HS0
    isplitl [HS1]; · iexists _; iexact HS1
    iexact HR
  iexact Hg

theorem hout0 (c : Dev nD) : (dat0 V c).Φ (Fin.last cfg0.N) ⊢ Pipeline.ΦA spec0 c :=
  Phi_out0 V c _ (by rw [Fin.val_last]; have : cfg0.N = 64 := N_0; omega)

end Cert.KernelIdeal.Hand
end
-- ==== Proof.KI.Reg1.lean ====
import proofs.«109021_j14542759264516_2_alg».proof.Proof.Gen.KernelIdeal.Launch
import proofs.«109021_j14542759264516_2_alg».proof.Proof.Gen.KernelIdeal.Skeleton
import proofs.«109021_j14542759264516_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Tactic
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
variable {F : FTy → Type} [FloatOps F] [Named F]
local notation "𝕄" => MT nD τ sig Unit (Elt F) ℕ (Pipeline.UD sig nD τ) ℕ
-- the TensorCore's buffer contents when the region is entered: a parameter, instantiated by the run
variable (V : (c : Dev nD) → (b : Ref sig .tc) → Buf (Elt F) ((c : Thread nD τ).loc b))

/-! # Region 1: the attention-times-values kernel (custom_call 1, pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: an unfetched input's block index has not
    moved, so the buffer still holds this point's block. The window is uncut and never idle. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: an unfetched input's block index has not
    moved, so the buffer still holds this point's block. The window is uncut and never idle. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: an unfetched input's block index has not
    moved, so the buffer still holds this point's block. The window is uncut and never idle. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s and whose body leaves the block in place: an unfetched input's block index has not
    moved, so the buffer still holds this point's block. The window is uncut and never idle. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

/-- The zero offsets of the body's whole-buffer accesses are the zero function. -/
theorem off3_zero : (![0, 0, 0] : Fin 3 → Nat) = fun _ => 0 := by
  funext a; fin_cases a <;> rfl
theorem off2_zero : (![0, 0] : Fin 2 → Nat) = fun _ => 0 := by
  funext a; fin_cases a <;> rfl

/-- The rectangle of the body's one store: the whole output block. -/
abbrev r1_4 : Rect S8x64x512 := Rect.unit (s := S8x64x512) ![0, 0, 0] S8x64x512.size inb_S8x64x512_S8x64x512_0_0_0

/-! ## The body's triple -/

set_option maxHeartbeats 1000000 in
/-- The kernel body on whole staging memrefs — the four inputs' at read contents, the output's at anything — runs to
    the continuation holding the inputs' as they were and the output's at the payload of the four input blocks: the body
    loads each input whole, loads the output buffer (a value it does not use), and stores the whole output block once,
    so what the output buffer held before does not survive. -/
theorem sound_kernel1 (c : Dev nD) (E : Set ℕ) (i : grid1.Coords)
    (arg1 : Memref sig .tc .vmem S8x512x64 .bf16) (harg1 : arg1.IsWhole) (arg2 : Memref sig .tc .vmem S8x512x64 .bf16) (harg2 : arg2.IsWhole)
    (arg3 : Memref sig .tc .vmem S1x64x4096 .f32) (harg3 : arg3.IsWhole) (arg4 : Memref sig .tc .vmem S64x64 .f32) (harg4 : arg4.IsWhole)
    (arg5 : Memref sig .tc .vmem S8x64x512 .f32) (harg5 : arg5.IsWhole)
    (x8 : Vec F S8x512x64 .bf16) (x10 : Vec F S8x512x64 .bf16) (x0 : Vec F S1x64x4096 .f32) (x3 : Vec F S64x64 .f32) (K : PUnit → sProp 𝕄) :
    iprop(owns (c : Thread nD τ) arg1 fullShare x8 ∗ owns (c : Thread nD τ) arg2 fullShare x10 ∗ owns (c : Thread nD τ) arg3 fullShare x0
        ∗ owns (c : Thread nD τ) arg4 fullShare x3 ∗ (∃ d, owns (c : Thread nD τ) arg5 fullShare d)
        ∗ (iprop(owns (c : Thread nD τ) arg1 fullShare x8 ∗ owns (c : Thread nD τ) arg2 fullShare x10 ∗ owns (c : Thread nD τ) arg3 fullShare x0
            ∗ owns (c : Thread nD τ) arg4 fullShare x3 ∗ owns (c : Thread nD τ) arg5 fullShare (k1_pay1 x0 x3 x8 x10)) -∗ K ⟨⟩))
      ⊢ wp frame (wpE (defs₀ (F := F)) Variants.none c none) E (cc1__attn_v_kernel i arg1 harg1 arg2 harg2 arg3 harg3 arg4 harg4 arg5 harg5) K := by
  simp only [cc1__attn_v_kernel_eq_skeleton]; unfold cc1__attn_v_kernel_skel
  unfold owns
  iintro ⟨⟨%f1, %hf1, H1⟩, ⟨%f2, %hf2, H2⟩, ⟨%f3, %hf3, H3⟩, ⟨%f4, %hf4, H4⟩, ⟨%d5, %f5, -, H5⟩, Hk⟩
  subst hf1; subst hf2; subst hf3; subst hf4
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  refine (View.read_writes_eq_canon _ _ _ ?_).trans ?_
  · exact fun y => ⟨_, List.mem_singleton_self _, View.mem_set_unit_zero (S := S8x64x512) off3_zero inb_S8x64x512_S8x64x512_0_0_0 y⟩
  rw [View.canon_unit_zero (S := S8x64x512) off3_zero]
  simp only [View.readAt_eq_ld, View.ld_unit_zero (S := S1x64x4096) off3_zero, View.ld_unit_zero (S := S64x64) off2_zero,
    View.ld_unit_zero (S := S8x512x64) off3_zero]

/-! ## The pipeline's proof data -/

/-- The proof data of pipeline 1 on core `c`: the arrays as the region finds them (`V`); after the body at point `t`
    each input's buffer at its block and the output's at the payload of the four input blocks there; the invariant
    the scoped rest and the generator register, untouched; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => k1_pay1 (iblk1 V c 2 t) (iblk1 V c 3 t) (iblk1 V c 0 t) (iblk1 V c 1 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = k1_pay1 (iblk1 V c 2 t) (iblk1 V c 3 t) (iblk1 V c 0 t) (iblk1 V c 1 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, the output's holds anything, so the body's triple
    applies; the invariant and the core's `owes` pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- The invariant, the shares and the debts of the proof data are the class's, by unfolding. -/
theorem Phi_eq1 (c : Dev nD) (t : Fin (cfg1.N + 1)) : (dat1 V c).Φ t = Pipeline.ΦA spec1 c := rfl
theorem q_eq1 (c : Dev nD) : (dat1 V c).q = fun _ => fullShare := rfl
theorem owed_eq1 (c : Dev nD) : (dat1 V c).owed = fun _ => 0 := rfl

end Cert.KernelIdeal.Hand
-- ==== Proof.KI.Run.lean ====
/-
  The run of @main: a reshape, the projection kernel's region, three reshapes, the attention kernel's region, a last
  reshape. The contents of every unscoped buffer at each of the six boundaries are a fold from the launch memory
  (`B0` … `B5`): a stretch of host operations applies them, a region leaves its windows' arrays at what its
  write-backs fold to and everything else as entered. Each region is a segment entered from and left at "every
  unscoped buffer held at the boundary's contents, the generator register at some state, nothing owed"; the launch
  theorem for a list of segments then gives: every weakly fair execution terminates, nothing faults, and the final
  memory holds `B5` at every unscoped buffer. The arguments are read back through the fold to the launch memory
  (no stretch writes one, a region only reads them), which is the frame, at any float instance.
-/
import proofs.«109021_j14542759264516_2_alg».proof.Proof.Gen.KernelIdeal.Regions
import proofs.«109021_j14542759264516_2_alg».proof.Proof.KI.Reg0
import proofs.«109021_j14542759264516_2_alg».proof.Proof.KI.Reg1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The buffers' contents at each boundary of @main -/

/-- at launch -/
abbrev B0 : Dev nD → Valuation τ sig (Elt F) := fun c b => (s₀ m ρ).mem ((c : Dev nD), b)
/-- after the first reshape: region 0's entry -/
abbrev B1 : Dev nD → Valuation τ sig (Elt F) := fun c => StableHlo.after hostOps0 (B0 m ρ c)
abbrev E1 : (c : Dev nD) → (b : Ref sig .tc) → Buf (Elt F) ((c : Thread nD τ).loc b) := fun c b => B1 m ρ c b
/-- after region 0: its arrays at what its write-backs leave -/
def B2 (c : Dev nD) : Valuation τ sig (Elt F) :=
  Pipeline.withArrays spec0 c (B1 m ρ c) fun w => (dat0 (E1 m ρ) c).arrAt w cfg0.N
theorem B2_arr (c : Dev nD) (w : Fin cfg0.W) :
    B2 m ρ c (Proc.devRef .tc (Pipeline.arrRef spec0 w)) = (dat0 (E1 m ρ) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m ρ c (Proc.devRef .tc b) = B1 m ρ c (Proc.devRef .tc b) := by
  unfold B2; exact Pipeline.withArrays_of_ne spec0 c _ _ b hb
abbrev E2 : (c : Dev nD) → (b : Ref sig .tc) → Buf (Elt F) ((c : Thread nD τ).loc b) := fun c b => B2 m ρ c b
theorem hF0 (c : Dev nD) (w : Fin cfg0.W) : (dat0 (E1 m ρ) c).arrAt w cfg0.N = E2 m ρ c (Pipeline.arrRef spec0 w) :=
  (B2_arr m ρ c w).symm
theorem hrest0 (c : Dev nD) : ∀ b, b ∉ Finset.univ.image (Pipeline.arrRef spec0) → E2 m ρ c b = E1 m ρ c b :=
  fun b hb => B2_of_ne m ρ c b fun w e => hb (Finset.mem_image.mpr ⟨w, Finset.mem_univ _, e⟩)
/-- after the three reshapes: region 1's entry -/
abbrev B3 : Dev nD → Valuation τ sig (Elt F) := fun c => StableHlo.after hostOps1 (B2 m ρ c)
abbrev E3 : (c : Dev nD) → (b : Ref sig .tc) → Buf (Elt F) ((c : Thread nD τ).loc b) := fun c b => B3 m ρ c b
/-- after region 1 -/
def B4 (c : Dev nD) : Valuation τ sig (Elt F) :=
  Pipeline.withArrays spec1 c (B3 m ρ c) fun w => (dat1 (E3 m ρ) c).arrAt w cfg1.N
theorem B4_arr (c : Dev nD) (w : Fin cfg1.W) :
    B4 m ρ c (Proc.devRef .tc (Pipeline.arrRef spec1 w)) = (dat1 (E3 m ρ) c).arrAt w cfg1.N := by
  unfold B4; exact Pipeline.withArrays_arr spec1 launch1.win.arr_inj c _ _ w
theorem B4_of_ne (c : Dev nD) (b : Ref sig .tc) (hb : ∀ w, Pipeline.arrRef spec1 w ≠ b) :
    B4 m ρ c (Proc.devRef .tc b) = B3 m ρ c (Proc.devRef .tc b) := by
  unfold B4; exact Pipeline.withArrays_of_ne spec1 c _ _ b hb
abbrev E4 : (c : Dev nD) → (b : Ref sig .tc) → Buf (Elt F) ((c : Thread nD τ).loc b) := fun c b => B4 m ρ c b
theorem hF1 (c : Dev nD) (w : Fin cfg1.W) : (dat1 (E3 m ρ) c).arrAt w cfg1.N = E4 m ρ c (Pipeline.arrRef spec1 w) :=
  (B4_arr m ρ c w).symm
theorem hrest1 (c : Dev nD) : ∀ b, b ∉ Finset.univ.image (Pipeline.arrRef spec1) → E4 m ρ c b = E3 m ρ c b :=
  fun b hb => B4_of_ne m ρ c b fun w e => hb (Finset.mem_image.mpr ⟨w, Finset.mem_univ _, e⟩)
/-- after the last reshape: the end -/
abbrev B5 : Dev nD → Valuation τ sig (Elt F) := fun c => StableHlo.after hostOps2 (B4 m ρ c)

/-! ## The proof data family and the thread state -/

def pdats : (p : Fin 2) → (c : Dev nD) → Dat τ (Elt F) Unit ℕ (Pipeline.UD sig nD τ) ℕ (Pipeline.pin (pcfgs (F := F)) adm p) c
  | ⟨0, _⟩ => fun c => dat0 (E1 m ρ) c
  | ⟨1, _⟩ => fun c => dat1 (E3 m ρ) c
abbrev 𝒱₀ : Variants := Variants.none
abbrev L : GSem nD τ sig → Finset Unit := fun _ => ∅
abbrev lv : GSem nD τ sig → Unit → ℕ := fun _ _ => 0
/-- what rides beside the buffers: the generator register at some state, nothing owed -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (B5 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ L lv 0 fun _ _ => rfl
  pre c := iprop(StableHlo.held (c : Thread nD τ) (Pipeline.ucRefs τ sig) (B1 m ρ c) ∗ R c)
  post c := iprop(StableHlo.held (c : Thread nD τ) (Pipeline.ucRefs τ sig) (B2 m ρ c) ∗ R c)
  X c := iprop(∃ r, prngReg c r)
  Y c := iprop(∃ r, prngReg c r)
  Z c := Pipeline.unscopedRest (Ix := Unit) (Name := ℕ) (U := Pipeline.UD sig nD τ) (Lvl := ℕ) spec0 c (E1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (E1 m ρ c) fun w => A_eq0 (E1 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = (dat0 (E1 m ρ) c).Φ 0 from rfl]
    refine BI.Entails.trans (Q := (Pipeline.ΦA spec0 c : sProp 𝕄)) ?_ (hin0 (E1 m ρ) c)
    show (_ : sProp 𝕄) ⊢ (_ : sProp 𝕄)
    unfold Pipeline.ΦA
    iintro ⟨Hp, -, Hr⟩
    isplitl [Hr]; · iexact Hr
    iexact Hp
  hout c := by
    rw [Pipeline.ownSems0_none, show (pdats m ρ 0 c).Φ (Fin.last _) = (dat0 (E1 m ρ) c).Φ (Fin.last cfg0.N) from rfl]
    refine BI.Entails.trans (Q := (Pipeline.ΦA spec0 c : sProp 𝕄)) (hout0 (E1 m ρ) c) ?_
    show (_ : sProp 𝕄) ⊢ (_ : sProp 𝕄)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := Pipeline.UD sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ L lv 1 fun _ _ => rfl
  pre c := iprop(StableHlo.held (c : Thread nD τ) (Pipeline.ucRefs τ sig) (B3 m ρ c) ∗ R c)
  post c := iprop(StableHlo.held (c : Thread nD τ) (Pipeline.ucRefs τ sig) (B4 m ρ c) ∗ R c)
  X c := iprop(∃ r, prngReg c r)
  Y c := iprop(∃ r, prngReg c r)
  Z c := Pipeline.unscopedRest (Ix := Unit) (Name := ℕ) (U := Pipeline.UD sig nD τ) (Lvl := ℕ) spec1 c (E3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (E3 m ρ c) fun w => A_eq1 (E3 m ρ) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := Pipeline.UD sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (B0 m ρ)),
    .region (reg0 m ρ),
    .host (hseg hostOps1 hostOps1_sub hostOps1_fresh (B2 m ρ)),
    .region (reg1 m ρ),
    .host (hseg hostOps2 hostOps2_sub hostOps2_fresh (B4 m ρ)) ]
theorem main_run (c : Dev nD) : main (F := F) c = Pipeline.Seg.run (segs m ρ) := (main_chain c).trans (by chain_rfl)

set_option backward.isDefEq.respectTransparency.types false in
/-- every weakly fair execution of @main terminates, nothing faulting, with every unscoped buffer at the last boundary's contents -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B5 m ρ c b) :=
  Pipeline.θ_run_regions_kit (pcfgs (F := F)) adm (pdats m ρ) () cellOf_inj embL defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ R c)) (Tₙ := Tₙ m ρ)
    (hch := ⟨fun _ => .rfl, fun _ => .rfl, fun _ => .rfl, fun _ => .rfl, fun _ => .rfl, fun c => by
      show (iprop(StableHlo.held (c : Thread nD τ) (Pipeline.ucRefs τ sig) (B5 m ρ c) ∗ R c) : sProp 𝕄) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m ρ c b)
    (hfin := fun c s' => by
      iintro ⟨⟨Hh, -⟩, HSI⟩
      unfold StableHlo.held
      imodintro
      iapply (pointsTo_read_all (Pipeline.ucRefs τ sig) (fun b => (((c : Thread nD τ)).1, b)) (B5 m ρ c) s')
      isplitl [Hh] <;> iassumption)
    (hQ := fun s h c => h c)

/-! ## The arguments end as launched -/

section Args
variable {F : FTy → Type} [FloatOps F] [Named F]
variable (m : (ℓ : Loc nD τ sig) → Buf (Elt F) ℓ) (ρ : Dev nD → PrngReg)

theorem B1_of (c : Dev nD) (r : Ref sig .tc) (h : r ∉ hostOps0_W) : B1 m ρ c (Proc.devRef .tc r) = B0 m ρ c (Proc.devRef .tc r) :=
  StableHlo.after_of_writes_sub hostOps0 _ hostOps0_writes h
theorem B3_of (c : Dev nD) (r : Ref sig .tc) (h : r ∉ hostOps1_W) : B3 m ρ c (Proc.devRef .tc r) = B2 m ρ c (Proc.devRef .tc r) :=
  StableHlo.after_of_writes_sub hostOps1 _ hostOps1_writes h
theorem B5_of (c : Dev nD) (r : Ref sig .tc) (h : r ∉ hostOps2_W) : B5 m ρ c (Proc.devRef .tc r) = B4 m ρ c (Proc.devRef .tc r) :=
  StableHlo.after_of_writes_sub hostOps2 _ hostOps2_writes h

theorem B5_main_arg0 (c : Dev nD) : B5 m ρ c (Proc.devRef .tc main_arg0) = m ((c : Thread nD τ).loc main_arg0) :=
  calc B5 m ρ c (Proc.devRef .tc main_arg0)
    _ = B4 m ρ c (Proc.devRef .tc main_arg0) := B5_of m ρ c main_arg0 (by decide)
    _ = B3 m ρ c (Proc.devRef .tc main_arg0) := B4_of_ne m ρ c main_arg0 (by decide)
    _ = B2 m ρ c (Proc.devRef .tc main_arg0) := B3_of m ρ c main_arg0 (by decide)
    _ = B1 m ρ c (Proc.devRef .tc main_arg0) := B2_of_ne m ρ c main_arg0 (by decide)
    _ = B0 m ρ c (Proc.devRef .tc main_arg0) := B1_of m ρ c main_arg0 (by decide)
    _ = m ((c : Thread nD τ).loc main_arg0) := rfl
theorem B5_main_arg1 (c : Dev nD) : B5 m ρ c (Proc.devRef .tc main_arg1) = m ((c : Thread nD τ).loc main_arg1) :=
  calc B5 m ρ c (Proc.devRef .tc main_arg1)
    _ = B4 m ρ c (Proc.devRef .tc main_arg1) := B5_of m ρ c main_arg1 (by decide)
    _ = B3 m ρ c (Proc.devRef .tc main_arg1) := B4_of_ne m ρ c main_arg1 (by decide)
    _ = B2 m ρ c (Proc.devRef .tc main_arg1) := B3_of m ρ c main_arg1 (by decide)
    _ = B1 m ρ c (Proc.devRef .tc main_arg1) := B2_of_ne m ρ c main_arg1 (by decide)
    _ = B0 m ρ c (Proc.devRef .tc main_arg1) := B1_of m ρ c main_arg1 (by decide)
    _ = m ((c : Thread nD τ).loc main_arg1) := rfl
theorem B2_main_arg2 (c : Dev nD) : B2 m ρ c (Proc.devRef .tc main_arg2) = m ((c : Thread nD τ).loc main_arg2) :=
  calc B2 m ρ c (Proc.devRef .tc main_arg2)
    _ = B1 m ρ c (Proc.devRef .tc main_arg2) := (B2_arr m ρ c 1).trans (((dat0 (E1 m ρ) c).arrAt_in 1 rfl _).trans (A_eq0 (E1 m ρ) c 1))
    _ = B0 m ρ c (Proc.devRef .tc main_arg2) := B1_of m ρ c main_arg2 (by decide)
    _ = m ((c : Thread nD τ).loc main_arg2) := rfl
theorem B2_main_arg3 (c : Dev nD) : B2 m ρ c (Proc.devRef .tc main_arg3) = m ((c : Thread nD τ).loc main_arg3) :=
  calc B2 m ρ c (Proc.devRef .tc main_arg3)
    _ = B1 m ρ c (Proc.devRef .tc main_arg3) := (B2_arr m ρ c 2).trans (((dat0 (E1 m ρ) c).arrAt_in 2 rfl _).trans (A_eq0 (E1 m ρ) c 2))
    _ = B0 m ρ c (Proc.devRef .tc main_arg3) := B1_of m ρ c main_arg3 (by decide)
    _ = m ((c : Thread nD τ).loc main_arg3) := rfl
theorem B5_main_arg2 (c : Dev nD) : B5 m ρ c (Proc.devRef .tc main_arg2) = m ((c : Thread nD τ).loc main_arg2) :=
  calc B5 m ρ c (Proc.devRef .tc main_arg2)
    _ = B4 m ρ c (Proc.devRef .tc main_arg2) := B5_of m ρ c main_arg2 (by decide)
    _ = B3 m ρ c (Proc.devRef .tc main_arg2) := B4_of_ne m ρ c main_arg2 (by decide)
    _ = B2 m ρ c (Proc.devRef .tc main_arg2) := B3_of m ρ c main_arg2 (by decide)
    _ = m ((c : Thread nD τ).loc main_arg2) := B2_main_arg2 m ρ c
theorem B5_main_arg3 (c : Dev nD) : B5 m ρ c (Proc.devRef .tc main_arg3) = m ((c : Thread nD τ).loc main_arg3) :=
  calc B5 m ρ c (Proc.devRef .tc main_arg3)
    _ = B4 m ρ c (Proc.devRef .tc main_arg3) := B5_of m ρ c main_arg3 (by decide)
    _ = B3 m ρ c (Proc.devRef .tc main_arg3) := B4_of_ne m ρ c main_arg3 (by decide)
    _ = B2 m ρ c (Proc.devRef .tc main_arg3) := B3_of m ρ c main_arg3 (by decide)
    _ = m ((c : Thread nD τ).loc main_arg3) := B2_main_arg3 m ρ c
theorem B3_main_arg4 (c : Dev nD) : B3 m ρ c (Proc.devRef .tc main_arg4) = m ((c : Thread nD τ).loc main_arg4) :=
  calc B3 m ρ c (Proc.devRef .tc main_arg4)
    _ = B2 m ρ c (Proc.devRef .tc main_arg4) := B3_of m ρ c main_arg4 (by decide)
    _ = B1 m ρ c (Proc.devRef .tc main_arg4) := B2_of_ne m ρ c main_arg4 (by decide)
    _ = B0 m ρ c (Proc.devRef .tc main_arg4) := B1_of m ρ c main_arg4 (by decide)
    _ = m ((c : Thread nD τ).loc main_arg4) := rfl
theorem B5_main_arg4 (c : Dev nD) : B5 m ρ c (Proc.devRef .tc main_arg4) = m ((c : Thread nD τ).loc main_arg4) :=
  calc B5 m ρ c (Proc.devRef .tc main_arg4)
    _ = B4 m ρ c (Proc.devRef .tc main_arg4) := B5_of m ρ c main_arg4 (by decide)
    _ = B3 m ρ c (Proc.devRef .tc main_arg4) := (B4_arr m ρ c 3).trans (((dat1 (E3 m ρ) c).arrAt_in 3 rfl _).trans (A_eq1 (E3 m ρ) c 3))
    _ = m ((c : Thread nD τ).loc main_arg4) := B3_main_arg4 m ρ c

/-- the frame: every execution terminates, nothing faults, the five arguments end as launched, at any `F` -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (B5_main_arg0 m ρ c),
     (h c _ (mem_uc main_arg1 (by decide))).trans (B5_main_arg1 m ρ c),
     (h c _ (mem_uc main_arg2 (by decide))).trans (B5_main_arg2 m ρ c),
     (h c _ (mem_uc main_arg3 (by decide))).trans (B5_main_arg3 m ρ c),
     (h c _ (mem_uc main_arg4 (by decide))).trans (B5_main_arg4 m ρ c)⟩) (run_all m ρ)

/-- the run with the result named: the last reshape's buffer at the last boundary's contents -/
theorem run_value : θ_run defs (onTc (τ := τ) (main (F := F))) ⟨m, fun _ => 0, ρ⟩ (fun r => ∀ c : Dev nD,
      r.2.mem ((c.tc : Thread nD τ).loc main_v6) = B5 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨h c _ (mem_uc main_v6 (by decide)),
     (h c _ (mem_uc main_arg0 (by decide))).trans (B5_main_arg0 m ρ c),
     (h c _ (mem_uc main_arg1 (by decide))).trans (B5_main_arg1 m ρ c),
     (h c _ (mem_uc main_arg2 (by decide))).trans (B5_main_arg2 m ρ c),
     (h c _ (mem_uc main_arg3 (by decide))).trans (B5_main_arg3 m ρ c),
     (h c _ (mem_uc main_arg4 (by decide))).trans (B5_main_arg4 m ρ c)⟩) (run_all m ρ)
end Args

end Cert.KernelIdeal.Hand

end
-- ==== Proof.KI.Layout.lean ====
/-
  Row-major regroupings read at an index: a reshape keeps an element's row-major position, so its coordinates in the
  new shape are quotients and remainders of the old ones by the literal extents.
-/
import Idealize.ShloMosaic.Lib.Pipeline.Value
import Idealize.ShloMosaic.Lib.ValueIdx

noncomputable section

namespace Cert.Layout

open Idealize.ShloMosaic Idealize.ShloMosaic.ValueIdx

variable {α : Type}

/-- 32×64×64×64 as 2048×4096: row `64 b + c`, column `64 h + w`. -/
theorem cast_bchw_rows (x : (⟨4, ![32, 64, 64, 64]⟩ : Shape).Idx → α)
    (h : (⟨4, ![32, 64, 64, 64]⟩ : Shape).ShapeCasts ⟨2, ![2048, 4096]⟩) (r : Fin 2048) (s : Fin 4096) :
    shapeCast ⟨2, ![2048, 4096]⟩ x h (ix2 r s)
      = x (ix4 (⟨r.val / 64, by omega⟩ : Fin 32) (⟨r.val % 64, by omega⟩ : Fin 64) (⟨s.val / 64, by omega⟩ : Fin 64) (⟨s.val % 64, by omega⟩ : Fin 64)) :=
  shapeCast_apply x h _ _ (by
    rw [Shape.rowMajor_val_four, Shape.rowMajor_val_two]
    show ((r.val / 64 * 64 + r.val % 64) * 64 + s.val / 64) * 64 + s.val % 64 = r.val * 4096 + s.val
    omega)

/-- 2048×4096 as 256×512×64: `(n, d, c)` is row `8 n + d / 64`, column `64 (d % 64) + c`. -/
theorem cast_rows_heads (x : (⟨2, ![2048, 4096]⟩ : Shape).Idx → α)
    (h : (⟨2, ![2048, 4096]⟩ : Shape).ShapeCasts ⟨3, ![256, 512, 64]⟩) (n : Fin 256) (d : Fin 512) (c : Fin 64) :
    shapeCast ⟨3, ![256, 512, 64]⟩ x h (ix3 n d c)
      = x (ix2 (⟨8 * n.val + d.val / 64, by omega⟩ : Fin 2048) (⟨64 * (d.val % 64) + c.val, by omega⟩ : Fin 4096)) :=
  shapeCast_apply x h _ _ (by
    rw [Shape.rowMajor_val_two, Shape.rowMajor_val_three]
    show (8 * n.val + d.val / 64) * 4096 + (64 * (d.val % 64) + c.val) = (n.val * 512 + d.val) * 64 + c.val
    omega)

/-- 32×64×64×64 as 32×64×4096: the last two axes merged. -/
theorem cast_bchw_bcs (x : (⟨4, ![32, 64, 64, 64]⟩ : Shape).Idx → α)
    (h : (⟨4, ![32, 64, 64, 64]⟩ : Shape).ShapeCasts ⟨3, ![32, 64, 4096]⟩) (b : Fin 32) (j : Fin 64) (s : Fin 4096) :
    shapeCast ⟨3, ![32, 64, 4096]⟩ x h (ix3 b j s)
      = x (ix4 b j (⟨s.val / 64, by omega⟩ : Fin 64) (⟨s.val % 64, by omega⟩ : Fin 64)) :=
  shapeCast_apply x h _ _ (by
    rw [Shape.rowMajor_val_four, Shape.rowMajor_val_three]
    show ((b.val * 64 + j.val) * 64 + s.val / 64) * 64 + s.val % 64 = (b.val * 64 + j.val) * 4096 + s.val
    omega)

/-- 256×64×512 as 32×64×64×64: `(b, c, h, w)` is `(8 b + c / 8, 8 (c % 8) + h / 8, 64 (h % 8) + w)`. -/
theorem cast_ned_bchw (x : (⟨3, ![256, 64, 512]⟩ : Shape).Idx → α)
    (h : (⟨3, ![256, 64, 512]⟩ : Shape).ShapeCasts ⟨4, ![32, 64, 64, 64]⟩) (b : Fin 32) (c hh w : Fin 64) :
    shapeCast ⟨4, ![32, 64, 64, 64]⟩ x h (ix4 b c hh w)
      = x (ix3 (⟨8 * b.val + c.val / 8, by omega⟩ : Fin 256) (⟨8 * (c.val % 8) + hh.val / 8, by omega⟩ : Fin 64) (⟨64 * (hh.val % 8) + w.val, by omega⟩ : Fin 512)) :=
  shapeCast_apply x h _ _ (by
    rw [Shape.rowMajor_val_three, Shape.rowMajor_val_four]
    show ((8 * b.val + c.val / 8) * 64 + (8 * (c.val % 8) + hh.val / 8)) * 512 + (64 * (hh.val % 8) + w.val)
      = ((b.val * 64 + c.val) * 64 + hh.val) * 64 + w.val
    omega)

end Cert.Layout

end
-- ==== Proof.KI.HostReads.lean ====
/-
  The host stretches read at a buffer: each reshape's result is the shape cast of its operand's contents at the
  boundary before it; read at an index, a reshape keeps the row-major position.
-/
import proofs.«109021_j14542759264516_2_alg».proof.Proof.KI.Run
import proofs.«109021_j14542759264516_2_alg».proof.Proof.KI.Layout

set_option maxRecDepth 16384

noncomputable section

namespace Cert.KernelIdeal.Hand

open Idealize.ShloMosaic Idealize.ShloMosaic.TcCoe Idealize.ShloMosaic.Tactic
open Idealize.SL.Sem
open Cert.KernelIdeal Cert.KernelIdeal.Gen

variable {F : FTy → Type} [FloatOps F] [Named F]
variable (m : (ℓ : Loc nD τ sig) → Buf (Elt F) ℓ) (ρ : Dev nD → PrngReg)

theorem B1_v0 (c : Dev nD) : B1 m ρ c (Proc.devRef .tc main_v0) = shapeCast S2048x4096 (B0 m ρ c (Proc.devRef .tc main_arg0)) shapeCasts_S32x64x64x64_S2048x4096 := by
  show StableHlo.after hostOps0 (B0 m ρ c) (Proc.devRef .tc main_v0) = _
  after_results
  rfl
theorem B3_v2 (c : Dev nD) : B3 m ρ c (Proc.devRef .tc main_v2) = shapeCast S256x512x64 (B2 m ρ c (Proc.devRef .tc main_v1_0)) shapeCasts_S2048x4096_S256x512x64 := by
  show StableHlo.after hostOps1 (B2 m ρ c) (Proc.devRef .tc main_v2) = _
  after_results
  rfl
theorem B3_v3 (c : Dev nD) : B3 m ρ c (Proc.devRef .tc main_v3) = shapeCast S256x512x64 (B2 m ρ c (Proc.devRef .tc main_v1_1)) shapeCasts_S2048x4096_S256x512x64 := by
  show StableHlo.after hostOps1 (B2 m ρ c) (Proc.devRef .tc main_v3) = _
  after_results
  rfl
theorem B3_v4 (c : Dev nD) : B3 m ρ c (Proc.devRef .tc main_v4) = shapeCast S32x64x4096 (B2 m ρ c (Proc.devRef .tc main_arg1)) shapeCasts_S32x64x64x64_S32x64x4096 := by
  show StableHlo.after hostOps1 (B2 m ρ c) (Proc.devRef .tc main_v4) = _
  after_results
  rfl
theorem B5_v6 (c : Dev nD) : B5 m ρ c (Proc.devRef .tc main_v6) = shapeCast S32x64x64x64 (B4 m ρ c (Proc.devRef .tc main_v5)) shapeCasts_S256x64x512_S32x64x64x64 := by
  show StableHlo.after hostOps2 (B4 m ρ c) (Proc.devRef .tc main_v6) = _
  after_results
  rfl

end Cert.KernelIdeal.Hand

end
-- ==== Proof.KI.Reg1Array.lean ====
import proofs.«109021_j14542759264516_2_alg».proof.Proof.KI.Reg1
import Idealize.ShloMosaic.Lib.ValueIdx
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
variable {F : FTy → Type} [FloatOps F] [Named F]
local notation "𝕄" => MT nD τ sig Unit (Elt F) ℕ (Pipeline.UD sig nD τ) ℕ
variable (V : (c : Dev nD) → (b : Ref sig .tc) → Buf (Elt F) ((c : Thread nD τ).loc b))

/-! # Region 1, from blocks to arrays: each window's block at a point read at its array, and the output array
    after the region, index by index -/

/-- A row of a 256-row array sits in the block of 8 rows its point holds. -/
theorem row_lt (t : Fin cfg1.N) (h : Fin 8) : 8 * t.val + h.val < 256 := by
  have hN : cfg1.N = 32 := N_1
  have := t.isLt; have := h.isLt; omega
theorem pt_lt (t : Fin cfg1.N) : t.val < 32 := by
  have hN : cfg1.N = 32 := N_1
  have := t.isLt; omega

/-! ## The printed index maps, decided over the grid -/

/-- Window 0's block index at point `t`, decided over the grid: the point's number on the leading axis, zero on the others. -/
theorem idx1_0 : ∀ t : Fin cfg1.N, win1_0.index t (0 : Fin 3) = t.val ∧ win1_0.index t (1 : Fin 3) = 0 ∧ win1_0.index t (2 : Fin 3) = 0 :=
  (by decide +kernel : ∀ t : Fin grid1.N, _)

/-- Window 1's block index at point `t`, decided over the grid: the point's number on the leading axis, zero on the others. -/
theorem idx1_1 : ∀ t : Fin cfg1.N, win1_1.index t (0 : Fin 3) = t.val ∧ win1_1.index t (1 : Fin 3) = 0 ∧ win1_1.index t (2 : Fin 3) = 0 :=
  (by decide +kernel : ∀ t : Fin grid1.N, _)

/-- Window 2's block index at point `t`, decided over the grid: the point's number on the leading axis, zero on the others. -/
theorem idx1_2 : ∀ t : Fin cfg1.N, win1_2.index t (0 : Fin 3) = t.val ∧ win1_2.index t (1 : Fin 3) = 0 ∧ win1_2.index t (2 : Fin 3) = 0 :=
  (by decide +kernel : ∀ t : Fin grid1.N, _)

/-- Window 4's block index at point `t`, decided over the grid: the point's number on the leading axis, zero on the others. -/
theorem idx1_4 : ∀ t : Fin cfg1.N, win1_4.index t (0 : Fin 3) = t.val ∧ win1_4.index t (1 : Fin 3) = 0 ∧ win1_4.index t (2 : Fin 3) = 0 :=
  (by decide +kernel : ∀ t : Fin grid1.N, _)

/-- Window 3's block index is zero at every point: its block is its whole array. -/
theorem idx1_3 : ∀ t : Fin cfg1.N, win1_3.index t (0 : Fin 2) = 0 ∧ win1_3.index t (1 : Fin 2) = 0 :=
  (by decide +kernel : ∀ t : Fin grid1.N, _)

/-! ## The output's blocks are pairwise disjoint -/

/-- Two different points' output blocks are separated on the leading axis: 8 rows each, at 8 times the point's number. -/
theorem hdisj1_4 : ∀ t t' : Fin cfg1.N, (cfg1.win 4).flush t = true → (cfg1.win 4).flush t' = true → t ≠ t' →
    Disjoint ((cfg1.win 4).blk t).view.set ((cfg1.win 4).blk t').view.set := by
  intro t t' _ _ hne
  show Disjoint ((View.whole main_v5).slice (win1_4.rect t)).set ((View.whole main_v5).slice (win1_4.rect t')).set
  rw [View.set_slice_whole, View.set_slice_whole]
  refine Rect.unit_disjoint (0 : Fin 3) ?_
  show win1_4.index t (0 : Fin 3) * 8 + 8 ≤ win1_4.index t' (0 : Fin 3) * 8 ∨ win1_4.index t' (0 : Fin 3) * 8 + 8 ≤ win1_4.index t (0 : Fin 3) * 8
  have h := (idx1_4 t).1
  have h' := (idx1_4 t').1
  have hv : t.val ≠ t'.val := fun e => hne (Fin.ext e)
  omega

/-! ## The output array after the region -/

/-- Row `n = 8 t + h` of the output array after the region is row `h` of what point `t` wrote back: the payload of the
    four input blocks at `t`. -/
theorem arr1_4_apply' (c : Dev nD) (t : Fin cfg1.N) (h : Fin 8) (e : Fin 64) (d : Fin 512) (n : Fin 256) (hn : n.val = 8 * t.val + h.val) :
    ((dat1 V c).arrAt 4 cfg1.N : S256x64x512.Idx → Elt F .f32) (ix3 n e d)
      = k1_pay1 (iblk1 V c 2 t) (iblk1 V c 3 t) (iblk1 V c 0 t) (iblk1 V c 1 t) (ix3 h e d) := by
  obtain ⟨i0, i1, i2⟩ := idx1_4 t
  have hemb : ((cfg1.win 4).blk t).view.emb (ix3 h e d : S8x64x512.Idx) = (ix3 n e d : S256x64x512.Idx) := by
    funext a; apply Fin.ext
    match a with
    | ⟨0, _⟩ => show win1_4.index t (0 : Fin 3) * 8 + 1 * h.val = n.val; rw [i0, hn]; omega
    | ⟨1, _⟩ => show win1_4.index t (1 : Fin 3) * 64 + 1 * e.val = e.val; rw [i1]; omega
    | ⟨2, _⟩ => show win1_4.index t (2 : Fin 3) * 512 + 1 * d.val = d.val; rw [i2]; omega
  rw [← hemb]
  refine ((dat1 V c).arrAt_emb_eq_flushed 4 hdisj1_4 t (flush1_4 t) (ix3 h e d : S8x64x512.Idx)).trans ?_
  show (cfg1.win 4).cut (grid1.coords t) ((dat1 V c).after 4 t) (ix3 h e d : S8x64x512.Idx) = _
  rw [after1_4]
  rfl

/-! ## Each input window's block at a point, read at its array -/

/-- The q block at point `t` is rows `8 t … 8 t + 7` of the q array. -/
theorem iblk1_0_apply' (c : Dev nD) (t : Fin cfg1.N) (h : Fin 8) (d : Fin 512) (k : Fin 64) (n : Fin 256) (hn : n.val = 8 * t.val + h.val) :
    (iblk1 V c 0 t : Vec F S8x512x64 .bf16) (ix3 h d k)
      = (V c (Pipeline.arrRef spec1 0) : S256x512x64.Idx → Elt F .bf16) (ix3 n d k) := by
  obtain ⟨i0, i1, i2⟩ := idx1_0 t
  unfold iblk1
  rw [View.read_apply]
  show (V c (Pipeline.arrRef spec1 0) : S256x512x64.Idx → Elt F .bf16) _ = _
  refine congrArg _ ?_
  funext a; apply Fin.ext
  match a with
  | ⟨0, _⟩ => show win1_0.index t (0 : Fin 3) * 8 + 1 * h.val = n.val; rw [i0, hn]; omega
  | ⟨1, _⟩ => show win1_0.index t (1 : Fin 3) * 512 + 1 * d.val = d.val; rw [i1]; omega
  | ⟨2, _⟩ => show win1_0.index t (2 : Fin 3) * 64 + 1 * k.val = k.val; rw [i2]; omega

/-- The k block at point `t` is rows `8 t … 8 t + 7` of the k array. -/
theorem iblk1_1_apply' (c : Dev nD) (t : Fin cfg1.N) (h : Fin 8) (d : Fin 512) (k : Fin 64) (n : Fin 256) (hn : n.val = 8 * t.val + h.val) :
    (iblk1 V c 1 t : Vec F S8x512x64 .bf16) (ix3 h d k)
      = (V c (Pipeline.arrRef spec1 1) : S256x512x64.Idx → Elt F .bf16) (ix3 n d k) := by
  obtain ⟨i0, i1, i2⟩ := idx1_1 t
  unfold iblk1
  rw [View.read_apply]
  show (V c (Pipeline.arrRef spec1 1) : S256x512x64.Idx → Elt F .bf16) _ = _
  refine congrArg _ ?_
  funext a; apply Fin.ext
  match a with
  | ⟨0, _⟩ => show win1_1.index t (0 : Fin 3) * 8 + 1 * h.val = n.val; rw [i0, hn]; omega
  | ⟨1, _⟩ => show win1_1.index t (1 : Fin 3) * 512 + 1 * d.val = d.val; rw [i1]; omega
  | ⟨2, _⟩ => show win1_1.index t (2 : Fin 3) * 64 + 1 * k.val = k.val; rw [i2]; omega

/-- The x block at point `t` is row `t` of the x array. -/
theorem iblk1_2_apply' (c : Dev nD) (t : Fin cfg1.N) (k : Fin 64) (s : Fin 4096) (n : Fin 32) (hn : n.val = t.val) :
    (iblk1 V c 2 t : Vec F S1x64x4096 .f32) (ix3 (0 : Fin 1) k s)
      = (V c (Pipeline.arrRef spec1 2) : S32x64x4096.Idx → Elt F .f32) (ix3 n k s) := by
  obtain ⟨i0, i1, i2⟩ := idx1_2 t
  unfold iblk1
  rw [View.read_apply]
  show (V c (Pipeline.arrRef spec1 2) : S32x64x4096.Idx → Elt F .f32) _ = _
  refine congrArg _ ?_
  funext a; apply Fin.ext
  match a with
  | ⟨0, _⟩ => show win1_2.index t (0 : Fin 3) * 1 + 1 * (0 : Fin 1).val = n.val; rw [i0, hn]; simp
  | ⟨1, _⟩ => show win1_2.index t (1 : Fin 3) * 64 + 1 * k.val = k.val; rw [i1]; omega
  | ⟨2, _⟩ => show win1_2.index t (2 : Fin 3) * 4096 + 1 * s.val = s.val; rw [i2]; omega

/-- The W_V block at every point is the whole W_V array. -/
theorem iblk1_3_apply (c : Dev nD) (t : Fin cfg1.N) (a b : Fin 64) :
    (iblk1 V c 3 t : Vec F S64x64 .f32) (ix2 a b)
      = (V c (Pipeline.arrRef spec1 3) : S64x64.Idx → Elt F .f32) (ix2 a b) := by
  obtain ⟨i0, i1⟩ := idx1_3 t
  unfold iblk1
  rw [View.read_apply]
  show (V c (Pipeline.arrRef spec1 3) : S64x64.Idx → Elt F .f32) _ = _
  refine congrArg _ ?_
  funext x; apply Fin.ext
  match x with
  | ⟨0, _⟩ => show win1_3.index t (0 : Fin 2) * 64 + 1 * a.val = a.val; rw [i0]; omega
  | ⟨1, _⟩ => show win1_3.index t (1 : Fin 2) * 64 + 1 * b.val = b.val; rw [i1]; omega

/-! ## The same, at the row `8 t + h` (resp. `t`) spelt out -/

theorem arr1_4_apply (c : Dev nD) (t : Fin cfg1.N) (h : Fin 8) (e : Fin 64) (d : Fin 512) :
    ((dat1 V c).arrAt 4 cfg1.N : S256x64x512.Idx → Elt F .f32) (ix3 (⟨8 * t.val + h.val, row_lt t h⟩ : Fin 256) e d)
      = k1_pay1 (iblk1 V c 2 t) (iblk1 V c 3 t) (iblk1 V c 0 t) (iblk1 V c 1 t) (ix3 h e d) :=
  arr1_4_apply' V c t h e d ⟨8 * t.val + h.val, row_lt t h⟩ rfl
theorem iblk1_0_apply (c : Dev nD) (t : Fin cfg1.N) (h : Fin 8) (d : Fin 512) (k : Fin 64) :
    (iblk1 V c 0 t : Vec F S8x512x64 .bf16) (ix3 h d k)
      = (V c (Pipeline.arrRef spec1 0) : S256x512x64.Idx → Elt F .bf16) (ix3 (⟨8 * t.val + h.val, row_lt t h⟩ : Fin 256) d k) :=
  iblk1_0_apply' V c t h d k ⟨8 * t.val + h.val, row_lt t h⟩ rfl
theorem iblk1_1_apply (c : Dev nD) (t : Fin cfg1.N) (h : Fin 8) (d : Fin 512) (k : Fin 64) :
    (iblk1 V c 1 t : Vec F S8x512x64 .bf16) (ix3 h d k)
      = (V c (Pipeline.arrRef spec1 1) : S256x512x64.Idx → Elt F .bf16) (ix3 (⟨8 * t.val + h.val, row_lt t h⟩ : Fin 256) d k) :=
  iblk1_1_apply' V c t h d k ⟨8 * t.val + h.val, row_lt t h⟩ rfl
theorem iblk1_2_apply (c : Dev nD) (t : Fin cfg1.N) (k : Fin 64) (s : Fin 4096) :
    (iblk1 V c 2 t : Vec F S1x64x4096 .f32) (ix3 (0 : Fin 1) k s)
      = (V c (Pipeline.arrRef spec1 2) : S32x64x4096.Idx → Elt F .f32) (ix3 (⟨t.val, pt_lt t⟩ : Fin 32) k s) :=
  iblk1_2_apply' V c t k s ⟨t.val, pt_lt t⟩ rfl

end Cert.KernelIdeal.Hand
-- ==== Proof.LibSumSplit.lean ====
/-
  A sum over `a * b` consecutive naturals split into `a` blocks of `b`: position `b * q + r` is block `q`,
  offset `r`. In any additive commutative monoid (the extended reals among them: no finiteness is used).
-/
import Mathlib.Algebra.BigOperators.Intervals
import Mathlib.Algebra.BigOperators.Fin

namespace Cert.LibSumSplit

variable {M : Type*} [AddCommMonoid M]

/-- `∑ n < a * b, g n = ∑ q < a, ∑ r < b, g (b * q + r)`. -/
theorem sum_range_mul (g : ℕ → M) (b : ℕ) : ∀ a : ℕ,
    ∑ n ∈ Finset.range (a * b), g n = ∑ q ∈ Finset.range a, ∑ r ∈ Finset.range b, g (b * q + r)
  | 0 => by simp
  | a + 1 => by
    rw [Nat.succ_mul, Finset.sum_range_add, sum_range_mul g b a, Finset.sum_range_succ, Nat.mul_comm a b]

/-- A sum over `Fin n` of a function given on all naturals is the sum over `range n`. -/
theorem sum_fin_eq_range (g : ℕ → M) (n : ℕ) : ∑ k : Fin n, g k.val = ∑ k ∈ Finset.range n, g k :=
  (Finset.sum_range g).symm

/-- A sum over 8192 positions, grouped as 2 planes of 16 steps of 256 lanes: position 256·(16·p + s) + r. -/
theorem sum_split_2_16_256 (T : ℕ → M) :
    ∑ p : Fin 2, ∑ s ∈ Finset.range 16, ∑ r : Fin 256, T (256 * (16 * p.val + s) + r.val) = ∑ b : Fin 8192, T b.val := by
  have h1 : ∑ n ∈ Finset.range 8192, T n = ∑ q ∈ Finset.range 32, ∑ r ∈ Finset.range 256, T (256 * q + r) :=
    sum_range_mul T 256 32
  have h2 : ∑ q ∈ Finset.range 32, ∑ r ∈ Finset.range 256, T (256 * q + r)
      = ∑ p ∈ Finset.range 2, ∑ s ∈ Finset.range 16, ∑ r ∈ Finset.range 256, T (256 * (16 * p + s) + r) :=
    sum_range_mul (fun q => ∑ r ∈ Finset.range 256, T (256 * q + r)) 16 2
  rw [sum_fin_eq_range T 8192, h1, h2,
    ← sum_fin_eq_range (fun p => ∑ s ∈ Finset.range 16, ∑ r ∈ Finset.range 256, T (256 * (16 * p + s) + r)) 2]
  refine Finset.sum_congr rfl fun p _ => Finset.sum_congr rfl fun s _ => ?_
  exact sum_fin_eq_range (fun r => T (256 * (16 * p.val + s) + r)) 256

end Cert.LibSumSplit
-- ==== Proof.KI.MathProj.lean ====
/-
  Region 0's payloads at the ideal values, read at one index.

  The accumulation step adds, to the accumulator's entry (r, s), the contraction over the block's 512 columns of
  a's row r with w's row s (the second operand enters transposed: both contract their axis 1). The cast to the
  narrower format is the identity on extended reals, the zero word denotes 0, and a contraction over 4096
  columns is the sum of its eight blocks of 512.
-/
import proofs.«109021_j14542759264516_2_alg».proof.Proof.Gen.KernelIdeal.Skeleton
import proofs.«109021_j14542759264516_2_alg».proof.Proof.LibSumSplit
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Math

open Idealize.ShloMosaic Idealize.ShloMosaic.ValueIdx
open Cert.KernelIdeal Cert.KernelIdeal.Gen

/-- The product a · wᵀ of two 1024 × 512 blocks into the zero accumulator, at (r, s): the sum over the 512
    columns of a's row r times w's row s. -/
theorem matmul_rows_apply {φ₁ φ₂ : FTy} (a : FVec Ideal S1024x512 φ₁) (w : FVec Ideal S1024x512 φ₂) (r s : Fin 1024) :
    matmul (F := Ideal) dot_S1024x512_S1024x512_S1024x1024_1_1_0_0_n_n none a w
        (constant (F := Ideal) S1024x1024 .f32 0x00000000#32) (ix2 r s)
      = ∑ k : Fin 512, a (ix2 r k) * w (ix2 s k) := by
  refine (Ideal.matmul_constant_zero_apply dot_S1024x512_S1024x512_S1024x1024_1_1_0_0_n_n none a w (ix2 r s)).trans ?_
  rw [← Equiv.sum_comp (contrEquiv1 dot_S1024x512_S1024x512_S1024x1024_1_1_0_0_n_n 512 rfl rfl).symm]
  refine Finset.sum_congr rfl fun k _ => ?_
  have ck := contrEquiv1_symm_val dot_S1024x512_S1024x512_S1024x1024_1_1_0_0_n_n 512 rfl rfl k
  have hl : dot_S1024x512_S1024x512_S1024x1024_1_1_0_0_n_n.lhsIdx (ix2 r s)
      ((contrEquiv1 dot_S1024x512_S1024x512_S1024x1024_1_1_0_0_n_n 512 rfl rfl).symm k) = ix2 r k := by
    funext ax; apply Fin.ext
    match ax with
    | ⟨0, _⟩ => simp [DotDims.lhsIdx, dot_S1024x512_S1024x512_S1024x1024_1_1_0_0_n_n]; rfl
    | ⟨1, _⟩ => simp [DotDims.lhsIdx, dot_S1024x512_S1024x512_S1024x1024_1_1_0_0_n_n]; exact ck
  have hr : dot_S1024x512_S1024x512_S1024x1024_1_1_0_0_n_n.rhsIdx (ix2 r s)
      ((contrEquiv1 dot_S1024x512_S1024x512_S1024x1024_1_1_0_0_n_n 512 rfl rfl).symm k) = ix2 s k := by
    funext ax; apply Fin.ext
    match ax with
    | ⟨0, _⟩ => simp [DotDims.rhsIdx, dot_S1024x512_S1024x512_S1024x1024_1_1_0_0_n_n]; rfl
    | ⟨1, _⟩ => simp [DotDims.rhsIdx, dot_S1024x512_S1024x512_S1024x1024_1_1_0_0_n_n]; exact ck
  rw [hl, hr]

/-- The first accumulator's update at (r, s): its entry plus the block's contraction. -/
theorem k0_pay4_apply (a w : FVec Ideal S1024x512 .f32) (acc : FVec Ideal S1024x1024 .f32) (r s : Fin 1024) :
    k0_pay4 (F := Ideal) a w acc (ix2 r s) = acc (ix2 r s) + ∑ k : Fin 512, a (ix2 r k) * w (ix2 s k) := by
  unfold k0_pay4 k0_pay3
  simp only [shapeCast_self]
  exact congrArg (acc (ix2 r s) + ·) (matmul_rows_apply _ _ r s)

/-- The second accumulator's update at (r, s): the same. -/
theorem k0_pay5_apply (a w : FVec Ideal S1024x512 .f32) (acc : FVec Ideal S1024x1024 .f32) (r s : Fin 1024) :
    k0_pay5 (F := Ideal) a w acc (ix2 r s) = acc (ix2 r s) + ∑ k : Fin 512, a (ix2 r k) * w (ix2 s k) := by
  unfold k0_pay5 k0_pay3
  simp only [shapeCast_self]
  exact congrArg (acc (ix2 r s) + ·) (matmul_rows_apply _ _ r s)

/-- The value the first accumulator is reset to: zero everywhere. -/
theorem k0_pay1_apply (j : S1024x1024.Idx) : k0_pay1 (F := Ideal) j = 0 := by
  unfold k0_pay1
  simp only [shapeCast_self]
  exact Ideal.ofBits_zero_f32

/-- The value the second accumulator is reset to: zero everywhere. -/
theorem k0_pay2_apply (j : S1024x1024.Idx) : k0_pay2 (F := Ideal) j = 0 := by
  unfold k0_pay2
  simp only [shapeCast_self]
  exact Ideal.ofBits_zero_f32

/-- The first output's stored value is the accumulator's entry: narrowing the format changes no extended real. -/
theorem k0_pay6_apply (v : FVec Ideal S1024x1024 .f32) (j : S1024x1024.Idx) : k0_pay6 (F := Ideal) v j = v j := rfl

/-- The second output's stored value is the accumulator's entry. -/
theorem k0_pay7_apply (v : FVec Ideal S1024x1024 .f32) (j : S1024x1024.Idx) : k0_pay7 (F := Ideal) v j = v j := rfl

/-- A contraction over 4096 positions is the sum over its eight blocks of 512: position 512 · l + k is block l,
    offset k. -/
theorem sum_blocks_8_512 (f : ℕ → EReal) :
    ∑ l : Fin 8, ∑ k : Fin 512, f (512 * l.val + k.val) = ∑ s : Fin 4096, f s.val := by
  have h1 : ∑ n ∈ Finset.range 4096, f n = ∑ q ∈ Finset.range 8, ∑ r ∈ Finset.range 512, f (512 * q + r) :=
    Cert.LibSumSplit.sum_range_mul f 512 8
  rw [Cert.LibSumSplit.sum_fin_eq_range f 4096, h1,
    ← Cert.LibSumSplit.sum_fin_eq_range (fun q => ∑ r ∈ Finset.range 512, f (512 * q + r)) 8]
  refine Finset.sum_congr rfl fun l _ => ?_
  exact Cert.LibSumSplit.sum_fin_eq_range (fun r => f (512 * l.val + r)) 512

end Cert.KernelIdeal.Math

end
-- ==== Proof.KI.Reg0Array.lean ====
/-
  Region 0's value: from the blocks to the two output arrays, at the ideal values.

  The grid is (2, 4, 8); point t = 32 i + 8 j + l reads block (i, l) of the row operand A (2048 × 4096) and block
  (j, l) of each column operand W (4096 × 4096), blocks of 1024 × 512, and adds into each accumulator's entry (r, s)
  the contraction over the block's 512 columns of A's row 1024 i + r with W's row 1024 j + s. The accumulators
  restart at l = 0 and are written back, as output block (i, j), after l = 7. Eight blocks of 512 columns are the
  4096 columns, so what is written back at (r, s) is the contraction over all 4096 columns: the entry
  (1024 i + r, 1024 j + s) of the whole product A · Wᵀ. The output blocks (i, j) of the points with l = 7 tile the
  2048 × 4096 array, so after the region each output array is the whole product.
-/
import proofs.«109021_j14542759264516_2_alg».proof.Proof.KI.Reg0
import proofs.«109021_j14542759264516_2_alg».proof.Proof.KI.MathProj
import Idealize.ShloMosaic.Lib.Pipeline.Value
import Idealize.ShloMosaic.Lib.ValueIdx
set_option maxRecDepth 16384
noncomputable section
namespace Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen

/-! ## The blocks as entries of the arrays, and the output blocks' cover -/

section Blocks
variable {F : FTy → Type} [FloatOps F] [Named F]
variable (V : (c : Dev nD) → (b : Ref sig .tc) → Buf (Elt F) ((c : Thread nD τ).loc b))

/-- The printed index maps over the grid (2, 4, 8), point t = 32 i + 8 j + l: the row operand's block is (i, l),
    the two column operands' blocks are (j, l), the two outputs' blocks are (i, j). -/
theorem blockIdx0 : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8
    ∧ win0_2.index t (0 : Fin 2) = t.val / 8 % 4 ∧ win0_2.index t (1 : Fin 2) = t.val % 8
    ∧ win0_3.index t (0 : Fin 2) = t.val / 32 ∧ win0_3.index t (1 : Fin 2) = t.val / 8 % 4
    ∧ win0_4.index t (0 : Fin 2) = t.val / 32 ∧ win0_4.index t (1 : Fin 2) = t.val / 8 % 4 :=
  (by decide +kernel : ∀ t : Fin grid0.N, _)

/-- The row operand's block at point t, entry (r, k): the array's entry (1024 (t / 32) + r, 512 (t % 8) + k). -/
theorem iblk0_0_apply (c : Dev nD) (t : Fin cfg0.N) (x : S1024x512.Idx) (j : S2048x4096.Idx)
    (h0 : (j 0).val = 1024 * (t.val / 32) + (x 0).val) (h1 : (j 1).val = 512 * (t.val % 8) + (x 1).val) :
    (iblk0 V c 0 t : Vec F S1024x512 .f32) x = (V c (Pipeline.arrRef spec0 0) : S2048x4096.Idx → Elt F .f32) j := by
  obtain ⟨e0, e1, -⟩ := blockIdx0 t
  unfold iblk0
  rw [View.read_apply]
  show (V c (Pipeline.arrRef spec0 0) : S2048x4096.Idx → Elt F .f32) _ = _
  refine congrArg _ (funext fun a => Fin.ext ?_)
  match a with
  | ⟨0, _⟩ => show win0_0.index t (0 : Fin 2) * 1024 + 1 * (x 0).val = (j 0).val; rw [e0, h0]; omega
  | ⟨1, _⟩ => show win0_0.index t (1 : Fin 2) * 512 + 1 * (x 1).val = (j 1).val; rw [e1, h1]; omega

/-- The first column operand's block at point t, entry (s, k): the array's entry (1024 (t / 8 % 4) + s, 512 (t % 8) + k). -/
theorem iblk0_1_apply (c : Dev nD) (t : Fin cfg0.N) (x : S1024x512.Idx) (j : S4096x4096.Idx)
    (h0 : (j 0).val = 1024 * (t.val / 8 % 4) + (x 0).val) (h1 : (j 1).val = 512 * (t.val % 8) + (x 1).val) :
    (iblk0 V c 1 t : Vec F S1024x512 .f32) x = (V c (Pipeline.arrRef spec0 1) : S4096x4096.Idx → Elt F .f32) j := by
  obtain ⟨-, -, e0, e1, -⟩ := blockIdx0 t
  unfold iblk0
  rw [View.read_apply]
  show (V c (Pipeline.arrRef spec0 1) : S4096x4096.Idx → Elt F .f32) _ = _
  refine congrArg _ (funext fun a => Fin.ext ?_)
  match a with
  | ⟨0, _⟩ => show win0_1.index t (0 : Fin 2) * 1024 + 1 * (x 0).val = (j 0).val; rw [e0, h0]; omega
  | ⟨1, _⟩ => show win0_1.index t (1 : Fin 2) * 512 + 1 * (x 1).val = (j 1).val; rw [e1, h1]; omega

/-- The second column operand's block at point t, entry (s, k): the array's entry (1024 (t / 8 % 4) + s, 512 (t % 8) + k). -/
theorem iblk0_2_apply (c : Dev nD) (t : Fin cfg0.N) (x : S1024x512.Idx) (j : S4096x4096.Idx)
    (h0 : (j 0).val = 1024 * (t.val / 8 % 4) + (x 0).val) (h1 : (j 1).val = 512 * (t.val % 8) + (x 1).val) :
    (iblk0 V c 2 t : Vec F S1024x512 .f32) x = (V c (Pipeline.arrRef spec0 2) : S4096x4096.Idx → Elt F .f32) j := by
  obtain ⟨-, -, -, -, e0, e1, -⟩ := blockIdx0 t
  unfold iblk0
  rw [View.read_apply]
  show (V c (Pipeline.arrRef spec0 2) : S4096x4096.Idx → Elt F .f32) _ = _
  refine congrArg _ (funext fun a => Fin.ext ?_)
  match a with
  | ⟨0, _⟩ => show win0_2.index t (0 : Fin 2) * 1024 + 1 * (x 0).val = (j 0).val; rw [e0, h0]; omega
  | ⟨1, _⟩ => show win0_2.index t (1 : Fin 2) * 512 + 1 * (x 1).val = (j 1).val; rw [e1, h1]; omega

/-- An index of the first output array is in point t's block iff each coordinate is in the block's range. -/
theorem mem_blk0_3 (t : Fin cfg0.N) (i : S2048x4096.Idx) :
    i ∈ ((cfg0.win 3).blk t).view.set ↔ ∀ a : Fin 2, win0_3.index t a * S1024x1024.size a ≤ (i a).val ∧ (i a).val < win0_3.index t a * S1024x1024.size a + S1024x1024.size a := by
  show i ∈ ((View.whole main_v1_0).slice (win0_3.rect t)).set ↔ _
  rw [View.set_slice_whole, Rect.mem_set_unit]
  exact Iff.rfl

/-- An index of the second output array is in point t's block iff each coordinate is in the block's range. -/
theorem mem_blk0_4 (t : Fin cfg0.N) (i : S2048x4096.Idx) :
    i ∈ ((cfg0.win 4).blk t).view.set ↔ ∀ a : Fin 2, win0_4.index t a * S1024x1024.size a ≤ (i a).val ∧ (i a).val < win0_4.index t a * S1024x1024.size a + S1024x1024.size a := by
  show i ∈ ((View.whole main_v1_1).slice (win0_4.rect t)).set ↔ _
  rw [View.set_slice_whole, Rect.mem_set_unit]
  exact Iff.rfl

/-- Every index of the first output array lies in the block of a point that writes back: the last point of the
    reduction over its block, t = 32 (r / 1024) + 8 (s / 1024) + 7. -/
theorem cover0_3 (i : S2048x4096.Idx) : ∃ t : Fin cfg0.N, (cfg0.win 3).flush t = true ∧ i ∈ ((cfg0.win 3).blk t).view.set := by
  have hN : cfg0.N = 64 := N_0
  have hi0 : (i 0).val < 2048 := (i 0).isLt
  have hi1 : (i 1).val < 4096 := (i 1).isLt
  have ht : 32 * ((i 0).val / 1024) + 8 * ((i 1).val / 1024) + 7 < cfg0.N := by rw [hN]; omega
  refine ⟨⟨32 * ((i 0).val / 1024) + 8 * ((i 1).val / 1024) + 7, ht⟩, (flush0_3 _).mpr (by show (32 * ((i 0).val / 1024) + 8 * ((i 1).val / 1024) + 7) % 8 = 7; omega), ?_⟩
  obtain ⟨-, -, -, -, -, -, e0, e1, -⟩ := blockIdx0 ⟨32 * ((i 0).val / 1024) + 8 * ((i 1).val / 1024) + 7, ht⟩
  rw [mem_blk0_3]
  intro a
  match a with
  | ⟨0, _⟩ =>
    show win0_3.index _ (0 : Fin 2) * 1024 ≤ (i 0).val ∧ (i 0).val < win0_3.index _ (0 : Fin 2) * 1024 + 1024
    rw [e0]; show (32 * ((i 0).val / 1024) + 8 * ((i 1).val / 1024) + 7) / 32 * 1024 ≤ (i 0).val ∧ (i 0).val < (32 * ((i 0).val / 1024) + 8 * ((i 1).val / 1024) + 7) / 32 * 1024 + 1024
    omega
  | ⟨1, _⟩ =>
    show win0_3.index _ (1 : Fin 2) * 1024 ≤ (i 1).val ∧ (i 1).val < win0_3.index _ (1 : Fin 2) * 1024 + 1024
    rw [e1]; show (32 * ((i 0).val / 1024) + 8 * ((i 1).val / 1024) + 7) / 8 % 4 * 1024 ≤ (i 1).val ∧ (i 1).val < (32 * ((i 0).val / 1024) + 8 * ((i 1).val / 1024) + 7) / 8 % 4 * 1024 + 1024
    omega

/-- Every index of the second output array lies in the block of a point that writes back. -/
theorem cover0_4 (i : S2048x4096.Idx) : ∃ t : Fin cfg0.N, (cfg0.win 4).flush t = true ∧ i ∈ ((cfg0.win 4).blk t).view.set := by
  have hN : cfg0.N = 64 := N_0
  have hi0 : (i 0).val < 2048 := (i 0).isLt
  have hi1 : (i 1).val < 4096 := (i 1).isLt
  have ht : 32 * ((i 0).val / 1024) + 8 * ((i 1).val / 1024) + 7 < cfg0.N := by rw [hN]; omega
  refine ⟨⟨32 * ((i 0).val / 1024) + 8 * ((i 1).val / 1024) + 7, ht⟩, (flush0_4 _).mpr (by show (32 * ((i 0).val / 1024) + 8 * ((i 1).val / 1024) + 7) % 8 = 7; omega), ?_⟩
  obtain ⟨-, -, -, -, -, -, -, -, e0, e1⟩ := blockIdx0 ⟨32 * ((i 0).val / 1024) + 8 * ((i 1).val / 1024) + 7, ht⟩
  rw [mem_blk0_4]
  intro a
  match a with
  | ⟨0, _⟩ =>
    show win0_4.index _ (0 : Fin 2) * 1024 ≤ (i 0).val ∧ (i 0).val < win0_4.index _ (0 : Fin 2) * 1024 + 1024
    rw [e0]; show (32 * ((i 0).val / 1024) + 8 * ((i 1).val / 1024) + 7) / 32 * 1024 ≤ (i 0).val ∧ (i 0).val < (32 * ((i 0).val / 1024) + 8 * ((i 1).val / 1024) + 7) / 32 * 1024 + 1024
    omega
  | ⟨1, _⟩ =>
    show win0_4.index _ (1 : Fin 2) * 1024 ≤ (i 1).val ∧ (i 1).val < win0_4.index _ (1 : Fin 2) * 1024 + 1024
    rw [e1]; show (32 * ((i 0).val / 1024) + 8 * ((i 1).val / 1024) + 7) / 8 % 4 * 1024 ≤ (i 1).val ∧ (i 1).val < (32 * ((i 0).val / 1024) + 8 * ((i 1).val / 1024) + 7) / 8 % 4 * 1024 + 1024
    omega

end Blocks

/-! ## The mathematics: a reduction in eight steps, and arrays read at natural coordinates -/

section Fold

/-- A quantity indexed by the grid's points that restarts at the multiples of 8 from its addend and elsewhere adds
    its addend to what the point before left is, at point 8 q + l with l < 8, the sum of the addends of the points
    8 q … 8 q + l. -/
theorem sum_of_run {N : ℕ} {ι : Type} (f : (n : ℕ) → n < N → ι → EReal) (P : ℕ → ι → EReal)
    (h0 : ∀ (n : ℕ) (h : n < N), n % 8 = 0 → ∀ x, f n h x = P n x)
    (hs : ∀ (n : ℕ) (h : n + 1 < N), (n + 1) % 8 ≠ 0 → ∀ x, f (n + 1) h x = f n (Nat.lt_of_succ_lt h) x + P (n + 1) x)
    (q : ℕ) : ∀ (l : ℕ), l < 8 → ∀ (h : 8 * q + l < N) (x : ι),
      f (8 * q + l) h x = ∑ l' ∈ Finset.range (l + 1), P (8 * q + l') x
  | 0, _, h, x => by
    rw [Finset.sum_range_one]
    exact h0 (8 * q + 0) h (by omega) x
  | l + 1, hl, h, x => by
    rw [Finset.sum_range_succ, ← sum_of_run f P h0 hs q l (by omega) (Nat.lt_of_succ_lt h) x]
    exact hs (8 * q + l) h (by omega) x

/-- An array of extended reals read at natural coordinates: 0 outside its extents. -/
def at2 {n0 n1 : ℕ} (A : (⟨2, ![n0, n1]⟩ : Shape).Idx → EReal) (p q : ℕ) : EReal :=
  if h : p < n0 ∧ q < n1 then A (ix2 ⟨p, h.1⟩ ⟨q, h.2⟩) else 0

/-- Inside the extents it is the array's entry. -/
theorem at2_val {n0 n1 : ℕ} (A : (⟨2, ![n0, n1]⟩ : Shape).Idx → EReal) (a : Fin n0) (b : Fin n1) :
    at2 A a.val b.val = A (ix2 a b) := by
  unfold at2; rw [dif_pos ⟨a.isLt, b.isLt⟩]

/-- The whole product: entry (r, s) is the contraction over the 4096 columns of row r of A with row s of W. -/
def projArr (A : S2048x4096.Idx → Elt Ideal .f32) (W : S4096x4096.Idx → Elt Ideal .f32) : S2048x4096.Idx → Elt Ideal .bf16 :=
  fun j => ∑ k : Fin 4096, (A (ix2 (n0 := 2048) (j 0) k) : EReal) * (W (ix2 (n0 := 4096) (j 1) k) : EReal)

/-- The contribution of point n = 32 i + 8 j + l to entry (r, s) of its output block: the contraction over the
    512 columns of column block l, of row 1024 i + r of A with row 1024 j + s of W. -/
def blockProd (A : S2048x4096.Idx → EReal) (W : S4096x4096.Idx → EReal) (n : ℕ) (x : Fin 1024 × Fin 1024) : EReal :=
  ∑ k : Fin 512, at2 A (1024 * (n / 32) + x.1.val) (512 * (n % 8) + k.val) * at2 W (1024 * (n / 8 % 4) + x.2.val) (512 * (n % 8) + k.val)

/-- The eight contributions of the points 8 q … 8 q + 7 add up to the whole contraction. -/
theorem sum_blockProd (A : S2048x4096.Idx → EReal) (W : S4096x4096.Idx → EReal) (t : ℕ) (x : Fin 1024 × Fin 1024) :
    ∑ l' ∈ Finset.range (7 + 1), blockProd A W (8 * (t / 8) + l') x
      = ∑ n : Fin 4096, at2 A (1024 * (t / 32) + x.1.val) n.val * at2 W (1024 * (t / 8 % 4) + x.2.val) n.val := by
  rw [← Math.sum_blocks_8_512 (fun n => at2 A (1024 * (t / 32) + x.1.val) n * at2 W (1024 * (t / 8 % 4) + x.2.val) n),
    Finset.sum_range]
  refine Finset.sum_congr rfl fun l _ => ?_
  have hl : l.val < 8 := l.isLt
  unfold blockProd
  rw [show (8 * (t / 8) + l.val) / 32 = t / 32 from by omega, show (8 * (t / 8) + l.val) / 8 % 4 = t / 8 % 4 from by omega,
    show (8 * (t / 8) + l.val) % 8 = l.val from by omega]

/-- The whole contraction at natural coordinates is the whole product's entry. -/
theorem sum_at2_eq_projArr (A : S2048x4096.Idx → EReal) (W : S4096x4096.Idx → EReal) (p q : ℕ) (j : S2048x4096.Idx)
    (h0 : (j 0).val = p) (h1 : (j 1).val = q) :
    ∑ n : Fin 4096, at2 A p n.val * at2 W q n.val = projArr A W j := by
  subst h0 h1
  unfold projArr
  refine Finset.sum_congr rfl fun n _ => ?_
  rw [at2_val (n0 := 2048) A (j 0) n, at2_val (n0 := 4096) W (j 1) n]

end Fold

/-! ## The accumulators along a reduction, and what the last point writes back -/

section Value
variable (V : (c : Dev nD) → (b : Ref sig .tc) → Buf (Elt Ideal) ((c : Thread nD τ).loc b))

/-- Along one point the first accumulator gains that point's contribution to its block. -/
theorem pay4_blocks (c : Dev nD) (t : Fin cfg0.N) (acc : FVec Ideal S1024x1024 .f32) (x : Fin 1024 × Fin 1024) :
    k0_pay4 (F := Ideal) (iblk0 V c 0 t) (iblk0 V c 1 t) acc (ix2 x.1 x.2)
      = acc (ix2 x.1 x.2) + blockProd (V c (Pipeline.arrRef spec0 0)) (V c (Pipeline.arrRef spec0 1)) t.val x := by
  have hN : cfg0.N = 64 := N_0
  have ht : t.val < 64 := hN ▸ t.isLt
  refine (Math.k0_pay4_apply (iblk0 V c 0 t) (iblk0 V c 1 t) acc x.1 x.2).trans ?_
  refine congrArg (acc (ix2 x.1 x.2) + ·) ?_
  unfold blockProd
  refine Finset.sum_congr rfl fun k _ => ?_
  have hr : x.1.val < 1024 := x.1.isLt
  have hs : x.2.val < 1024 := x.2.isLt
  have hk : k.val < 512 := k.isLt
  have h1 : 1024 * (t.val / 32) + x.1.val < 2048 := by omega
  have h2 : 512 * (t.val % 8) + k.val < 4096 := by omega
  have h3 : 1024 * (t.val / 8 % 4) + x.2.val < 4096 := by omega
  rw [at2_val (n0 := 2048) (n1 := 4096) (V c (Pipeline.arrRef spec0 0)) ⟨1024 * (t.val / 32) + x.1.val, h1⟩ ⟨512 * (t.val % 8) + k.val, h2⟩,
    at2_val (n0 := 4096) (n1 := 4096) (V c (Pipeline.arrRef spec0 1)) ⟨1024 * (t.val / 8 % 4) + x.2.val, h3⟩ ⟨512 * (t.val % 8) + k.val, h2⟩]
  exact congrArg₂ (fun u v : EReal => u * v)
    (iblk0_0_apply V c t (ix2 x.1 k) (ix2 ⟨1024 * (t.val / 32) + x.1.val, h1⟩ ⟨512 * (t.val % 8) + k.val, h2⟩) rfl rfl)
    (iblk0_1_apply V c t (ix2 x.2 k) (ix2 ⟨1024 * (t.val / 8 % 4) + x.2.val, h3⟩ ⟨512 * (t.val % 8) + k.val, h2⟩) rfl rfl)

/-- Along one point the second accumulator gains that point's contribution to its block. -/
theorem pay5_blocks (c : Dev nD) (t : Fin cfg0.N) (acc : FVec Ideal S1024x1024 .f32) (x : Fin 1024 × Fin 1024) :
    k0_pay5 (F := Ideal) (iblk0 V c 0 t) (iblk0 V c 2 t) acc (ix2 x.1 x.2)
      = acc (ix2 x.1 x.2) + blockProd (V c (Pipeline.arrRef spec0 0)) (V c (Pipeline.arrRef spec0 2)) t.val x := by
  have hN : cfg0.N = 64 := N_0
  have ht : t.val < 64 := hN ▸ t.isLt
  refine (Math.k0_pay5_apply (iblk0 V c 0 t) (iblk0 V c 2 t) acc x.1 x.2).trans ?_
  refine congrArg (acc (ix2 x.1 x.2) + ·) ?_
  unfold blockProd
  refine Finset.sum_congr rfl fun k _ => ?_
  have hr : x.1.val < 1024 := x.1.isLt
  have hs : x.2.val < 1024 := x.2.isLt
  have hk : k.val < 512 := k.isLt
  have h1 : 1024 * (t.val / 32) + x.1.val < 2048 := by omega
  have h2 : 512 * (t.val % 8) + k.val < 4096 := by omega
  have h3 : 1024 * (t.val / 8 % 4) + x.2.val < 4096 := by omega
  rw [at2_val (n0 := 2048) (n1 := 4096) (V c (Pipeline.arrRef spec0 0)) ⟨1024 * (t.val / 32) + x.1.val, h1⟩ ⟨512 * (t.val % 8) + k.val, h2⟩,
    at2_val (n0 := 4096) (n1 := 4096) (V c (Pipeline.arrRef spec0 2)) ⟨1024 * (t.val / 8 % 4) + x.2.val, h3⟩ ⟨512 * (t.val % 8) + k.val, h2⟩]
  exact congrArg₂ (fun u v : EReal => u * v)
    (iblk0_0_apply V c t (ix2 x.1 k) (ix2 ⟨1024 * (t.val / 32) + x.1.val, h1⟩ ⟨512 * (t.val % 8) + k.val, h2⟩) rfl rfl)
    (iblk0_2_apply V c t (ix2 x.2 k) (ix2 ⟨1024 * (t.val / 8 % 4) + x.2.val, h3⟩ ⟨512 * (t.val % 8) + k.val, h2⟩) rfl rfl)

/-- The accumulators at one point named two ways. -/
theorem accAt0_congr (c : Dev nD) (u v : ℕ) (hu : u < cfg0.N) (hv : v < cfg0.N) (e : u = v) : accAt0 V c u hu = accAt0 V c v hv := by
  subst e; rfl

/-- At the last point of a reduction the first accumulator holds, at (r, s), the whole contraction of row
    1024 i + r of the row operand with row 1024 j + s of the first column operand. -/
theorem acc1_last (c : Dev nD) (t : Fin cfg0.N) (h7 : t.val % 8 = 7) (x : Fin 1024 × Fin 1024) :
    (accAt0 V c t.val t.isLt).1 (ix2 x.1 x.2)
      = ∑ n : Fin 4096, at2 (V c (Pipeline.arrRef spec0 0)) (1024 * (t.val / 32) + x.1.val) n.val * at2 (V c (Pipeline.arrRef spec0 1)) (1024 * (t.val / 8 % 4) + x.2.val) n.val := by
  have hN : cfg0.N = 64 := N_0
  have ht : t.val < 64 := hN ▸ t.isLt
  have hq : 8 * (t.val / 8) + 7 < cfg0.N := lt_of_lt_of_eq (by omega : 8 * (t.val / 8) + 7 < 64) hN.symm
  have key := sum_of_run (N := cfg0.N) (fun n h (y : Fin 1024 × Fin 1024) => (accAt0 V c n h).1 (ix2 y.1 y.2))
    (blockProd (V c (Pipeline.arrRef spec0 0)) (V c (Pipeline.arrRef spec0 1)))
    (fun n h hn y => by
      refine (congrFun (congrArg Prod.fst (accAt0_first V c ⟨n, h⟩ hn)) (ix2 y.1 y.2)).trans ?_
      refine (pay4_blocks V c ⟨n, h⟩ (k0_pay1 (F := Ideal)) y).trans ?_
      rw [Math.k0_pay1_apply, zero_add])
    (fun n h hn y => by
      have h' : (⟨n + 1, h⟩ : Fin cfg0.N).val - 1 < cfg0.N := by show n + 1 - 1 < cfg0.N; omega
      refine (congrFun (congrArg Prod.fst (accAt0_next V c ⟨n + 1, h⟩ hn h')) (ix2 y.1 y.2)).trans ?_
      refine (pay4_blocks V c ⟨n + 1, h⟩ _ y).trans ?_
      rw [accAt0_congr V c ((⟨n + 1, h⟩ : Fin cfg0.N).val - 1) n h' (Nat.lt_of_succ_lt h) (by show n + 1 - 1 = n; omega)])
    (t.val / 8) 7 (by omega) hq x
  rw [sum_blockProd] at key
  rw [← key]
  exact congrFun (congrArg Prod.fst (accAt0_congr V c t.val (8 * (t.val / 8) + 7) t.isLt hq (by omega))) (ix2 x.1 x.2)

/-- The same for the second accumulator and the second column operand. -/
theorem acc2_last (c : Dev nD) (t : Fin cfg0.N) (h7 : t.val % 8 = 7) (x : Fin 1024 × Fin 1024) :
    (accAt0 V c t.val t.isLt).2 (ix2 x.1 x.2)
      = ∑ n : Fin 4096, at2 (V c (Pipeline.arrRef spec0 0)) (1024 * (t.val / 32) + x.1.val) n.val * at2 (V c (Pipeline.arrRef spec0 2)) (1024 * (t.val / 8 % 4) + x.2.val) n.val := by
  have hN : cfg0.N = 64 := N_0
  have ht : t.val < 64 := hN ▸ t.isLt
  have hq : 8 * (t.val / 8) + 7 < cfg0.N := lt_of_lt_of_eq (by omega : 8 * (t.val / 8) + 7 < 64) hN.symm
  have key := sum_of_run (N := cfg0.N) (fun n h (y : Fin 1024 × Fin 1024) => (accAt0 V c n h).2 (ix2 y.1 y.2))
    (blockProd (V c (Pipeline.arrRef spec0 0)) (V c (Pipeline.arrRef spec0 2)))
    (fun n h hn y => by
      refine (congrFun (congrArg Prod.snd (accAt0_first V c ⟨n, h⟩ hn)) (ix2 y.1 y.2)).trans ?_
      refine (pay5_blocks V c ⟨n, h⟩ (k0_pay2 (F := Ideal)) y).trans ?_
      rw [Math.k0_pay2_apply, zero_add])
    (fun n h hn y => by
      have h' : (⟨n + 1, h⟩ : Fin cfg0.N).val - 1 < cfg0.N := by show n + 1 - 1 < cfg0.N; omega
      refine (congrFun (congrArg Prod.snd (accAt0_next V c ⟨n + 1, h⟩ hn h')) (ix2 y.1 y.2)).trans ?_
      refine (pay5_blocks V c ⟨n + 1, h⟩ _ y).trans ?_
      rw [accAt0_congr V c ((⟨n + 1, h⟩ : Fin cfg0.N).val - 1) n h' (Nat.lt_of_succ_lt h) (by show n + 1 - 1 = n; omega)])
    (t.val / 8) 7 (by omega) hq x
  rw [sum_blockProd] at key
  rw [← key]
  exact congrFun (congrArg Prod.snd (accAt0_congr V c t.val (8 * (t.val / 8) + 7) t.isLt hq (by omega))) (ix2 x.1 x.2)

/-- What a point that writes the first output back writes: its block of the whole product. -/
theorem flushed0_3 (c : Dev nD) (t : Fin cfg0.N) (hf : (cfg0.win 3).flush t = true) :
    (dat0 V c).flushed 3 t = ((cfg0.win 3).blk t).view.read (Elt Ideal) (projArr (V c (Pipeline.arrRef spec0 0)) (V c (Pipeline.arrRef spec0 1))) := by
  have h7 : t.val % 8 = 7 := (flush0_3 t).mp hf
  obtain ⟨-, -, -, -, -, -, e0, e1, -⟩ := blockIdx0 t
  show (cfg0.win 3).cut (grid0.coords t) ((dat0 V c).after 3 t) = _
  rw [after0_3_last V c t h7]
  funext y
  have hy0 : (y 0).val < 1024 := (y 0).isLt
  have hy1 : (y 1).val < 1024 := (y 1).isLt
  rw [View.read_apply]
  show k0_pay6 (F := Ideal) (accAt0 V c t.val t.isLt).1 ((cfg0.win 3).xinj (grid0.coords t) y)
    = projArr (V c (Pipeline.arrRef spec0 0)) (V c (Pipeline.arrRef spec0 1)) (((cfg0.win 3).blk t).view.emb y)
  refine (Math.k0_pay6_apply _ _).trans ?_
  have ey : (cfg0.win 3).xinj (grid0.coords t) y = ix2 (⟨(y 0).val, hy0⟩ : Fin 1024) (⟨(y 1).val, hy1⟩ : Fin 1024) := by
    funext a
    match a with
    | ⟨0, _⟩ => rfl
    | ⟨1, _⟩ => rfl
  rw [ey]
  refine (acc1_last V c t h7 (⟨(y 0).val, hy0⟩, ⟨(y 1).val, hy1⟩)).trans ?_
  refine sum_at2_eq_projArr _ _ _ _ _ ?_ ?_
  · show win0_3.index t (0 : Fin 2) * 1024 + 1 * (y 0).val = 1024 * (t.val / 32) + (y 0).val
    rw [e0]; omega
  · show win0_3.index t (1 : Fin 2) * 1024 + 1 * (y 1).val = 1024 * (t.val / 8 % 4) + (y 1).val
    rw [e1]; omega

/-- What a point that writes the second output back writes: its block of the whole product. -/
theorem flushed0_4 (c : Dev nD) (t : Fin cfg0.N) (hf : (cfg0.win 4).flush t = true) :
    (dat0 V c).flushed 4 t = ((cfg0.win 4).blk t).view.read (Elt Ideal) (projArr (V c (Pipeline.arrRef spec0 0)) (V c (Pipeline.arrRef spec0 2))) := by
  have h7 : t.val % 8 = 7 := (flush0_4 t).mp hf
  obtain ⟨-, -, -, -, -, -, -, -, e0, e1⟩ := blockIdx0 t
  show (cfg0.win 4).cut (grid0.coords t) ((dat0 V c).after 4 t) = _
  rw [after0_4_last V c t h7]
  funext y
  have hy0 : (y 0).val < 1024 := (y 0).isLt
  have hy1 : (y 1).val < 1024 := (y 1).isLt
  rw [View.read_apply]
  show k0_pay7 (F := Ideal) (accAt0 V c t.val t.isLt).2 ((cfg0.win 4).xinj (grid0.coords t) y)
    = projArr (V c (Pipeline.arrRef spec0 0)) (V c (Pipeline.arrRef spec0 2)) (((cfg0.win 4).blk t).view.emb y)
  refine (Math.k0_pay7_apply _ _).trans ?_
  have ey : (cfg0.win 4).xinj (grid0.coords t) y = ix2 (⟨(y 0).val, hy0⟩ : Fin 1024) (⟨(y 1).val, hy1⟩ : Fin 1024) := by
    funext a
    match a with
    | ⟨0, _⟩ => rfl
    | ⟨1, _⟩ => rfl
  rw [ey]
  refine (acc2_last V c t h7 (⟨(y 0).val, hy0⟩, ⟨(y 1).val, hy1⟩)).trans ?_
  refine sum_at2_eq_projArr _ _ _ _ _ ?_ ?_
  · show win0_4.index t (0 : Fin 2) * 1024 + 1 * (y 0).val = 1024 * (t.val / 32) + (y 0).val
    rw [e0]; omega
  · show win0_4.index t (1 : Fin 2) * 1024 + 1 * (y 1).val = 1024 * (t.val / 8 % 4) + (y 1).val
    rw [e1]; omega

/-- After the region the first output array holds the whole product of the row operand with the first column
    operand (the second operand enters transposed). -/
theorem arr0_3 (c : Dev nD) :
    (dat0 (F := Ideal) V c).arrAt 3 cfg0.N = projArr (V c (Pipeline.arrRef spec0 0)) (V c (Pipeline.arrRef spec0 1)) :=
  (dat0 V c).arrAt_eq_of_cover 3 _ (flushed0_3 V c) cover0_3

/-- After the region the second output array holds the whole product of the row operand with the second column
    operand. -/
theorem arr0_4 (c : Dev nD) :
    (dat0 (F := Ideal) V c).arrAt 4 cfg0.N = projArr (V c (Pipeline.arrRef spec0 0)) (V c (Pipeline.arrRef spec0 2)) :=
  (dat0 V c).arrAt_eq_of_cover 4 _ (flushed0_4 V c) cover0_4

end Value

end Cert.KernelIdeal.Hand
end
-- ==== Proof.Spec.lean ====
/-
  The function both programs compute, index by index, on the extended reals.

  `z` (32×64×64×64) is flattened to `a2` (2048×4096: row `64 b + c`, column `64 h + w`); the query and key
  projections are `proj z W r t = ∑ s, a2 r s · W t s`; the row-major regrouping of a 2048×4096 matrix as
  256×512×64 sends `(n, d, c)` to row `8 n + d / 64`, column `64 (d % 64) + c` (`heads`). The scores of head
  `n` are `∑ d, Q n d c · K n d e` times the scale, a softmax runs along `e`, the values of head `n`
  are `vproj n d k = ∑ c, x[n / 8, c, 512 (n % 8) + d] · W_V k c`, the context is `∑ c, attn n c e · vproj n d c`
  followed by the leaky rectifier of slope 0.2 (as the literal word), laid out as (n, e, d) and regrouped row-major to 32×64×64×64.
-/
import Idealize.ShloMosaic.PureOps.Ideal
import Idealize.ShloMosaic.Lib.ValueIdx

noncomputable section

namespace Cert.Spec

open Idealize.ShloMosaic Idealize.ShloMosaic.ValueIdx

/-- a 32×64×64×64 array of extended reals -/
abbrev T4 : Type := (⟨4, ![32, 64, 64, 64]⟩ : Shape).Idx → EReal
/-- a 4096×4096 array -/
abbrev TW : Type := (⟨2, ![4096, 4096]⟩ : Shape).Idx → EReal
/-- a 64×64 array -/
abbrev TV : Type := (⟨2, ![64, 64]⟩ : Shape).Idx → EReal

/-- `z` as a 2048 × 4096 matrix: row `64 b + c`, column `64 h + w`. -/
def a2 (z : T4) (r : Fin 2048) (s : Fin 4096) : EReal :=
  z (ix4 ⟨r.val / 64, by omega⟩ ⟨r.val % 64, by omega⟩ ⟨s.val / 64, by omega⟩ ⟨s.val % 64, by omega⟩)

/-- a projection `a2 · Wᵀ`. -/
def proj (z : T4) (w : TW) (r : Fin 2048) (t : Fin 4096) : EReal :=
  ∑ s : Fin 4096, a2 z r s * w (ix2 t s)

/-- the projection regrouped row-major as 256 × 512 × 64. -/
def heads (z : T4) (w : TW) (n : Fin 256) (d : Fin 512) (c : Fin 64) : EReal :=
  proj z w ⟨8 * n.val + d.val / 64, by omega⟩ ⟨64 * (d.val % 64) + c.val, by omega⟩

/-- the scale `1 / D`, `D = 11863283 / 524288` the divisor's exact value. -/
def invScale : EReal := ((524288 / 11863283 : ℝ) : EReal)

/-- the scaled scores of head `n`. -/
def score (z : T4) (wq wk : TW) (n : Fin 256) (c e : Fin 64) : EReal :=
  (∑ d : Fin 512, heads z wq n d c * heads z wk n d e) * invScale

/-- the largest score of a row. -/
def rowMax (z : T4) (wq wk : TW) (n : Fin 256) (c : Fin 64) : EReal :=
  Finset.univ.sup fun e : Fin 64 => score z wq wk n c e

/-- the shifted exponentials of a row. -/
def expw (z : T4) (wq wk : TW) (n : Fin 256) (c e : Fin 64) : EReal :=
  Ideal.exp (score z wq wk n c e - rowMax z wq wk n c)

/-- the softmax weights along `e`. -/
def attn (z : T4) (wq wk : TW) (n : Fin 256) (c e : Fin 64) : EReal :=
  Ideal.div (expw z wq wk n c e) (∑ e' : Fin 64, expw z wq wk n c e')

/-- the value projection of head `n`: batch `n / 8`, position `512 (n % 8) + d`. -/
def vproj (x : T4) (wv : TV) (n : Fin 256) (d : Fin 512) (k : Fin 64) : EReal :=
  ∑ c : Fin 64, x (ix4 ⟨n.val / 8, by omega⟩ c ⟨(512 * (n.val % 8) + d.val) / 64, by omega⟩ ⟨(512 * (n.val % 8) + d.val) % 64, by omega⟩)
    * wv (ix2 k c)

/-- the context before the rectifier, laid out (n, e, d). -/
def ctx (z x : T4) (wq wk : TW) (wv : TV) (n : Fin 256) (e : Fin 64) (d : Fin 512) : EReal :=
  ∑ c : Fin 64, attn z wq wk n c e * vproj x wv n d c

/-- the leaky rectifier, slope the f32 word of 0.2. -/
def leaky (v : EReal) : EReal := if 0 < v then v else Ideal.ofBits .f32 0x3E4CCCCD#32 * v

/-- the result at (b, c, h, w): the (n, e, d) array regrouped row-major. -/
def G (z x : T4) (wq wk : TW) (wv : TV) (b : Fin 32) (c h w : Fin 64) : EReal :=
  leaky (ctx z x wq wk wv ⟨8 * b.val + c.val / 8, by omega⟩ ⟨8 * (c.val % 8) + h.val / 8, by omega⟩ ⟨64 * (h.val % 8) + w.val, by omega⟩)

end Cert.Spec

end
-- ==== Proof.KI.MathAttn.lean ====
/-
  Region 1's payload at the ideal values, read at one index (h, e, d) of its 8 × 64 × 512 block.

  For a block of eight heads, q and k (8 × 512 × 64), the batch's activations xb (1 × 64 × 4096) and the value
  weights wv (64 × 64): the scores of head h are the contraction over the 512 positions of q's column c with k's
  column e, times the scale; a softmax runs along e (subtract the row's largest score, exponentiate, divide by the
  row's sum); the values of head h at position d are the contraction over the 64 channels of xb's column
  512 h + d with wv's row c; the context at (h, e, d) is the contraction over c of the softmax weight (h, c, e) with
  the value (h, d, c), followed by the leaky rectifier. Changes of format are the identity on extended reals.
-/
import proofs.«109021_j14542759264516_2_alg».proof.Proof.Gen.KernelIdeal.Skeleton
import proofs.«109021_j14542759264516_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Math

open Idealize.ShloMosaic Idealize.ShloMosaic.ValueIdx
open Cert.KernelIdeal Cert.KernelIdeal.Gen

/-! ## The block-level functions, mirroring the specification's -/

/-- The scaled scores of head h of the block: column c of q against column e of k over the 512 positions. -/
def scoreB (q k : FVec Ideal S8x512x64 .bf16) (h : Fin 8) (c e : Fin 64) : EReal :=
  (∑ dd : Fin 512, q (ix3 h dd c) * k (ix3 h dd e)) * Cert.Spec.invScale

/-- The largest score of row (h, c). -/
def rowMaxB (q k : FVec Ideal S8x512x64 .bf16) (h : Fin 8) (c : Fin 64) : EReal :=
  Finset.univ.sup fun e : Fin 64 => scoreB q k h c e

/-- The shifted exponentials of row (h, c). -/
def expwB (q k : FVec Ideal S8x512x64 .bf16) (h : Fin 8) (c e : Fin 64) : EReal :=
  Ideal.exp (scoreB q k h c e - rowMaxB q k h c)

/-- The softmax weights along e. -/
def attnB (q k : FVec Ideal S8x512x64 .bf16) (h : Fin 8) (c e : Fin 64) : EReal :=
  Ideal.div (expwB q k h c e) (∑ e' : Fin 64, expwB q k h c e')

/-- The values of head h at position d, channel c: column 512 h + d of the activations against row c of the weights. -/
def vB (xb : FVec Ideal S1x64x4096 .f32) (wv : FVec Ideal S64x64 .f32) (h : Fin 8) (d : Fin 512) (c : Fin 64) : EReal :=
  ∑ j : Fin 64, xb (ix3 (0 : Fin 1) j ⟨512 * h.val + d.val, by omega⟩) * wv (ix2 c j)

/-! ## Layout operations read at an index -/

section Layout
variable {α : Type}

/-- A 4096 × 64 array regrouped row-major as 8 × 512 × 64 reads, at (h, d, c), row 512 h + d, column c. -/
theorem shapeCast_4096x64_8x512x64_apply (v : S4096x64.Idx → α) (hc : S4096x64.ShapeCasts S8x512x64)
    (h : Fin 8) (d : Fin 512) (c : Fin 64) :
    shapeCast S8x512x64 v hc (ix3 h d c) = v (ix2 (⟨512 * h.val + d.val, by omega⟩ : Fin 4096) c) :=
  shapeCast_apply v hc _ _ (by
    rw [Shape.rowMajor_val_three, Shape.rowMajor_val_two]
    show (512 * h.val + d.val) * 64 + c.val = (h.val * 512 + d.val) * 64 + c.val
    omega)

/-- An [a, b] array cast to [a, b, 1] (a reduction's kept axis) reads, at (i, j, u), the operand at (i, j). -/
theorem shapeCast_ab_ab1_apply {a b : ℕ} (x : (⟨2, ![a, b]⟩ : Shape).Idx → α)
    (hc : (⟨2, ![a, b]⟩ : Shape).ShapeCasts ⟨3, ![a, b, 1]⟩) (i : Fin a) (j : Fin b) (u : Fin 1) :
    shapeCast ⟨3, ![a, b, 1]⟩ x hc (ix3 i j u) = x (ix2 i j) :=
  shapeCast_apply x hc _ _ (by
    have hu : u.val = 0 := by omega
    rw [Shape.rowMajor_val_three, Shape.rowMajor_val_two]
    show i.val * b + j.val = (i.val * b + j.val) * 1 + u.val
    rw [hu, Nat.mul_one, Nat.add_zero])

/-- An [a, b, 1] array broadcast along its unit axis to [a, b, n] reads, at (i, j, k), the operand at (i, j, 0). -/
theorem broadcastTo_ab1_abn_apply {a b n : ℕ} (v : (⟨3, ![a, b, 1]⟩ : Shape).Idx → α)
    (hb : (⟨3, ![a, b, 1]⟩ : Shape).Broadcasts ⟨3, ![a, b, n]⟩) (i : Fin a) (j : Fin b) (k : Fin n) :
    broadcastTo ⟨3, ![a, b, n]⟩ v hb (ix3 i j k) = v (ix3 i j (0 : Fin 1)) := by
  refine broadcastTo_apply v hb (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Layout

/-! ## The three products into the zero accumulator -/

/-- Activations (64 × 4096) against weights (64 × 64), both contracted over the channel: at (p, c), the sum over the
    64 channels j of x (j, p) · w (c, j). -/
theorem matmul_xw_apply {φ₁ φ₂ : FTy} (x : FVec Ideal S64x4096 φ₁) (w : FVec Ideal S64x64 φ₂) (p : Fin 4096) (c : Fin 64) :
    matmul (F := Ideal) dot_S64x4096_S64x64_S4096x64_0_1_1_0_n_n none x w
        (constant (F := Ideal) S4096x64 .f32 0x00000000#32) (ix2 p c)
      = ∑ j : Fin 64, x (ix2 j p) * w (ix2 c j) := by
  refine (Ideal.matmul_constant_zero_apply dot_S64x4096_S64x64_S4096x64_0_1_1_0_n_n none x w (ix2 p c)).trans ?_
  rw [← Equiv.sum_comp (contrEquiv1 dot_S64x4096_S64x64_S4096x64_0_1_1_0_n_n 64 rfl rfl).symm]
  refine Finset.sum_congr rfl fun j _ => ?_
  have cj := contrEquiv1_symm_val dot_S64x4096_S64x64_S4096x64_0_1_1_0_n_n 64 rfl rfl j
  have hl : dot_S64x4096_S64x64_S4096x64_0_1_1_0_n_n.lhsIdx (ix2 p c)
      ((contrEquiv1 dot_S64x4096_S64x64_S4096x64_0_1_1_0_n_n 64 rfl rfl).symm j) = ix2 j p := by
    funext ax; apply Fin.ext
    match ax with
    | ⟨0, _⟩ => simp [DotDims.lhsIdx, dot_S64x4096_S64x64_S4096x64_0_1_1_0_n_n]; exact cj
    | ⟨1, _⟩ => simp [DotDims.lhsIdx, dot_S64x4096_S64x64_S4096x64_0_1_1_0_n_n]; rfl
  have hr : dot_S64x4096_S64x64_S4096x64_0_1_1_0_n_n.rhsIdx (ix2 p c)
      ((contrEquiv1 dot_S64x4096_S64x64_S4096x64_0_1_1_0_n_n 64 rfl rfl).symm j) = ix2 c j := by
    funext ax; apply Fin.ext
    match ax with
    | ⟨0, _⟩ => simp [DotDims.rhsIdx, dot_S64x4096_S64x64_S4096x64_0_1_1_0_n_n]; rfl
    | ⟨1, _⟩ => simp [DotDims.rhsIdx, dot_S64x4096_S64x64_S4096x64_0_1_1_0_n_n]; exact cj
  rw [hl, hr]

/-- Queries against keys, head by head, both contracted over the 512 positions: at (h, c, e), the sum over dd of
    a (h, dd, c) · b (h, dd, e). -/
theorem matmul_qk_apply {φ₁ φ₂ : FTy} (a : FVec Ideal S8x512x64 φ₁) (b : FVec Ideal S8x512x64 φ₂)
    (h : Fin 8) (c e : Fin 64) :
    matmul (F := Ideal) dot_S8x512x64_S8x512x64_S8x64x64_1_1_2_2_0_0 none a b
        (constant (F := Ideal) S8x64x64 .f32 0x00000000#32) (ix3 h c e)
      = ∑ dd : Fin 512, a (ix3 h dd c) * b (ix3 h dd e) := by
  refine (Ideal.matmul_constant_zero_apply dot_S8x512x64_S8x512x64_S8x64x64_1_1_2_2_0_0 none a b (ix3 h c e)).trans ?_
  rw [← Equiv.sum_comp (contrEquiv1 dot_S8x512x64_S8x512x64_S8x64x64_1_1_2_2_0_0 512 rfl rfl).symm]
  refine Finset.sum_congr rfl fun dd _ => ?_
  have cd := contrEquiv1_symm_val dot_S8x512x64_S8x512x64_S8x64x64_1_1_2_2_0_0 512 rfl rfl dd
  have hl : dot_S8x512x64_S8x512x64_S8x64x64_1_1_2_2_0_0.lhsIdx (ix3 h c e)
      ((contrEquiv1 dot_S8x512x64_S8x512x64_S8x64x64_1_1_2_2_0_0 512 rfl rfl).symm dd) = ix3 h dd c := by
    funext ax; apply Fin.ext
    match ax with
    | ⟨0, _⟩ => simp [DotDims.lhsIdx, dot_S8x512x64_S8x512x64_S8x64x64_1_1_2_2_0_0]; rfl
    | ⟨1, _⟩ => simp [DotDims.lhsIdx, dot_S8x512x64_S8x512x64_S8x64x64_1_1_2_2_0_0]; exact cd
    | ⟨2, _⟩ => simp [DotDims.lhsIdx, dot_S8x512x64_S8x512x64_S8x64x64_1_1_2_2_0_0]; rfl
  have hr : dot_S8x512x64_S8x512x64_S8x64x64_1_1_2_2_0_0.rhsIdx (ix3 h c e)
      ((contrEquiv1 dot_S8x512x64_S8x512x64_S8x64x64_1_1_2_2_0_0 512 rfl rfl).symm dd) = ix3 h dd e := by
    funext ax; apply Fin.ext
    match ax with
    | ⟨0, _⟩ => simp [DotDims.rhsIdx, dot_S8x512x64_S8x512x64_S8x64x64_1_1_2_2_0_0]; rfl
    | ⟨1, _⟩ => simp [DotDims.rhsIdx, dot_S8x512x64_S8x512x64_S8x64x64_1_1_2_2_0_0]; exact cd
    | ⟨2, _⟩ => simp [DotDims.rhsIdx, dot_S8x512x64_S8x512x64_S8x64x64_1_1_2_2_0_0]; rfl
  rw [hl, hr]

/-- Softmax weights (8 × 64 × 64) against values (8 × 512 × 64), head by head, contracted over the weights' axis 1
    and the values' axis 2: at (h, e, d), the sum over c of p (h, c, e) · v (h, d, c). -/
theorem matmul_av_apply {φ₁ φ₂ : FTy} (p : FVec Ideal S8x64x64 φ₁) (v : FVec Ideal S8x512x64 φ₂)
    (h : Fin 8) (e : Fin 64) (d : Fin 512) :
    matmul (F := Ideal) dot_S8x64x64_S8x512x64_S8x64x512_1_2_2_1_0_0 none p v
        (constant (F := Ideal) S8x64x512 .f32 0x00000000#32) (ix3 h e d)
      = ∑ c : Fin 64, p (ix3 h c e) * v (ix3 h d c) := by
  refine (Ideal.matmul_constant_zero_apply dot_S8x64x64_S8x512x64_S8x64x512_1_2_2_1_0_0 none p v (ix3 h e d)).trans ?_
  rw [← Equiv.sum_comp (contrEquiv1 dot_S8x64x64_S8x512x64_S8x64x512_1_2_2_1_0_0 64 rfl rfl).symm]
  refine Finset.sum_congr rfl fun c _ => ?_
  have cc := contrEquiv1_symm_val dot_S8x64x64_S8x512x64_S8x64x512_1_2_2_1_0_0 64 rfl rfl c
  have hl : dot_S8x64x64_S8x512x64_S8x64x512_1_2_2_1_0_0.lhsIdx (ix3 h e d)
      ((contrEquiv1 dot_S8x64x64_S8x512x64_S8x64x512_1_2_2_1_0_0 64 rfl rfl).symm c) = ix3 h c e := by
    funext ax; apply Fin.ext
    match ax with
    | ⟨0, _⟩ => simp [DotDims.lhsIdx, dot_S8x64x64_S8x512x64_S8x64x512_1_2_2_1_0_0]; rfl
    | ⟨1, _⟩ => simp [DotDims.lhsIdx, dot_S8x64x64_S8x512x64_S8x64x512_1_2_2_1_0_0]; exact cc
    | ⟨2, _⟩ => simp [DotDims.lhsIdx, dot_S8x64x64_S8x512x64_S8x64x512_1_2_2_1_0_0]; rfl
  have hr : dot_S8x64x64_S8x512x64_S8x64x512_1_2_2_1_0_0.rhsIdx (ix3 h e d)
      ((contrEquiv1 dot_S8x64x64_S8x512x64_S8x64x512_1_2_2_1_0_0 64 rfl rfl).symm c) = ix3 h d c := by
    funext ax; apply Fin.ext
    match ax with
    | ⟨0, _⟩ => simp [DotDims.rhsIdx, dot_S8x64x64_S8x512x64_S8x64x512_1_2_2_1_0_0]; rfl
    | ⟨1, _⟩ => simp [DotDims.rhsIdx, dot_S8x64x64_S8x512x64_S8x64x512_1_2_2_1_0_0]; rfl
    | ⟨2, _⟩ => simp [DotDims.rhsIdx, dot_S8x64x64_S8x512x64_S8x64x512_1_2_2_1_0_0]; exact cc
  rw [hl, hr]

/-! ## The two reductions along the last axis -/

/-- The index (h, c) of the reduced array with the coordinate e put back on the dropped axis is (h, c, e). -/
theorem lift_last (hr : S8x64x64.Reduces [2] S8x64) (h : Fin 8) (c e : Fin 64) :
    hr.lift (ix2 h c) e = ix3 h c e := by
  funext ax; apply Fin.ext
  match ax with
  | ⟨0, _⟩ => rfl
  | ⟨1, _⟩ => rfl
  | ⟨2, _⟩ => rfl

/-- The word the maximum starts from, the f32 pattern of −∞, is the least extended real. -/
theorem ofBits_negInf_f32 : Ideal.ofBits .f32 0xFF800000#32 = ⊥ := by
  simp [Ideal.ofBits, Ideal.ieee]

/-- A sum along the last axis from the zero word, at (h, c): the sum over e of the source at (h, c, e). -/
theorem reduceAdd_last_apply (src : FVec Ideal S8x64x64 .f32) (hr : S8x64x64.Reduces [2] S8x64)
    (hφ : FKind.Formats .f32) (hacc : (0x00000000#32 : BitVec 32) = FKind.add.neutral .f32 hφ) (h : Fin 8) (c : Fin 64) :
    multiReduction (F := Ideal) .add [2] S8x64 src 0x00000000#32 hr hφ hacc (ix2 h c)
      = ∑ e : Fin 64, src (ix3 h c e) := by
  refine (Ideal.multiReduction_add_single src 0x00000000#32 hr hφ hacc (ix2 h c)).trans ?_
  exact Finset.sum_congr rfl fun e _ => congrArg src (lift_last hr h c e)

/-- A maximum along the last axis from −∞, at (h, c): the supremum over e of the source at (h, c, e). -/
theorem reduceMax_last_apply (src : FVec Ideal S8x64x64 .f32) (hr : S8x64x64.Reduces [2] S8x64)
    (hφ : FKind.Formats .f32) (hacc : (0xFF800000#32 : BitVec 32) = FKind.maximumf.neutral .f32 hφ) (h : Fin 8) (c : Fin 64) :
    multiReduction (F := Ideal) .maximumf [2] S8x64 src 0xFF800000#32 hr hφ hacc (ix2 h c)
      = Finset.univ.sup fun e : Fin 64 => src (ix3 h c e) := by
  refine (Ideal.multiReduction_maximumf_single src 0xFF800000#32 hr hφ hacc (ix2 h c)).trans ?_
  have hfun : (src ∘ hr.lift (ix2 h c)) = fun e : Fin 64 => src (ix3 h c e) :=
    funext fun e => congrArg src (lift_last hr h c e)
  rw [hfun]
  show (Finset.univ : Finset (Fin 64)).fold max (Ideal.ofBits .f32 0xFF800000#32) _ = _
  rw [ofBits_negInf_f32]
  rfl

/-! ## Pointwise pieces -/

/-- The scale the kernel names denotes the specification's scale. -/
theorem inv_sqrt_dk :
    Named.named (F := Ideal) Cert.KernelIdeal.κ "inv_sqrt_dk" (φ := .f32) 0x3D3504F3#32 = Cert.Spec.invScale :=
  IdealRules.named_const.ideal_named_scalar _ _ _ _ rfl

/-- Selecting v where v exceeds zero and the slope word times v elsewhere is the leaky rectifier of v. -/
theorem leaky_select (v : EReal) :
    Scalar.select (FloatOps.cmpf (F := Ideal) (φ := .f32) .ogt v (Scalar.ofBits (F := Ideal) .f32 0x00000000#32)) v
        (FloatOps.mulf (F := Ideal) (φ := .f32) (Scalar.ofBits (F := Ideal) .f32 0x3E4CCCCD#32) v)
      = Cert.Spec.leaky v := by
  by_cases hv : 0 < v
  · have hc : FloatOps.cmpf (F := Ideal) (φ := .f32) .ogt v (Scalar.ofBits (F := Ideal) .f32 0x00000000#32) = 1#1 := by
      show Ideal.cmp .ogt v (Ideal.ofBits .f32 0x00000000#32) = 1#1
      rw [Ideal.ofBits_zero_f32]
      simp [Ideal.cmp, hv]
    rw [hc, select_one]
    exact (if_pos hv).symm
  · have hc : FloatOps.cmpf (F := Ideal) (φ := .f32) .ogt v (Scalar.ofBits (F := Ideal) .f32 0x00000000#32) = 0#1 := by
      show Ideal.cmp .ogt v (Ideal.ofBits .f32 0x00000000#32) = 0#1
      rw [Ideal.ofBits_zero_f32]
      simp [Ideal.cmp, hv]
    rw [hc, select_zero]
    exact (if_neg hv).symm

/-- The rectifier as the payload writes it over a whole block, read at an index. -/
theorem leaky_apply (V : FVec Ideal S8x64x512 .f32) (i : S8x64x512.Idx) :
    select (cmpf .ogt V (broadcast S8x64x512 (Scalar.ofBits (F := Ideal) .f32 0x00000000#32))) V
        (mulf (broadcast S8x64x512 (Scalar.ofBits (F := Ideal) .f32 0x3E4CCCCD#32)) V) i
      = Cert.Spec.leaky (V i) :=
  leaky_select (V i)

/-! ## The scores and the softmax along the last axis -/

/-- The block's scaled scores as the payload builds them: the product of q and k times the named scale. -/
abbrev scoreV (q k : FVec Ideal S8x512x64 .bf16) : FVec Ideal S8x64x64 .f32 :=
  mulf (matmul (F := Ideal) dot_S8x512x64_S8x512x64_S8x64x64_1_1_2_2_0_0 none q k
      (constant (F := Ideal) S8x64x64 .f32 0x00000000#32))
    (broadcast S8x64x64 (Named.named (F := Ideal) Cert.KernelIdeal.κ "inv_sqrt_dk" (φ := .f32) 0x3D3504F3#32))

/-- They are the block-level scores. -/
theorem scoreV_apply (q k : FVec Ideal S8x512x64 .bf16) (h : Fin 8) (c e : Fin 64) :
    scoreV q k (ix3 h c e) = scoreB q k h c e :=
  congrArg₂ (· * ·) (matmul_qk_apply q k h c e) inv_sqrt_dk

/-- A row's maximum, kept as a unit axis and broadcast back along the row, at (h, c, e): the supremum of the row. -/
theorem rowMax_bcast_apply (S : FVec Ideal S8x64x64 .f32) (hr : S8x64x64.Reduces [2] S8x64)
    (hφ : FKind.Formats .f32) (hacc : (0xFF800000#32 : BitVec 32) = FKind.maximumf.neutral .f32 hφ)
    (hc : S8x64.ShapeCasts S8x64x1) (hb : S8x64x1.Broadcasts S8x64x64) (h : Fin 8) (c e : Fin 64) :
    broadcastTo S8x64x64
        (shapeCast S8x64x1 (multiReduction (F := Ideal) .maximumf [2] S8x64 S 0xFF800000#32 hr hφ hacc) hc) hb (ix3 h c e)
      = Finset.univ.sup fun e' : Fin 64 => S (ix3 h c e') := by
  refine (broadcastTo_ab1_abn_apply _ hb h c e).trans ?_
  refine (shapeCast_ab_ab1_apply _ hc h c (0 : Fin 1)).trans ?_
  exact reduceMax_last_apply S hr hφ hacc h c

/-- A row's sum, kept as a unit axis and broadcast back along the row, at (h, c, e): the sum of the row. -/
theorem rowSum_bcast_apply (E : FVec Ideal S8x64x64 .f32) (hr : S8x64x64.Reduces [2] S8x64)
    (hφ : FKind.Formats .f32) (hacc : (0x00000000#32 : BitVec 32) = FKind.add.neutral .f32 hφ)
    (hc : S8x64.ShapeCasts S8x64x1) (hb : S8x64x1.Broadcasts S8x64x64) (h : Fin 8) (c e : Fin 64) :
    broadcastTo S8x64x64
        (shapeCast S8x64x1 (multiReduction (F := Ideal) .add [2] S8x64 E 0x00000000#32 hr hφ hacc) hc) hb (ix3 h c e)
      = ∑ e' : Fin 64, E (ix3 h c e') := by
  refine (broadcastTo_ab1_abn_apply _ hb h c e).trans ?_
  refine (shapeCast_ab_ab1_apply _ hc h c (0 : Fin 1)).trans ?_
  exact reduceAdd_last_apply E hr hφ hacc h c

/-- The exponential of a score less its row's maximum, as the payload builds it, at (h, c, e). -/
theorem expShift_apply (S : FVec Ideal S8x64x64 .f32) (hr : S8x64x64.Reduces [2] S8x64)
    (hφ : FKind.Formats .f32) (hacc : (0xFF800000#32 : BitVec 32) = FKind.maximumf.neutral .f32 hφ)
    (hc : S8x64.ShapeCasts S8x64x1) (hb : S8x64x1.Broadcasts S8x64x64) (h : Fin 8) (c e : Fin 64) :
    exp (subf S (broadcastTo S8x64x64
        (shapeCast S8x64x1 (multiReduction (F := Ideal) .maximumf [2] S8x64 S 0xFF800000#32 hr hφ hacc) hc) hb)) (ix3 h c e)
      = Ideal.exp (S (ix3 h c e) - Finset.univ.sup fun e' : Fin 64 => S (ix3 h c e')) :=
  congrArg (fun m => Ideal.exp (S (ix3 h c e) - m)) (rowMax_bcast_apply S hr hφ hacc hc hb h c e)

/-- Over the block's scores it is the block-level shifted exponential. -/
theorem expw_apply (q k : FVec Ideal S8x512x64 .bf16) (hr : S8x64x64.Reduces [2] S8x64)
    (hφ : FKind.Formats .f32) (hacc : (0xFF800000#32 : BitVec 32) = FKind.maximumf.neutral .f32 hφ)
    (hc : S8x64.ShapeCasts S8x64x1) (hb : S8x64x1.Broadcasts S8x64x64) (h : Fin 8) (c e : Fin 64) :
    exp (subf (scoreV q k) (broadcastTo S8x64x64
        (shapeCast S8x64x1 (multiReduction (F := Ideal) .maximumf [2] S8x64 (scoreV q k) 0xFF800000#32 hr hφ hacc) hc) hb))
        (ix3 h c e)
      = expwB q k h c e := by
  refine (expShift_apply (scoreV q k) hr hφ hacc hc hb h c e).trans ?_
  have hs : ∀ e' : Fin 64, scoreV q k (ix3 h c e') = scoreB q k h c e' := fun e' => scoreV_apply q k h c e'
  exact congrArg₂ (fun a m => Ideal.exp (a - m)) (hs e) (congrArg (Finset.sup Finset.univ) (funext hs))

/-! ## The payload -/

/-- Region 1's stored value at (h, e, d): the leaky rectifier of the context, the contraction over the 64 channels c
    of the softmax weight (h, c, e) with the value (h, d, c). -/
theorem k1_pay1_apply (xb : FVec Ideal S1x64x4096 .f32) (wv : FVec Ideal S64x64 .f32) (q k : FVec Ideal S8x512x64 .bf16)
    (h : Fin 8) (e : Fin 64) (d : Fin 512) :
    k1_pay1 (F := Ideal) xb wv q k (ix3 h e d)
      = Cert.Spec.leaky (∑ c : Fin 64, attnB q k h c e * vB xb wv h d c) := by
  unfold k1_pay1
  simp only [shapeCast_self]
  refine (leaky_apply _ (ix3 h e d)).trans (congrArg Cert.Spec.leaky ?_)
  refine (matmul_av_apply _ _ h e d).trans (Finset.sum_congr rfl fun c _ => ?_)
  refine congrArg₂ (· * ·) ?_ ?_
  · -- the softmax weight (h, c, e)
    unfold attnB
    refine congrArg₂ Ideal.div ?_ ?_
    · exact expw_apply q k _ _ _ _ _ h c e
    · refine (rowSum_bcast_apply _ _ _ _ _ _ h c e).trans (Finset.sum_congr rfl fun e' _ => ?_)
      exact expw_apply q k _ _ _ _ _ h c e'
  · -- the value (h, d, c)
    unfold vB
    refine (truncf_apply (φ := .f32) (ψ := .bf16) _ bitsLt_bf16_f32 (ix3 h d c)).trans ?_
    refine (shapeCast_4096x64_8x512x64_apply _ _ h d c).trans ?_
    refine (matmul_xw_apply _ _ _ c).trans (Finset.sum_congr rfl fun j _ => ?_)
    refine congrArg₂ (· * ·) ?_ (truncf_apply (φ := .f32) (ψ := .bf16) wv bitsLt_bf16_f32 (ix2 c j))
    exact (truncf_apply (φ := .f32) (ψ := .bf16) _ bitsLt_bf16_f32 _).trans (shapeCast_1ab_ab_apply xb _ j _)

end Cert.KernelIdeal.Math

end
-- ==== Proof.KI.MathSpec.lean ====
/-
  The block-level functions are the specification's once the blocks are read at the arrays.

  If head h of the block holds head n of the regrouped query and key projections (h = n mod 8), the activations'
  block is batch n / 8 of x with its last two axes flattened, and the weights agree, then the scores, the row
  maxima, the shifted exponentials, the softmax weights and the values of the block are those of head n, and so is
  the context before the rectifier.
-/
import proofs.«109021_j14542759264516_2_alg».proof.Proof.KI.MathAttn
import proofs.«109021_j14542759264516_2_alg».proof.Proof.Spec

noncomputable section

namespace Cert.KernelIdeal.Math

open Idealize.ShloMosaic Idealize.ShloMosaic.ValueIdx
open Cert.KernelIdeal Cert.KernelIdeal.Gen

section Heads
variable (z : Cert.Spec.T4) (wq wk : Cert.Spec.TW) (q k : FVec Ideal S8x512x64 .bf16) (n : Fin 256) (h : Fin 8)
  (hq : ∀ (dd : Fin 512) (c : Fin 64), q (ix3 h dd c) = Cert.Spec.heads z wq n dd c)
  (hk : ∀ (dd : Fin 512) (c : Fin 64), k (ix3 h dd c) = Cert.Spec.heads z wk n dd c)
include hq hk

/-- The block's scores of head h are the scores of head n. -/
theorem scoreB_eq_score (c e : Fin 64) : scoreB q k h c e = Cert.Spec.score z wq wk n c e := by
  unfold scoreB Cert.Spec.score
  refine congrArg (· * Cert.Spec.invScale) (Finset.sum_congr rfl fun dd _ => ?_)
  rw [hq dd c, hk dd e]

/-- So are the row maxima, -/
theorem rowMaxB_eq_rowMax (c : Fin 64) : rowMaxB q k h c = Cert.Spec.rowMax z wq wk n c := by
  unfold rowMaxB Cert.Spec.rowMax
  exact congrArg (Finset.sup Finset.univ) (funext fun e => scoreB_eq_score z wq wk q k n h hq hk c e)

/-- the shifted exponentials, -/
theorem expwB_eq_expw (c e : Fin 64) : expwB q k h c e = Cert.Spec.expw z wq wk n c e := by
  unfold expwB Cert.Spec.expw
  rw [scoreB_eq_score z wq wk q k n h hq hk c e, rowMaxB_eq_rowMax z wq wk q k n h hq hk c]

/-- and the softmax weights. -/
theorem attnB_eq_attn (c e : Fin 64) : attnB q k h c e = Cert.Spec.attn z wq wk n c e := by
  unfold attnB Cert.Spec.attn
  rw [expwB_eq_expw z wq wk q k n h hq hk c e]
  exact congrArg (Ideal.div _) (Finset.sum_congr rfl fun e' _ => expwB_eq_expw z wq wk q k n h hq hk c e')

end Heads

/-- The block's values of head h at position d are the value projection of head n: column 512 h + d of the block is
    position 512 (n mod 8) + d of batch n / 8. -/
theorem vB_eq_vproj (x : Cert.Spec.T4) (wvS : Cert.Spec.TV) (xb : FVec Ideal S1x64x4096 .f32) (wv : FVec Ideal S64x64 .f32)
    (n : Fin 256) (h : Fin 8) (hh : h.val = n.val % 8)
    (hx : ∀ (j : Fin 64) (s : Fin 4096), xb (ix3 (0 : Fin 1) j s)
      = x (ix4 (⟨n.val / 8, by omega⟩ : Fin 32) j (⟨s.val / 64, by omega⟩ : Fin 64) (⟨s.val % 64, by omega⟩ : Fin 64)))
    (hw : ∀ a b : Fin 64, wv (ix2 a b) = wvS (ix2 a b)) (d : Fin 512) (c : Fin 64) :
    vB xb wv h d c = Cert.Spec.vproj x wvS n d c := by
  obtain rfl : h = ⟨n.val % 8, Nat.mod_lt _ (by decide)⟩ := Fin.ext hh
  unfold vB Cert.Spec.vproj
  refine Finset.sum_congr rfl fun j _ => ?_
  rw [hx j _, hw c j]

/-- The block's context before the rectifier, at (e, d) of head h, is the specification's at (n, e, d). -/
theorem ctx_block_eq_spec (z x : Cert.Spec.T4) (wq wk : Cert.Spec.TW) (wvS : Cert.Spec.TV)
    (q k : FVec Ideal S8x512x64 .bf16) (xb : FVec Ideal S1x64x4096 .f32) (wv : FVec Ideal S64x64 .f32)
    (n : Fin 256) (h : Fin 8) (hh : h.val = n.val % 8)
    (hq : ∀ (dd : Fin 512) (c : Fin 64), q (ix3 h dd c) = Cert.Spec.heads z wq n dd c)
    (hk : ∀ (dd : Fin 512) (c : Fin 64), k (ix3 h dd c) = Cert.Spec.heads z wk n dd c)
    (hx : ∀ (j : Fin 64) (s : Fin 4096), xb (ix3 (0 : Fin 1) j s)
      = x (ix4 (⟨n.val / 8, by omega⟩ : Fin 32) j (⟨s.val / 64, by omega⟩ : Fin 64) (⟨s.val % 64, by omega⟩ : Fin 64)))
    (hw : ∀ a b : Fin 64, wv (ix2 a b) = wvS (ix2 a b)) (e : Fin 64) (d : Fin 512) :
    (∑ c : Fin 64, attnB q k h c e * vB xb wv h d c) = Cert.Spec.ctx z x wq wk wvS n e d := by
  unfold Cert.Spec.ctx
  refine Finset.sum_congr rfl fun c _ => ?_
  rw [attnB_eq_attn z wq wk q k n h hq hk c e, vB_eq_vproj x wvS xb wv n h hh hx hw d c]

end Cert.KernelIdeal.Math

end
-- ==== Proof.KI.Value.lean ====
/-
  The idealized kernel's result, index by index, is the specification: the last reshape regroups the attention
  region's output array, whose row n (of 256) is written by grid point n / 8 as head n % 8 of that point's block; the
  block's inputs are rows of the reshaped projections (the first region's two output arrays, each a whole matrix
  product of the flattened activations with a weight matrix), one batch of the reshaped second input, and the value
  weights; the stored value is the leaky rectifier of the context, the block-level functions being the specification's
  once the blocks are read at the arrays.
-/
import proofs.«109021_j14542759264516_2_alg».proof.Proof.KI.HostReads
import proofs.«109021_j14542759264516_2_alg».proof.Proof.KI.Reg1Array
import proofs.«109021_j14542759264516_2_alg».proof.Proof.KI.Reg0Array
import proofs.«109021_j14542759264516_2_alg».proof.Proof.KI.MathSpec

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen Cert.KernelIdeal.Math

variable (m : (ℓ : Loc nD τ sig) → Buf (Elt Ideal) ℓ) (ρ : Dev nD → PrngReg) (c : Dev nD)

/-- the five arguments at launch, as the specification's arrays -/
abbrev zA : Cert.Spec.T4 := m ((c : Thread nD τ).loc main_arg0)
abbrev xA : Cert.Spec.T4 := m ((c : Thread nD τ).loc main_arg1)
abbrev wqA : Cert.Spec.TW := m ((c : Thread nD τ).loc main_arg2)
abbrev wkA : Cert.Spec.TW := m ((c : Thread nD τ).loc main_arg3)
abbrev wvA : Cert.Spec.TV := m ((c : Thread nD τ).loc main_arg4)

/-- the flattened activations at region 0's entry -/
theorem a2_apply (r : Fin 2048) (s : Fin 4096) :
    (B1 m ρ c (Proc.devRef .tc main_v0) : S2048x4096.Idx → EReal) (ix2 r s) = Cert.Spec.a2 (zA m c) r s := by
  rw [B1_v0]
  exact Cert.Layout.cast_bchw_rows _ _ r s

/-- the first region's first output array: the whole product of the flattened activations with the query weights -/
theorem q2_apply (r : Fin 2048) (s : Fin 4096) :
    (B2 m ρ c (Proc.devRef .tc main_v1_0) : S2048x4096.Idx → EReal) (ix2 r s) = Cert.Spec.proj (zA m c) (wqA m c) r s := by
  rw [show B2 m ρ c (Proc.devRef .tc main_v1_0) = (dat0 (E1 m ρ) c).arrAt 3 cfg0.N from B2_arr m ρ c 3, arr0_3]
  let A : S2048x4096.Idx → EReal := B1 m ρ c (Proc.devRef .tc main_v0)
  let W : S4096x4096.Idx → EReal := B1 m ρ c (Proc.devRef .tc main_arg2)
  show (∑ k : Fin 4096, A (ix2 r k) * W (ix2 s k)) = ∑ k : Fin 4096, Cert.Spec.a2 (zA m c) r k * (wqA m c) (ix2 s k)
  refine Finset.sum_congr rfl fun k _ => ?_
  refine congrArg₂ (· * ·) (a2_apply m ρ c r k) ?_
  exact congrFun (B1_of m ρ c main_arg2 (by decide)) (ix2 s k)
/-- the second: with the key weights -/
theorem k2_apply (r : Fin 2048) (s : Fin 4096) :
    (B2 m ρ c (Proc.devRef .tc main_v1_1) : S2048x4096.Idx → EReal) (ix2 r s) = Cert.Spec.proj (zA m c) (wkA m c) r s := by
  rw [show B2 m ρ c (Proc.devRef .tc main_v1_1) = (dat0 (E1 m ρ) c).arrAt 4 cfg0.N from B2_arr m ρ c 4, arr0_4]
  let A : S2048x4096.Idx → EReal := B1 m ρ c (Proc.devRef .tc main_v0)
  let W : S4096x4096.Idx → EReal := B1 m ρ c (Proc.devRef .tc main_arg3)
  show (∑ k : Fin 4096, A (ix2 r k) * W (ix2 s k)) = ∑ k : Fin 4096, Cert.Spec.a2 (zA m c) r k * (wkA m c) (ix2 s k)
  refine Finset.sum_congr rfl fun k _ => ?_
  refine congrArg₂ (· * ·) (a2_apply m ρ c r k) ?_
  exact congrFun (B1_of m ρ c main_arg3 (by decide)) (ix2 s k)

/-- a row of the reshaped query projection at region 1's entry -/
theorem qr_apply (n : Fin 256) (dd : Fin 512) (k : Fin 64) :
    (B3 m ρ c (Proc.devRef .tc main_v2) : S256x512x64.Idx → EReal) (ix3 n dd k) = Cert.Spec.heads (zA m c) (wqA m c) n dd k := by
  rw [B3_v2]
  refine (Cert.Layout.cast_rows_heads _ _ n dd k).trans ?_
  exact q2_apply m ρ c _ _
theorem kr_apply (n : Fin 256) (dd : Fin 512) (k : Fin 64) :
    (B3 m ρ c (Proc.devRef .tc main_v3) : S256x512x64.Idx → EReal) (ix3 n dd k) = Cert.Spec.heads (zA m c) (wkA m c) n dd k := by
  rw [B3_v3]
  refine (Cert.Layout.cast_rows_heads _ _ n dd k).trans ?_
  exact k2_apply m ρ c _ _
/-- the second input with its last two axes merged, at region 1's entry -/
theorem xr_apply (b : Fin 32) (j : Fin 64) (s : Fin 4096) :
    (B3 m ρ c (Proc.devRef .tc main_v4) : S32x64x4096.Idx → EReal) (ix3 b j s)
      = xA m c (ix4 b j (⟨s.val / 64, by omega⟩ : Fin 64) (⟨s.val % 64, by omega⟩ : Fin 64)) := by
  rw [B3_v4]
  refine (Cert.Layout.cast_bchw_bcs _ _ b j s).trans ?_
  have e : B2 m ρ c (Proc.devRef .tc main_arg1) = m ((c : Thread nD τ).loc main_arg1) :=
    (B2_of_ne m ρ c main_arg1 (by decide)).trans ((B1_of m ρ c main_arg1 (by decide)).trans rfl)
  rw [e]

/-- the attention region's output array at (n, e, d) -/
theorem out_apply (n : Fin 256) (e : Fin 64) (d : Fin 512) :
    (B4 m ρ c (Proc.devRef .tc main_v5) : S256x64x512.Idx → EReal) (ix3 n e d)
      = Cert.Spec.leaky (Cert.Spec.ctx (zA m c) (xA m c) (wqA m c) (wkA m c) (wvA m c) n e d) := by
  have hN : cfg1.N = 32 := N_1
  let t : Fin cfg1.N := ⟨n.val / 8, by omega⟩
  let h : Fin 8 := ⟨n.val % 8, by omega⟩
  have hn : n.val = 8 * t.val + h.val := by show n.val = 8 * (n.val / 8) + n.val % 8; omega
  rw [show B4 m ρ c (Proc.devRef .tc main_v5) = (dat1 (E3 m ρ) c).arrAt 4 cfg1.N from B4_arr m ρ c 4]
  rw [arr1_4_apply' (E3 m ρ) c t h e d n hn, k1_pay1_apply]
  refine congrArg Cert.Spec.leaky ?_
  refine ctx_block_eq_spec (zA m c) (xA m c) (wqA m c) (wkA m c) (wvA m c) _ _ _ _ n h rfl ?_ ?_ ?_ ?_ e d
  · intro dd k
    rw [iblk1_0_apply' (E3 m ρ) c t h dd k n hn]
    exact qr_apply m ρ c n dd k
  · intro dd k
    rw [iblk1_1_apply' (E3 m ρ) c t h dd k n hn]
    exact kr_apply m ρ c n dd k
  · intro j s
    rw [iblk1_2_apply' (E3 m ρ) c t j s (⟨n.val / 8, by omega⟩ : Fin 32) rfl]
    exact xr_apply m ρ c _ j s
  · intro a b
    rw [iblk1_3_apply (E3 m ρ) c t a b]
    exact congrFun (B3_main_arg4 m ρ c) (ix2 a b)

/-- the result at (b, cc, hh, ww) -/
theorem result_apply (b : Fin 32) (cc hh ww : Fin 64) :
    (B5 m ρ c (Proc.devRef .tc main_v6) : S32x64x64x64.Idx → EReal) (ix4 b cc hh ww)
      = Cert.Spec.G (zA m c) (xA m c) (wqA m c) (wkA m c) (wvA m c) b cc hh ww := by
  rw [B5_v6]
  refine (Cert.Layout.cast_ned_bchw _ _ b cc hh ww).trans ?_
  exact out_apply m ρ c _ _ _

/-- the result buffer after the run, as one function of the launch memory -/
def resultOf (z x : Cert.Spec.T4) (wq wk : Cert.Spec.TW) (wv : Cert.Spec.TV) : S32x64x64x64.Idx → EReal :=
  fun i => Cert.Spec.G z x wq wk wv (i 0) (i 1) (i 2) (i 3)

theorem result_eq : (B5 m ρ c (Proc.devRef .tc main_v6) : S32x64x64x64.Idx → EReal)
    = resultOf (zA m c) (xA m c) (wqA m c) (wkA m c) (wvA m c) := by
  funext i
  obtain ⟨b, cc, hh, ww, rfl⟩ : ∃ (b : Fin 32) (cc hh ww : Fin 64), i = ix4 b cc hh ww := ⟨i 0, i 1, i 2, i 3, eq_ix4 i⟩
  exact result_apply m ρ c b cc hh ww

end Cert.KernelIdeal.Hand

end
-- ==== Proof.RefRun.lean ====
import proofs.«109021_j14542759264516_2_alg».proof.Proof.Gen.ReferenceIdeal
import Idealize.ShloMosaic.Lib.StableHlo.Run

/-!
  The reference program's @main as a list of host operations — the 31 of @main and, at the call of the leaky
  rectifier, the callee's six and the one of the select it calls in turn, over the call's own buffers — and its
  run: every weakly fair execution terminates with the result buffer at the operations' composed pure term of
  the five arguments (`refOut`, stated stage by stage), the arguments unchanged.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the call of the leaky rectifier unfolded: the callee's six over the call's
    record (the zero, its broadcast, the comparison, the slope converted, its broadcast, the product) and the
    select of the function it calls, whose result buffer is the call's. -/
abbrev ops : List (HloOp τ sig (Elt F)) :=
  [ reshape main_arg0 main_v0 rfl shapeCasts_S32x64x64x64_S32x64x4096,
    reshape main_arg1 main_v1 rfl shapeCasts_S32x64x64x64_S32x64x4096,
    unary main_v1 main_v2 ((transpose S32x4096x64 [0, 2, 1] · transposes_S32x64x4096_S32x4096x64_0_2_1) : (⟨S32x64x4096, .f32⟩ : BufTy).Contents (Elt F) → (⟨S32x4096x64, .f32⟩ : BufTy).Contents (Elt F)),
    binary main_v0 main_arg2 main_v3 ((fun l r => Host.dotGeneral dot_S32x64x4096_S4096x4096_S32x64x4096_2_1_01_0_n_n none l r) : (⟨S32x64x4096, .f32⟩ : BufTy).Contents (Elt F) → (⟨S4096x4096, .f32⟩ : BufTy).Contents (Elt F) → (⟨S32x64x4096, .f32⟩ : BufTy).Contents (Elt F)),
    reshape main_v3 main_v4 rfl shapeCasts_S32x64x4096_S256x512x64,
    binary main_v0 main_arg3 main_v5 ((fun l r => Host.dotGeneral dot_S32x64x4096_S4096x4096_S32x64x4096_2_1_01_0_n_n none l r) : (⟨S32x64x4096, .f32⟩ : BufTy).Contents (Elt F) → (⟨S4096x4096, .f32⟩ : BufTy).Contents (Elt F) → (⟨S32x64x4096, .f32⟩ : BufTy).Contents (Elt F)),
    reshape main_v5 main_v6 rfl shapeCasts_S32x64x4096_S256x512x64,
    binary main_v2 main_arg4 main_v7 ((fun l r => Host.dotGeneral dot_S32x4096x64_S64x64_S32x4096x64_2_1_01_0_n_n none l r) : (⟨S32x4096x64, .f32⟩ : BufTy).Contents (Elt F) → (⟨S64x64, .f32⟩ : BufTy).Contents (Elt F) → (⟨S32x4096x64, .f32⟩ : BufTy).Contents (Elt F)),
    reshape main_v7 main_v8 rfl shapeCasts_S32x4096x64_S256x512x64,
    binary main_v4 main_v6 main_v9 ((fun l r => Host.dotGeneral dot_S256x512x64_S256x512x64_S256x64x64_1_1_2_2_0_0 none l r) : (⟨S256x512x64, .f32⟩ : BufTy).Contents (Elt F) → (⟨S256x512x64, .f32⟩ : BufTy).Contents (Elt F) → (⟨S256x64x64, .f32⟩ : BufTy).Contents (Elt F)),
    nullary main_cst (constant S_ .f32 0x41B504F3#32),
    unary main_cst main_v10 (broadcastInDim S256x64x64 ![] bcast_S_S256x64x64 : (⟨S_, .f32⟩ : BufTy).Contents (Elt F) → (⟨S256x64x64, .f32⟩ : BufTy).Contents (Elt F)),
    binary main_v9 main_v10 main_v11 (Host.divf : (⟨S256x64x64, .f32⟩ : BufTy).Contents (Elt F) → (⟨S256x64x64, .f32⟩ : BufTy).Contents (Elt F) → (⟨S256x64x64, .f32⟩ : BufTy).Contents (Elt F)),
    nullary main_cst_0 (constant S_ .f32 0xFF800000#32),
    binary main_v11 main_cst_0 main_v12 ((fun x v => Host.reduce FloatOps.maximumf x v reducesTo_S256x64x64_S256x64_d2 h_S_) : (⟨S256x64x64, .f32⟩ : BufTy).Contents (Elt F) → (⟨S_, .f32⟩ : BufTy).Contents (Elt F) → (⟨S256x64, .f32⟩ : BufTy).Contents (Elt F)),
    nullary main_cst_1 (constant S_ .f32 0xFF800000#32),
    unary main_cst_1 main_v13 (broadcastInDim S256x64 ![] bcast_S_S256x64 : (⟨S_, .f32⟩ : BufTy).Contents (Elt F) → (⟨S256x64, .f32⟩ : BufTy).Contents (Elt F)),
    binary main_v13 main_v12 main_v14 (maximumf : (⟨S256x64, .f32⟩ : BufTy).Contents (Elt F) → (⟨S256x64, .f32⟩ : BufTy).Contents (Elt F) → (⟨S256x64, .f32⟩ : BufTy).Contents (Elt F)),
    unary main_v14 main_v15 (broadcastInDim S256x64x1 ![0, 1] bcast_S256x64_S256x64x1_0_1 : (⟨S256x64, .f32⟩ : BufTy).Contents (Elt F) → (⟨S256x64x1, .f32⟩ : BufTy).Contents (Elt F)),
    unary main_v15 main_v16 (broadcastInDim S256x64x64 ![0, 1, 2] bcast_S256x64x1_S256x64x64_0_1_2 : (⟨S256x64x1, .f32⟩ : BufTy).Contents (Elt F) → (⟨S256x64x64, .f32⟩ : BufTy).Contents (Elt F)),
    binary main_v11 main_v16 main_v17 (subf : (⟨S256x64x64, .f32⟩ : BufTy).Contents (Elt F) → (⟨S256x64x64, .f32⟩ : BufTy).Contents (Elt F) → (⟨S256x64x64, .f32⟩ : BufTy).Contents (Elt F)),
    unary main_v17 main_v18 (Host.exp : (⟨S256x64x64, .f32⟩ : BufTy).Contents (Elt F) → (⟨S256x64x64, .f32⟩ : BufTy).Contents (Elt F)),
    nullary main_cst_2 (constant S_ .f32 0x00000000#32),
    binary main_v18 main_cst_2 main_v19 ((fun x v => Host.reduceAdd x v reducesTo_S256x64x64_S256x64_d2 h_S_) : (⟨S256x64x64, .f32⟩ : BufTy).Contents (Elt F) → (⟨S_, .f32⟩ : BufTy).Contents (Elt F) → (⟨S256x64, .f32⟩ : BufTy).Contents (Elt F)),
    unary main_v19 main_v20 (broadcastInDim S256x64x1 ![0, 1] bcast_S256x64_S256x64x1_0_1 : (⟨S256x64, .f32⟩ : BufTy).Contents (Elt F) → (⟨S256x64x1, .f32⟩ : BufTy).Contents (Elt F)),
    unary main_v20 main_v21 (broadcastInDim S256x64x64 ![0, 1, 2] bcast_S256x64x1_S256x64x64_0_1_2 : (⟨S256x64x1, .f32⟩ : BufTy).Contents (Elt F) → (⟨S256x64x64, .f32⟩ : BufTy).Contents (Elt F)),
    binary main_v18 main_v21 main_v22 (Host.divf : (⟨S256x64x64, .f32⟩ : BufTy).Contents (Elt F) → (⟨S256x64x64, .f32⟩ : BufTy).Contents (Elt F) → (⟨S256x64x64, .f32⟩ : BufTy).Contents (Elt F)),
    binary main_v8 main_v22 main_v23 ((fun l r => Host.dotGeneral dot_S256x512x64_S256x64x64_S256x512x64_2_1_1_2_0_0 none l r) : (⟨S256x512x64, .f32⟩ : BufTy).Contents (Elt F) → (⟨S256x64x64, .f32⟩ : BufTy).Contents (Elt F) → (⟨S256x512x64, .f32⟩ : BufTy).Contents (Elt F)),
    nullary main_cst_3 (constant S_ .f32 0x3E4CCCCD#32),
    TRef.nullary main_call0.cst (constant S_ .f32 0x00000000#32),
    TRef.unary main_call0.cst main_call0.v0 (broadcastInDim S256x512x64 ![] bcast_S_S256x512x64),
    TRef.binary (.of main_v23) main_call0.v0 main_call0.v1 (cmpf .oge),
    TRef.unary (.of main_cst_3) main_call0.v2 id,
    TRef.unary main_call0.v2 main_call0.v3 (broadcastInDim S256x512x64 ![] bcast_S_S256x512x64),
    TRef.binary main_call0.v3 (.of main_v23) main_call0.v4 mulf,
    TRef.ternary main_call0.v1 (.of main_v23) main_call0.v4 main_call0.call0.v0 select,
    unary main_v24 main_v25 ((transpose S256x64x512 [0, 2, 1] · transposes_S256x512x64_S256x64x512_0_2_1) : (⟨S256x512x64, .f32⟩ : BufTy).Contents (Elt F) → (⟨S256x64x512, .f32⟩ : BufTy).Contents (Elt F)),
    reshape main_v25 main_v26 rfl shapeCasts_S256x64x512_S32x64x64x64 ]

-- thirty-eight binds re-associated under the chain
set_option maxRecDepth 1024 in
/-- @main is that straight line: the two functions unfolded at their calls, both sides one chain of steps once
    sequencing is reassociated. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨reshape_bufs_sub .., reshape_bufs_sub .., unary_bufs_sub .., binary_bufs_sub .., reshape_bufs_sub .., binary_bufs_sub .., reshape_bufs_sub .., binary_bufs_sub .., reshape_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub .., nullary_bufs_sub .., nullary_bufs_sub .., unary_bufs_sub .., binary_bufs_sub .., unary_bufs_sub .., unary_bufs_sub .., binary_bufs_sub .., ternary_bufs_sub .., unary_bufs_sub .., reshape_bufs_sub ..⟩

/-! ## The result as a term of the arguments, stage by stage

Each stage is the pure function of one operation (or of a short run of them) applied to the stages it reads;
`refOut` is the last. The names follow the mathematics: the flattened input, the two projections regrouped by
head, the value projection, the scaled scores, the row maxima, the shifted exponentials, their row sums, the
softmax weights, the context, the rectifier, and the final layout. -/

/-- an argument flattened to 32 × 64 × 4096 -/
def flat (z : FVec F S32x64x64x64 .f32) : FVec F S32x64x4096 .f32 :=
  shapeCast _ z shapeCasts_S32x64x64x64_S32x64x4096

/-- a projection of the flattened first argument by a 4096 × 4096 weight (contracting the last axis with the weight's second),
    regrouped row-major as 256 × 512 × 64 -/
def projHeads (z : FVec F S32x64x64x64 .f32) (w : FVec F S4096x4096 .f32) : FVec F S256x512x64 .f32 :=
  shapeCast _ (Host.dotGeneral dot_S32x64x4096_S4096x4096_S32x64x4096_2_1_01_0_n_n none (flat z) w) shapeCasts_S32x64x4096_S256x512x64

/-- the second argument flattened, transposed to 32 × 4096 × 64, projected by the 64 × 64 weight, regrouped as 256 × 512 × 64 -/
def valHeads (x : FVec F S32x64x64x64 .f32) (wv : FVec F S64x64 .f32) : FVec F S256x512x64 .f32 :=
  shapeCast _ (Host.dotGeneral dot_S32x4096x64_S64x64_S32x4096x64_2_1_01_0_n_n none
    (transpose S32x4096x64 [0, 2, 1] (flat x) transposes_S32x64x4096_S32x4096x64_0_2_1) wv) shapeCasts_S32x4096x64_S256x512x64

/-- the scores of each head divided by the constant divisor -/
def scores (z : FVec F S32x64x64x64 .f32) (wq wk : FVec F S4096x4096 .f32) : FVec F S256x64x64 .f32 :=
  Host.divf (Host.dotGeneral dot_S256x512x64_S256x512x64_S256x64x64_1_1_2_2_0_0 none (projHeads z wq) (projHeads z wk))
    (broadcastInDim S256x64x64 ![] bcast_S_S256x64x64 (constant S_ .f32 0x41B504F3#32))

/-- the row maxima: the reduction by maximum from −∞ along the last axis, then the maximum with −∞ -/
def rowMax (s : FVec F S256x64x64 .f32) : FVec F S256x64 .f32 :=
  maximumf (broadcastInDim S256x64 ![] bcast_S_S256x64 (constant S_ .f32 0xFF800000#32))
    (Host.reduce FloatOps.maximumf s (constant S_ .f32 0xFF800000#32) reducesTo_S256x64x64_S256x64_d2 h_S_)

/-- a 256 × 64 array broadcast along a new last axis of 64 -/
def bcastRow (v : FVec F S256x64 .f32) : FVec F S256x64x64 .f32 :=
  broadcastInDim S256x64x64 ![0, 1, 2] bcast_S256x64x1_S256x64x64_0_1_2
    (broadcastInDim S256x64x1 ![0, 1] bcast_S256x64_S256x64x1_0_1 v)

/-- the exponentials of the scores shifted by their row's maximum -/
def expw (s : FVec F S256x64x64 .f32) : FVec F S256x64x64 .f32 :=
  Host.exp (subf s (bcastRow (rowMax s)))

/-- the softmax weights: each exponential divided by its row's sum -/
def attn (s : FVec F S256x64x64 .f32) : FVec F S256x64x64 .f32 :=
  Host.divf (expw s) (bcastRow (Host.reduceAdd (expw s) (constant S_ .f32 0x00000000#32) reducesTo_S256x64x64_S256x64_d2 h_S_))

/-- the context: the value heads contracted with the softmax weights, per head -/
def ctx (v : FVec F S256x512x64 .f32) (a : FVec F S256x64x64 .f32) : FVec F S256x512x64 .f32 :=
  Host.dotGeneral dot_S256x512x64_S256x64x64_S256x512x64_2_1_1_2_0_0 none v a

/-- the leaky rectifier as the program spells it: where the value is at least zero the value, elsewhere the slope times it -/
def leaky (v : FVec F S256x512x64 .f32) : FVec F S256x512x64 .f32 :=
  select (cmpf .oge v (broadcastInDim S256x512x64 ![] bcast_S_S256x512x64 (constant S_ .f32 0x00000000#32))) v
    (mulf (broadcastInDim S256x512x64 ![] bcast_S_S256x512x64 (id (constant S_ .f32 0x3E4CCCCD#32))) v)

/-- the final layout: the last two axes exchanged, then regrouped row-major as 32 × 64 × 64 × 64 -/
def layout (v : FVec F S256x512x64 .f32) : FVec F S32x64x64x64 .f32 :=
  shapeCast _ (transpose S256x64x512 [0, 2, 1] v transposes_S256x512x64_S256x64x512_0_2_1) shapeCasts_S256x64x512_S32x64x64x64

/-- the result buffer's contents as the operations' composed pure term of the five arguments -/
def refOut (z x : FVec F S32x64x64x64 .f32) (wq wk : FVec F S4096x4096 .f32) (wv : FVec F S64x64 .f32) : FVec F S32x64x64x64 .f32 :=
  layout (leaky (ctx (valHeads x wv) (attn (scores z wq wk))))

/-- On every device, for any float values, from any memory with zero counters: every weakly fair execution of
    @main terminates with the result buffer at `refOut` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v26) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v26).trans (by after_results_simp; rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl)⟩)
    (run_seq scopedRefs_eq scopedSems_eq defs main (fun _ => ops) main_eq (fun _ => ops_sub) m ρ)

end Cert.ReferenceIdeal.RefRun

end
-- ==== Proof.RefRead.lean ====
import proofs.«109021_j14542759264516_2_alg».proof.Proof.RefRun
import proofs.«109021_j14542759264516_2_alg».proof.Proof.Spec
import Idealize.ShloMosaic.Lib.ValueIdx
import Idealize.ShloMosaic.Lib.ValueLayout
import Idealize.ShloMosaic.Lib.Pipeline.Value
import Idealize.ShloMosaic.PureOps.Ideal.Laws

/-!
  The reference's contractions and layout operations read at an index, at the ideal values: each `dot_general` is a
  sum of products over its one contracted axis, reshapes and transposes are index maps (row-major positions compared
  as naturals); with them the two regrouped projections and the value projection are the specification's `heads`
  and `vproj`.
-/

noncomputable section

namespace Cert.ReferenceIdeal.RefValue

open Cert.ReferenceIdeal Cert.ReferenceIdeal.Gen Cert.ReferenceIdeal.RefRun Idealize.ShloMosaic Idealize.ShloMosaic.ValueIdx
open scoped BigOperators

/-! ## The four contractions read at an index

For each: where the operands are read at output index `i` and contraction position `q`, axis by axis (a batch or
free axis reads `i` at its place among the output's axes, the contracted axis reads `q`), then the contraction as
a sum over the contracted axis's coordinate. -/

theorem lhsA_0 (i : S32x64x4096.Idx) (q : dot_S32x64x4096_S4096x4096_S32x64x4096_2_1_01_0_n_n.contr.Idx) :
    (dot_S32x64x4096_S4096x4096_S32x64x4096_2_1_01_0_n_n.lhsIdx i q 0).val = (i 0).val := by
  unfold DotDims.lhsIdx
  rw [dif_neg (show ¬(0 : Fin S32x64x4096.rank) ∈ dot_S32x64x4096_S4096x4096_S32x64x4096_2_1_01_0_n_n.lhsBatch by decide), dif_pos (show (0 : Fin S32x64x4096.rank) ∈ dot_S32x64x4096_S4096x4096_S32x64x4096_2_1_01_0_n_n.lhsNonContracting by decide)]
  rfl
theorem lhsA_1 (i : S32x64x4096.Idx) (q : dot_S32x64x4096_S4096x4096_S32x64x4096_2_1_01_0_n_n.contr.Idx) :
    (dot_S32x64x4096_S4096x4096_S32x64x4096_2_1_01_0_n_n.lhsIdx i q 1).val = (i 1).val := by
  unfold DotDims.lhsIdx
  rw [dif_neg (show ¬(1 : Fin S32x64x4096.rank) ∈ dot_S32x64x4096_S4096x4096_S32x64x4096_2_1_01_0_n_n.lhsBatch by decide), dif_pos (show (1 : Fin S32x64x4096.rank) ∈ dot_S32x64x4096_S4096x4096_S32x64x4096_2_1_01_0_n_n.lhsNonContracting by decide)]
  rfl
theorem lhsA_2 (i : S32x64x4096.Idx) (q : dot_S32x64x4096_S4096x4096_S32x64x4096_2_1_01_0_n_n.contr.Idx) :
    (dot_S32x64x4096_S4096x4096_S32x64x4096_2_1_01_0_n_n.lhsIdx i q 2).val = (q ⟨0, by decide⟩).val :=
  dot_S32x64x4096_S4096x4096_S32x64x4096_2_1_01_0_n_n.lhsIdx_val_of_single rfl i q
theorem rhsA_0 (i : S32x64x4096.Idx) (q : dot_S32x64x4096_S4096x4096_S32x64x4096_2_1_01_0_n_n.contr.Idx) :
    (dot_S32x64x4096_S4096x4096_S32x64x4096_2_1_01_0_n_n.rhsIdx i q 0).val = (i 2).val := by
  unfold DotDims.rhsIdx
  rw [dif_neg (show ¬(0 : Fin S4096x4096.rank) ∈ dot_S32x64x4096_S4096x4096_S32x64x4096_2_1_01_0_n_n.rhsBatch by decide), dif_pos (show (0 : Fin S4096x4096.rank) ∈ dot_S32x64x4096_S4096x4096_S32x64x4096_2_1_01_0_n_n.rhsNonContracting by decide)]
  rfl
theorem rhsA_1 (i : S32x64x4096.Idx) (q : dot_S32x64x4096_S4096x4096_S32x64x4096_2_1_01_0_n_n.contr.Idx) :
    (dot_S32x64x4096_S4096x4096_S32x64x4096_2_1_01_0_n_n.rhsIdx i q 1).val = (q ⟨0, by decide⟩).val :=
  dot_S32x64x4096_S4096x4096_S32x64x4096_2_1_01_0_n_n.rhsIdx_val_of_single rfl i q
theorem lhsB_0 (i : S32x4096x64.Idx) (q : dot_S32x4096x64_S64x64_S32x4096x64_2_1_01_0_n_n.contr.Idx) :
    (dot_S32x4096x64_S64x64_S32x4096x64_2_1_01_0_n_n.lhsIdx i q 0).val = (i 0).val := by
  unfold DotDims.lhsIdx
  rw [dif_neg (show ¬(0 : Fin S32x4096x64.rank) ∈ dot_S32x4096x64_S64x64_S32x4096x64_2_1_01_0_n_n.lhsBatch by decide), dif_pos (show (0 : Fin S32x4096x64.rank) ∈ dot_S32x4096x64_S64x64_S32x4096x64_2_1_01_0_n_n.lhsNonContracting by decide)]
  rfl
theorem lhsB_1 (i : S32x4096x64.Idx) (q : dot_S32x4096x64_S64x64_S32x4096x64_2_1_01_0_n_n.contr.Idx) :
    (dot_S32x4096x64_S64x64_S32x4096x64_2_1_01_0_n_n.lhsIdx i q 1).val = (i 1).val := by
  unfold DotDims.lhsIdx
  rw [dif_neg (show ¬(1 : Fin S32x4096x64.rank) ∈ dot_S32x4096x64_S64x64_S32x4096x64_2_1_01_0_n_n.lhsBatch by decide), dif_pos (show (1 : Fin S32x4096x64.rank) ∈ dot_S32x4096x64_S64x64_S32x4096x64_2_1_01_0_n_n.lhsNonContracting by decide)]
  rfl
theorem lhsB_2 (i : S32x4096x64.Idx) (q : dot_S32x4096x64_S64x64_S32x4096x64_2_1_01_0_n_n.contr.Idx) :
    (dot_S32x4096x64_S64x64_S32x4096x64_2_1_01_0_n_n.lhsIdx i q 2).val = (q ⟨0, by decide⟩).val :=
  dot_S32x4096x64_S64x64_S32x4096x64_2_1_01_0_n_n.lhsIdx_val_of_single rfl i q
theorem rhsB_0 (i : S32x4096x64.Idx) (q : dot_S32x4096x64_S64x64_S32x4096x64_2_1_01_0_n_n.contr.Idx) :
    (dot_S32x4096x64_S64x64_S32x4096x64_2_1_01_0_n_n.rhsIdx i q 0).val = (i 2).val := by
  unfold DotDims.rhsIdx
  rw [dif_neg (show ¬(0 : Fin S64x64.rank) ∈ dot_S32x4096x64_S64x64_S32x4096x64_2_1_01_0_n_n.rhsBatch by decide), dif_pos (show (0 : Fin S64x64.rank) ∈ dot_S32x4096x64_S64x64_S32x4096x64_2_1_01_0_n_n.rhsNonContracting by decide)]
  rfl
theorem rhsB_1 (i : S32x4096x64.Idx) (q : dot_S32x4096x64_S64x64_S32x4096x64_2_1_01_0_n_n.contr.Idx) :
    (dot_S32x4096x64_S64x64_S32x4096x64_2_1_01_0_n_n.rhsIdx i q 1).val = (q ⟨0, by decide⟩).val :=
  dot_S32x4096x64_S64x64_S32x4096x64_2_1_01_0_n_n.rhsIdx_val_of_single rfl i q
theorem lhsC_0 (i : S256x64x64.Idx) (q : dot_S256x512x64_S256x512x64_S256x64x64_1_1_2_2_0_0.contr.Idx) :
    (dot_S256x512x64_S256x512x64_S256x64x64_1_1_2_2_0_0.lhsIdx i q 0).val = (i 0).val := by
  unfold DotDims.lhsIdx
  rw [dif_pos (show (0 : Fin S256x512x64.rank) ∈ dot_S256x512x64_S256x512x64_S256x64x64_1_1_2_2_0_0.lhsBatch by decide)]
  rfl
theorem lhsC_1 (i : S256x64x64.Idx) (q : dot_S256x512x64_S256x512x64_S256x64x64_1_1_2_2_0_0.contr.Idx) :
    (dot_S256x512x64_S256x512x64_S256x64x64_1_1_2_2_0_0.lhsIdx i q 1).val = (q ⟨0, by decide⟩).val :=
  dot_S256x512x64_S256x512x64_S256x64x64_1_1_2_2_0_0.lhsIdx_val_of_single rfl i q
theorem lhsC_2 (i : S256x64x64.Idx) (q : dot_S256x512x64_S256x512x64_S256x64x64_1_1_2_2_0_0.contr.Idx) :
    (dot_S256x512x64_S256x512x64_S256x64x64_1_1_2_2_0_0.lhsIdx i q 2).val = (i 1).val := by
  unfold DotDims.lhsIdx
  rw [dif_neg (show ¬(2 : Fin S256x512x64.rank) ∈ dot_S256x512x64_S256x512x64_S256x64x64_1_1_2_2_0_0.lhsBatch by decide), dif_pos (show (2 : Fin S256x512x64.rank) ∈ dot_S256x512x64_S256x512x64_S256x64x64_1_1_2_2_0_0.lhsNonContracting by decide)]
  rfl
theorem rhsC_0 (i : S256x64x64.Idx) (q : dot_S256x512x64_S256x512x64_S256x64x64_1_1_2_2_0_0.contr.Idx) :
    (dot_S256x512x64_S256x512x64_S256x64x64_1_1_2_2_0_0.rhsIdx i q 0).val = (i 0).val := by
  unfold DotDims.rhsIdx
  rw [dif_pos (show (0 : Fin S256x512x64.rank) ∈ dot_S256x512x64_S256x512x64_S256x64x64_1_1_2_2_0_0.rhsBatch by decide)]
  rfl
theorem rhsC_1 (i : S256x64x64.Idx) (q : dot_S256x512x64_S256x512x64_S256x64x64_1_1_2_2_0_0.contr.Idx) :
    (dot_S256x512x64_S256x512x64_S256x64x64_1_1_2_2_0_0.rhsIdx i q 1).val = (q ⟨0, by decide⟩).val :=
  dot_S256x512x64_S256x512x64_S256x64x64_1_1_2_2_0_0.rhsIdx_val_of_single rfl i q
theorem rhsC_2 (i : S256x64x64.Idx) (q : dot_S256x512x64_S256x512x64_S256x64x64_1_1_2_2_0_0.contr.Idx) :
    (dot_S256x512x64_S256x512x64_S256x64x64_1_1_2_2_0_0.rhsIdx i q 2).val = (i 2).val := by
  unfold DotDims.rhsIdx
  rw [dif_neg (show ¬(2 : Fin S256x512x64.rank) ∈ dot_S256x512x64_S256x512x64_S256x64x64_1_1_2_2_0_0.rhsBatch by decide), dif_pos (show (2 : Fin S256x512x64.rank) ∈ dot_S256x512x64_S256x512x64_S256x64x64_1_1_2_2_0_0.rhsNonContracting by decide)]
  rfl
theorem lhsD_0 (i : S256x512x64.Idx) (q : dot_S256x512x64_S256x64x64_S256x512x64_2_1_1_2_0_0.contr.Idx) :
    (dot_S256x512x64_S256x64x64_S256x512x64_2_1_1_2_0_0.lhsIdx i q 0).val = (i 0).val := by
  unfold DotDims.lhsIdx
  rw [dif_pos (show (0 : Fin S256x512x64.rank) ∈ dot_S256x512x64_S256x64x64_S256x512x64_2_1_1_2_0_0.lhsBatch by decide)]
  rfl
theorem lhsD_1 (i : S256x512x64.Idx) (q : dot_S256x512x64_S256x64x64_S256x512x64_2_1_1_2_0_0.contr.Idx) :
    (dot_S256x512x64_S256x64x64_S256x512x64_2_1_1_2_0_0.lhsIdx i q 1).val = (i 1).val := by
  unfold DotDims.lhsIdx
  rw [dif_neg (show ¬(1 : Fin S256x512x64.rank) ∈ dot_S256x512x64_S256x64x64_S256x512x64_2_1_1_2_0_0.lhsBatch by decide), dif_pos (show (1 : Fin S256x512x64.rank) ∈ dot_S256x512x64_S256x64x64_S256x512x64_2_1_1_2_0_0.lhsNonContracting by decide)]
  rfl
theorem lhsD_2 (i : S256x512x64.Idx) (q : dot_S256x512x64_S256x64x64_S256x512x64_2_1_1_2_0_0.contr.Idx) :
    (dot_S256x512x64_S256x64x64_S256x512x64_2_1_1_2_0_0.lhsIdx i q 2).val = (q ⟨0, by decide⟩).val :=
  dot_S256x512x64_S256x64x64_S256x512x64_2_1_1_2_0_0.lhsIdx_val_of_single rfl i q
theorem rhsD_0 (i : S256x512x64.Idx) (q : dot_S256x512x64_S256x64x64_S256x512x64_2_1_1_2_0_0.contr.Idx) :
    (dot_S256x512x64_S256x64x64_S256x512x64_2_1_1_2_0_0.rhsIdx i q 0).val = (i 0).val := by
  unfold DotDims.rhsIdx
  rw [dif_pos (show (0 : Fin S256x64x64.rank) ∈ dot_S256x512x64_S256x64x64_S256x512x64_2_1_1_2_0_0.rhsBatch by decide)]
  rfl
theorem rhsD_1 (i : S256x512x64.Idx) (q : dot_S256x512x64_S256x64x64_S256x512x64_2_1_1_2_0_0.contr.Idx) :
    (dot_S256x512x64_S256x64x64_S256x512x64_2_1_1_2_0_0.rhsIdx i q 1).val = (q ⟨0, by decide⟩).val :=
  dot_S256x512x64_S256x64x64_S256x512x64_2_1_1_2_0_0.rhsIdx_val_of_single rfl i q
theorem rhsD_2 (i : S256x512x64.Idx) (q : dot_S256x512x64_S256x64x64_S256x512x64_2_1_1_2_0_0.contr.Idx) :
    (dot_S256x512x64_S256x64x64_S256x512x64_2_1_1_2_0_0.rhsIdx i q 2).val = (i 2).val := by
  unfold DotDims.rhsIdx
  rw [dif_neg (show ¬(2 : Fin S256x64x64.rank) ∈ dot_S256x512x64_S256x64x64_S256x512x64_2_1_1_2_0_0.rhsBatch by decide), dif_pos (show (2 : Fin S256x64x64.rank) ∈ dot_S256x512x64_S256x64x64_S256x512x64_2_1_1_2_0_0.rhsNonContracting by decide)]
  rfl

/-- a flattened argument times a 4096 × 4096 weight, the weight contracted on its second axis -/
theorem dotA_apply (l : FVec Ideal S32x64x4096 .f32) (r : FVec Ideal S4096x4096 .f32) (b : Fin 32) (c : Fin 64) (t : Fin 4096) :
    Host.dotGeneral dot_S32x64x4096_S4096x4096_S32x64x4096_2_1_01_0_n_n none l r (ix3 b c t)
      = ∑ k : Fin 4096, l (ix3 b c k) * r (ix2 t k) := by
  simp only [Host.dotGeneral]
  rw [Ideal.dotGeneral_apply, ← Equiv.sum_comp (contrEquiv1 dot_S32x64x4096_S4096x4096_S32x64x4096_2_1_01_0_n_n 4096 rfl rfl).symm]
  refine Finset.sum_congr rfl fun k _ => ?_
  have hk := contrEquiv1_symm_val dot_S32x64x4096_S4096x4096_S32x64x4096_2_1_01_0_n_n 4096 rfl rfl k
  have el : dot_S32x64x4096_S4096x4096_S32x64x4096_2_1_01_0_n_n.lhsIdx (ix3 b c t) ((contrEquiv1 dot_S32x64x4096_S4096x4096_S32x64x4096_2_1_01_0_n_n 4096 rfl rfl).symm k) = ix3 b c k := funext fun a => Fin.ext (by
    match a with
    | ⟨0, _⟩ => exact lhsA_0 _ _
    | ⟨1, _⟩ => exact lhsA_1 _ _
    | ⟨2, _⟩ => exact (lhsA_2 _ _).trans hk)
  have er : dot_S32x64x4096_S4096x4096_S32x64x4096_2_1_01_0_n_n.rhsIdx (ix3 b c t) ((contrEquiv1 dot_S32x64x4096_S4096x4096_S32x64x4096_2_1_01_0_n_n 4096 rfl rfl).symm k) = ix2 t k := funext fun a => Fin.ext (by
    match a with
    | ⟨0, _⟩ => exact rhsA_0 _ _
    | ⟨1, _⟩ => exact (rhsA_1 _ _).trans hk)
  rw [el, er]

/-- the transposed argument times the 64 × 64 weight, the weight contracted on its second axis -/
theorem dotB_apply (l : FVec Ideal S32x4096x64 .f32) (r : FVec Ideal S64x64 .f32) (b : Fin 32) (p : Fin 4096) (t : Fin 64) :
    Host.dotGeneral dot_S32x4096x64_S64x64_S32x4096x64_2_1_01_0_n_n none l r (ix3 b p t)
      = ∑ k : Fin 64, l (ix3 b p k) * r (ix2 t k) := by
  simp only [Host.dotGeneral]
  rw [Ideal.dotGeneral_apply, ← Equiv.sum_comp (contrEquiv1 dot_S32x4096x64_S64x64_S32x4096x64_2_1_01_0_n_n 64 rfl rfl).symm]
  refine Finset.sum_congr rfl fun k _ => ?_
  have hk := contrEquiv1_symm_val dot_S32x4096x64_S64x64_S32x4096x64_2_1_01_0_n_n 64 rfl rfl k
  have el : dot_S32x4096x64_S64x64_S32x4096x64_2_1_01_0_n_n.lhsIdx (ix3 b p t) ((contrEquiv1 dot_S32x4096x64_S64x64_S32x4096x64_2_1_01_0_n_n 64 rfl rfl).symm k) = ix3 b p k := funext fun a => Fin.ext (by
    match a with
    | ⟨0, _⟩ => exact lhsB_0 _ _
    | ⟨1, _⟩ => exact lhsB_1 _ _
    | ⟨2, _⟩ => exact (lhsB_2 _ _).trans hk)
  have er : dot_S32x4096x64_S64x64_S32x4096x64_2_1_01_0_n_n.rhsIdx (ix3 b p t) ((contrEquiv1 dot_S32x4096x64_S64x64_S32x4096x64_2_1_01_0_n_n 64 rfl rfl).symm k) = ix2 t k := funext fun a => Fin.ext (by
    match a with
    | ⟨0, _⟩ => exact rhsB_0 _ _
    | ⟨1, _⟩ => exact (rhsB_1 _ _).trans hk)
  rw [el, er]

/-- per head, the two regrouped projections contracted over their middle axis -/
theorem dotC_apply (l : FVec Ideal S256x512x64 .f32) (r : FVec Ideal S256x512x64 .f32) (n : Fin 256) (c e : Fin 64) :
    Host.dotGeneral dot_S256x512x64_S256x512x64_S256x64x64_1_1_2_2_0_0 none l r (ix3 n c e)
      = ∑ k : Fin 512, l (ix3 n k c) * r (ix3 n k e) := by
  simp only [Host.dotGeneral]
  rw [Ideal.dotGeneral_apply, ← Equiv.sum_comp (contrEquiv1 dot_S256x512x64_S256x512x64_S256x64x64_1_1_2_2_0_0 512 rfl rfl).symm]
  refine Finset.sum_congr rfl fun k _ => ?_
  have hk := contrEquiv1_symm_val dot_S256x512x64_S256x512x64_S256x64x64_1_1_2_2_0_0 512 rfl rfl k
  have el : dot_S256x512x64_S256x512x64_S256x64x64_1_1_2_2_0_0.lhsIdx (ix3 n c e) ((contrEquiv1 dot_S256x512x64_S256x512x64_S256x64x64_1_1_2_2_0_0 512 rfl rfl).symm k) = ix3 n k c := funext fun a => Fin.ext (by
    match a with
    | ⟨0, _⟩ => exact lhsC_0 _ _
    | ⟨1, _⟩ => exact (lhsC_1 _ _).trans hk
    | ⟨2, _⟩ => exact lhsC_2 _ _)
  have er : dot_S256x512x64_S256x512x64_S256x64x64_1_1_2_2_0_0.rhsIdx (ix3 n c e) ((contrEquiv1 dot_S256x512x64_S256x512x64_S256x64x64_1_1_2_2_0_0 512 rfl rfl).symm k) = ix3 n k e := funext fun a => Fin.ext (by
    match a with
    | ⟨0, _⟩ => exact rhsC_0 _ _
    | ⟨1, _⟩ => exact (rhsC_1 _ _).trans hk
    | ⟨2, _⟩ => exact rhsC_2 _ _)
  rw [el, er]

/-- per head, the value heads (last axis) contracted with the weights (middle axis) -/
theorem dotD_apply (l : FVec Ideal S256x512x64 .f32) (r : FVec Ideal S256x64x64 .f32) (n : Fin 256) (d : Fin 512) (e : Fin 64) :
    Host.dotGeneral dot_S256x512x64_S256x64x64_S256x512x64_2_1_1_2_0_0 none l r (ix3 n d e)
      = ∑ k : Fin 64, l (ix3 n d k) * r (ix3 n k e) := by
  simp only [Host.dotGeneral]
  rw [Ideal.dotGeneral_apply, ← Equiv.sum_comp (contrEquiv1 dot_S256x512x64_S256x64x64_S256x512x64_2_1_1_2_0_0 64 rfl rfl).symm]
  refine Finset.sum_congr rfl fun k _ => ?_
  have hk := contrEquiv1_symm_val dot_S256x512x64_S256x64x64_S256x512x64_2_1_1_2_0_0 64 rfl rfl k
  have el : dot_S256x512x64_S256x64x64_S256x512x64_2_1_1_2_0_0.lhsIdx (ix3 n d e) ((contrEquiv1 dot_S256x512x64_S256x64x64_S256x512x64_2_1_1_2_0_0 64 rfl rfl).symm k) = ix3 n d k := funext fun a => Fin.ext (by
    match a with
    | ⟨0, _⟩ => exact lhsD_0 _ _
    | ⟨1, _⟩ => exact lhsD_1 _ _
    | ⟨2, _⟩ => exact (lhsD_2 _ _).trans hk)
  have er : dot_S256x512x64_S256x64x64_S256x512x64_2_1_1_2_0_0.rhsIdx (ix3 n d e) ((contrEquiv1 dot_S256x512x64_S256x64x64_S256x512x64_2_1_1_2_0_0 64 rfl rfl).symm k) = ix3 n k e := funext fun a => Fin.ext (by
    match a with
    | ⟨0, _⟩ => exact rhsD_0 _ _
    | ⟨1, _⟩ => exact (rhsD_1 _ _).trans hk
    | ⟨2, _⟩ => exact rhsD_2 _ _)
  rw [el, er]

/-! ## The reshapes and transposes read at an index

A reshape keeps the row-major position: the two positions are compared as naturals. -/

/-- an argument flattened: (b, c, s) reads (b, c, s / 64, s % 64) -/
theorem flat_apply (z : FVec Ideal S32x64x64x64 .f32) (b : Fin 32) (c : Fin 64) (s : Fin 4096) :
    flat z (ix3 b c s) = z (ix4 b c ⟨s.val / 64, by omega⟩ ⟨s.val % 64, by omega⟩) := by
  unfold flat
  refine shapeCast_apply z _ _ _ ?_
  rw [Shape.rowMajor_val_four, Shape.rowMajor_val_three]
  show ((b.val * 64 + c.val) * 64 + s.val / 64) * 64 + s.val % 64 = (b.val * 64 + c.val) * 4096 + s.val
  omega

/-- 32 × 64 × 4096 regrouped as 256 × 512 × 64: (n, d, c) reads row `8 n + d / 64` (split as batch and channel), column `64 (d % 64) + c` -/
theorem cast_heads_apply (y : FVec Ideal S32x64x4096 .f32) (n : Fin 256) (d : Fin 512) (c : Fin 64) :
    shapeCast S256x512x64 y shapeCasts_S32x64x4096_S256x512x64 (ix3 n d c)
      = y (ix3 ⟨(8 * n.val + d.val / 64) / 64, by omega⟩ ⟨(8 * n.val + d.val / 64) % 64, by omega⟩
            ⟨64 * (d.val % 64) + c.val, by omega⟩) := by
  refine shapeCast_apply y _ _ _ ?_
  rw [Shape.rowMajor_val_three, Shape.rowMajor_val_three]
  show ((8 * n.val + d.val / 64) / 64 * 64 + (8 * n.val + d.val / 64) % 64) * 4096 + (64 * (d.val % 64) + c.val)
    = (n.val * 512 + d.val) * 64 + c.val
  omega

/-- 32 × 4096 × 64 regrouped as 256 × 512 × 64: (n, d, k) reads (n / 8, 512 (n % 8) + d, k) -/
theorem cast_vheads_apply (y : FVec Ideal S32x4096x64 .f32) (n : Fin 256) (d : Fin 512) (k : Fin 64) :
    shapeCast S256x512x64 y shapeCasts_S32x4096x64_S256x512x64 (ix3 n d k)
      = y (ix3 ⟨n.val / 8, by omega⟩ ⟨512 * (n.val % 8) + d.val, by omega⟩ k) := by
  refine shapeCast_apply y _ _ _ ?_
  rw [Shape.rowMajor_val_three, Shape.rowMajor_val_three]
  show (n.val / 8 * 4096 + (512 * (n.val % 8) + d.val)) * 64 + k.val = (n.val * 512 + d.val) * 64 + k.val
  omega

/-- the final layout: (b, c, h, w) reads (n, d, e) with n = 8 b + c / 8, e = 8 (c % 8) + h / 8, d = 64 (h % 8) + w -/
theorem layout_apply (v : FVec Ideal S256x512x64 .f32) (b : Fin 32) (c h w : Fin 64) :
    layout v (ix4 b c h w)
      = v (ix3 ⟨8 * b.val + c.val / 8, by omega⟩ ⟨64 * (h.val % 8) + w.val, by omega⟩ ⟨8 * (c.val % 8) + h.val / 8, by omega⟩) := by
  unfold layout
  refine (shapeCast_apply _ _ (ix4 b c h w)
    (ix3 (⟨8 * b.val + c.val / 8, by omega⟩ : Fin 256) (⟨8 * (c.val % 8) + h.val / 8, by omega⟩ : Fin 64) (⟨64 * (h.val % 8) + w.val, by omega⟩ : Fin 512)) ?_).trans ?_
  · rw [Shape.rowMajor_val_three, Shape.rowMajor_val_four]
    show ((8 * b.val + c.val / 8) * 64 + (8 * (c.val % 8) + h.val / 8)) * 512 + (64 * (h.val % 8) + w.val)
      = ((b.val * 64 + c.val) * 64 + h.val) * 64 + w.val
    omega
  · exact transpose_ix3_021_apply v _ _ _ _

/-! ## The projections -/

/-- a regrouped projection at (n, d, c) is the specification's `heads` -/
theorem projHeads_apply (z : FVec Ideal S32x64x64x64 .f32) (w : FVec Ideal S4096x4096 .f32) (n : Fin 256) (d : Fin 512) (c : Fin 64) :
    projHeads z w (ix3 n d c) = Cert.Spec.heads z w n d c := by
  unfold projHeads
  rw [cast_heads_apply, dotA_apply]
  unfold Cert.Spec.heads Cert.Spec.proj Cert.Spec.a2
  refine Finset.sum_congr rfl fun s _ => ?_
  rw [flat_apply]

/-- the regrouped value projection at (n, d, k) is the specification's `vproj` -/
theorem valHeads_apply (x : FVec Ideal S32x64x64x64 .f32) (wv : FVec Ideal S64x64 .f32) (n : Fin 256) (d : Fin 512) (k : Fin 64) :
    valHeads x wv (ix3 n d k) = Cert.Spec.vproj x wv n d k := by
  unfold valHeads
  rw [cast_vheads_apply, dotB_apply]
  unfold Cert.Spec.vproj
  refine Finset.sum_congr rfl fun c _ => ?_
  rw [transpose_ix3_021_apply, flat_apply]

end Cert.ReferenceIdeal.RefValue

end
-- ==== Proof.RefValue.lean ====
import proofs.«109021_j14542759264516_2_alg».proof.Proof.RefRead

/-!
  The reference's term read at an index, at the ideal values: each stage of `RefRun.refOut` at an index is the
  corresponding part of the specification `Cert.Spec.G`. Over the contractions and layout maps already read, the
  reduction by maximum from −∞ is a supremum; the reduction by sum from zero is a sum; dividing by the constant
  divisor is multiplying by its reciprocal; the rectifier's select agrees with the specification's on every
  extended real.
-/

noncomputable section

namespace Cert.ReferenceIdeal.RefValue

open Cert.ReferenceIdeal Cert.ReferenceIdeal.Gen Cert.ReferenceIdeal.RefRun Idealize.ShloMosaic Idealize.ShloMosaic.ValueIdx
open scoped BigOperators
/-! ## The constants the program spells -/

/-- the divisor's word denotes 11863283 / 524288 -/
theorem ofBits_divisor : Ideal.ofBits .f32 0x41B504F3#32 = ((11863283 / 524288 : ℝ) : EReal) := by
  simp [Ideal.ofBits, Ideal.ieee, -EReal.coe_mul]; norm_num

/-- the reductions' initial word denotes −∞ -/
theorem ofBits_negInf : Ideal.ofBits .f32 0xFF800000#32 = ⊥ := by
  simp [Ideal.ofBits, Ideal.ieee]

/-! ## The scores -/

/-- the scaled scores at (n, c, e) are the specification's: the division by the constant is the product with its reciprocal -/
theorem scores_apply (z : FVec Ideal S32x64x64x64 .f32) (wq wk : FVec Ideal S4096x4096 .f32) (n : Fin 256) (c e : Fin 64) :
    scores z wq wk (ix3 n c e) = Cert.Spec.score z wq wk n c e := by
  unfold scores
  show Ideal.div (Host.dotGeneral dot_S256x512x64_S256x512x64_S256x64x64_1_1_2_2_0_0 none (projHeads z wq) (projHeads z wk) (ix3 n c e))
    (Ideal.ofBits .f32 0x41B504F3#32) = _
  rw [dotC_apply, ofBits_divisor, Ideal.div_coe (by norm_num)]
  unfold Cert.Spec.score Cert.Spec.invScale
  congr 1
  · refine Finset.sum_congr rfl fun d _ => ?_
    rw [projHeads_apply, projHeads_apply]
  · congr 1; norm_num

/-! ## The elementwise host operations and the splat of a scalar, read at an index (definitional, at any shape) -/

theorem hostDivf_apply {s : Shape} (a b : FVec Ideal s .f32) (i : s.Idx) : Host.divf a b i = Ideal.div (a i) (b i) := rfl
theorem hostExp_apply {s : Shape} (a : FVec Ideal s .f32) (i : s.Idx) : Host.exp a i = Ideal.exp (a i) := rfl
theorem bcast_const_apply {t : Shape} (dims : Fin S_.rank → Fin t.rank) (h : S_.BroadcastsInDim t dims) (w : BitVec 32) (j : t.Idx) :
    broadcastInDim t dims h (constant (F := Ideal) S_ .f32 w) j = Ideal.ofBits .f32 w := rfl
theorem hostReduceAdd_eq {s t u : Shape} {axes : List (Fin s.rank)} (x : FVec Ideal s .f32) (init : u.Idx → Ideal .f32)
    (h : s.ReducesTo axes t) (hu : 0 < u.numel) (j : t.Idx) :
    Host.reduceAdd x init h hu j = Ideal.hostReduceAdd h x (init (Shape.Idx.first hu)) j := rfl
/-- a fold of the maximum from −∞ over a finite type is the supremum -/
theorem fold_max_bot {ι : Type} [Fintype ι] (f : ι → EReal) : (Finset.univ : Finset ι).fold max ⊥ f = Finset.univ.sup f := by
  rw [Finset.sup_def, Multiset.sup]
  rfl

/-! ## The softmax along the last axis -/

/-- the reduced index (n, c) with the last coordinate put back -/
theorem lift_row (h : S256x64x64.Reduces [2] S256x64) (n : Fin 256) (c : Fin 64) (k : Fin (S256x64x64.size 2)) :
    h.lift (ix2 n c) k = ix3 n c (⟨k.val, k.isLt⟩ : Fin 64) := by
  funext a; apply Fin.ext
  fin_cases a <;> rfl

/-- a row's broadcast back along the last axis reads the row's entry -/
theorem bcastRow_apply (v : FVec Ideal S256x64 .f32) (n : Fin 256) (c e : Fin 64) :
    bcastRow v (ix3 n c e) = v (ix2 n c) := by
  unfold bcastRow
  refine (broadcastInDim_apply _ _ _ (ix3 n c e) (ix3 n c (0 : Fin 1)) fun a => ?_).trans
    (broadcastInDim_apply _ _ v (ix3 n c (0 : Fin 1)) (ix2 n c) fun a => ?_)
  · match a with | ⟨0, _⟩ => rfl | ⟨1, _⟩ => rfl | ⟨2, _⟩ => rfl
  · match a with | ⟨0, _⟩ => rfl | ⟨1, _⟩ => rfl

/-- the reduction by maximum from −∞ along the last axis, at (n, c), is the supremum of the row -/
theorem hostMax_row (s : FVec Ideal S256x64x64 .f32) (n : Fin 256) (c : Fin 64) :
    Host.reduce FloatOps.maximumf s (constant S_ .f32 0xFF800000#32) reducesTo_S256x64x64_S256x64_d2 h_S_ (ix2 n c)
      = Finset.univ.sup fun e : Fin 64 => s (ix3 n c e) := by
  have h : S256x64x64.Reduces [2] S256x64 := by decide
  rw [Host.reduce_eq_fold_single FloatOps.maximumf s _ reducesTo_S256x64x64_S256x64_d2 h h_S_, constant_apply, ofBits_negInf]
  have hf : (s ∘ h.lift (ix2 n c)) = fun k : Fin (S256x64x64.size 2) => s (ix3 n c (⟨k.val, k.isLt⟩ : Fin 64)) :=
    funext fun k => congrArg s (lift_row h n c k)
  rw [hf]
  exact fold_max_bot (ι := Fin 64) fun e => s (ix3 n c e)

/-- the row maxima: the maximum with −∞ changes nothing -/
theorem rowMax_apply (s : FVec Ideal S256x64x64 .f32) (n : Fin 256) (c : Fin 64) :
    rowMax s (ix2 n c) = Finset.univ.sup fun e : Fin 64 => s (ix3 n c e) := by
  unfold rowMax
  rw [maximumf_apply, bcast_const_apply, ofBits_negInf, max_eq_right bot_le, hostMax_row]

/-- the shifted exponentials at (n, c, e) -/
theorem expw_apply (s : FVec Ideal S256x64x64 .f32) (n : Fin 256) (c e : Fin 64) :
    expw s (ix3 n c e) = Ideal.exp (s (ix3 n c e) - Finset.univ.sup fun e' : Fin 64 => s (ix3 n c e')) := by
  unfold expw
  rw [hostExp_apply, subf_apply, bcastRow_apply, rowMax_apply]

/-- the reduction by sum from zero along the last axis, at (n, c), is the sum of the row -/
theorem hostSum_row (y : FVec Ideal S256x64x64 .f32) (n : Fin 256) (c : Fin 64) :
    Host.reduceAdd y (constant S_ .f32 0x00000000#32) reducesTo_S256x64x64_S256x64_d2 h_S_ (ix2 n c)
      = ∑ e : Fin 64, y (ix3 n c e) := by
  have h : S256x64x64.Reduces [2] S256x64 := by decide
  rw [hostReduceAdd_eq, Ideal.hostReduceAdd_single reducesTo_S256x64x64_S256x64_d2 h, constant_apply, Ideal.ofBits_zero_f32, zero_add]
  exact Finset.sum_congr rfl fun k _ => congrArg y (lift_row h n c k)

/-- the softmax weights at (n, c, e): the exponential over its row's sum -/
theorem attn_apply (s : FVec Ideal S256x64x64 .f32) (n : Fin 256) (c e : Fin 64) :
    attn s (ix3 n c e) = Ideal.div (expw s (ix3 n c e)) (∑ e' : Fin 64, expw s (ix3 n c e')) := by
  unfold attn
  rw [hostDivf_apply, bcastRow_apply, hostSum_row]

/-- over the scores, the three stages are the specification's `rowMax`, `expw` and `attn` -/
theorem expw_scores_apply (z : FVec Ideal S32x64x64x64 .f32) (wq wk : FVec Ideal S4096x4096 .f32) (n : Fin 256) (c e : Fin 64) :
    expw (scores z wq wk) (ix3 n c e) = Cert.Spec.expw z wq wk n c e := by
  rw [expw_apply]
  unfold Cert.Spec.expw Cert.Spec.rowMax
  simp only [scores_apply]

theorem attn_scores_apply (z : FVec Ideal S32x64x64x64 .f32) (wq wk : FVec Ideal S4096x4096 .f32) (n : Fin 256) (c e : Fin 64) :
    attn (scores z wq wk) (ix3 n c e) = Cert.Spec.attn z wq wk n c e := by
  rw [attn_apply]
  unfold Cert.Spec.attn
  simp only [expw_scores_apply]

/-! ## The context, the rectifier, the result -/

/-- the context at (n, d, e): the value heads against the weights, summed over the shared axis -/
theorem ctx_apply (v : FVec Ideal S256x512x64 .f32) (a : FVec Ideal S256x64x64 .f32) (n : Fin 256) (d : Fin 512) (e : Fin 64) :
    ctx v a (ix3 n d e) = ∑ c : Fin 64, v (ix3 n d c) * a (ix3 n c e) := by
  unfold ctx
  exact dotD_apply v a n d e

/-- the comparison "at least", at the ideal values, is the order's -/
theorem cmp_oge (x y : EReal) : Ideal.cmp .oge x y = BitVec.ofBool (decide (y ≤ x)) := rfl

/-- the program's rectifier (the value where it is at least zero, the slope times it elsewhere) is the specification's
    (the value where it is above zero) at every extended real: at zero both are zero -/
theorem leaky_apply (v : FVec Ideal S256x512x64 .f32) (i : S256x512x64.Idx) : leaky v i = Cert.Spec.leaky (v i) := by
  unfold leaky Cert.Spec.leaky
  simp only [id_eq]
  rw [select_apply, cmpf_apply, mulf_apply, bcast_const_apply, bcast_const_apply, Ideal.cmpf_def, Ideal.ofBits_zero_f32, cmp_oge]
  by_cases h0 : (0 : EReal) ≤ v i
  · have hc : BitVec.ofBool (decide ((0 : EReal) ≤ v i)) = 1#1 := by simp [h0]
    rw [hc, select_one]
    by_cases hp : (0 : EReal) < v i
    · rw [if_pos hp]
    · have hz : v i = 0 := le_antisymm (not_lt.mp hp) h0
      rw [if_neg hp, hz, mul_zero]
  · have hc : BitVec.ofBool (decide ((0 : EReal) ≤ v i)) = 0#1 := by simp [h0]
    rw [hc, select_zero, if_neg (fun hp => h0 hp.le)]

/-- the reference's term read at an index is the specification -/
theorem refOut_apply (z x : FVec Ideal S32x64x64x64 .f32) (wq wk : FVec Ideal S4096x4096 .f32) (wv : FVec Ideal S64x64 .f32)
    (b : Fin 32) (c h w : Fin 64) :
    refOut (F := Ideal) z x wq wk wv (ix4 b c h w) = Cert.Spec.G z x wq wk wv b c h w := by
  unfold refOut
  rw [layout_apply, leaky_apply, ctx_apply]
  unfold Cert.Spec.G Cert.Spec.ctx
  congr 1
  refine Finset.sum_congr rfl fun k _ => ?_
  rw [valHeads_apply, attn_scores_apply, mul_comm]

end Cert.ReferenceIdeal.RefValue

end
-- ==== Proof.lean ====
/-
  The certificate of a cross-attention layer's kernel against its jnp reference.

  The kernel's program: the first input flattened to 2048 × 4096; a first region computing the query and key
  projections `a2 · W_Qᵀ`, `a2 · W_Kᵀ` block by block (1024 × 1024 output blocks, the 4096-long contraction in 8
  slices of 512 accumulated in two carried buffers, stored when the last slice is in); both regrouped row-major as
  256 × 512 × 64 and the second input as 32 × 64 × 4096; a second region that, per batch, projects the values,
  forms the 8 heads' scores `QᵀK` times the scale, a softmax along the last axis, the context and the leaky
  rectifier; a last row-major regrouping. The reference computes the same with whole-array einsums, divides the
  scores by the f32 word `D` of √512 where the kernel multiplies by the word of 1/√512 — which the kernel's
  idealization names `1 / D` exactly (the one ledger entry: `preserves`) — and uses `x ≥ 0` where the kernel
  tests `x > 0` in the rectifier (equal at 0). At the ideal instance both are the function `Cert.Spec.G`:
  sums may be regrouped and products commuted on the extended reals without any finiteness, and the division by
  a nonzero real is the product with its inverse on every extended real. So the precondition is never opened.

  The three frames: each kernel program's run is the launch theorem for a list of segments (the regions' bodies
  run once per control case; the carried accumulators ride in the first region's invariant), read back at the
  arguments; the reference's is its operations' run.
-/
import proofs.«109021_j14542759264516_2_alg».proof.Defs
import proofs.«109021_j14542759264516_2_alg».proof.Proof.Gen.Kernel
import proofs.«109021_j14542759264516_2_alg».proof.Proof.Gen.KernelIdeal
import proofs.«109021_j14542759264516_2_alg».proof.Proof.Gen.ReferenceIdeal
import proofs.«109021_j14542759264516_2_alg».proof.Proof.Gen.Pre_finite_inputs
import proofs.«109021_j14542759264516_2_alg».proof.Proof.K.Run
import proofs.«109021_j14542759264516_2_alg».proof.Proof.KI.Value
import proofs.«109021_j14542759264516_2_alg».proof.Proof.RefValue
import Idealize.ShloMosaic.Adequacy
import Idealize.ShloMosaic.Init

noncomputable section

namespace Cert.Proof

open Idealize.ShloMosaic Idealize.ShloMosaic.ValueIdx Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.RefRun.run (F := Ideal) m ρ)

/-- The ledger's one entry: the scale's word is named `1 / D`, `D = 11863283 / 524288` the reference's divisor. -/
theorem preserves : Cert.preserves_Kernel_KernelIdeal :=
  IdealRules.named_const.statement Cert.KernelIdeal.κ "inv_sqrt_dk" .f32 0x3D3504F3#32 ((524288 / 11863283 : ℝ) : EReal) rfl

/-- Both runs end with the result array at the specification of the (agreeing) arguments. -/
theorem algebraic : Cert.algebraic_KernelIdeal_ReferenceIdeal := by
  intro m ρ m' ρ' _ hagree
  refine ⟨fun c => Cert.KernelIdeal.Hand.resultOf (Cert.KernelIdeal.Hand.zA m c) (Cert.KernelIdeal.Hand.xA m c)
      (Cert.KernelIdeal.Hand.wqA m c) (Cert.KernelIdeal.Hand.wkA m c) (Cert.KernelIdeal.Hand.wvA m c), ?_, ?_⟩
  · exact (θ_run Cert.KernelIdeal.defs _ _).mono
      (fun r h c => ⟨(h c).1.trans (Cert.KernelIdeal.Hand.result_eq m ρ c), (h c).2⟩)
      (Cert.KernelIdeal.Hand.run_value (F := Ideal) m ρ)
  · refine (θ_run Cert.ReferenceIdeal.defs _ _).mono (fun r h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2]
    funext i
    obtain ⟨b, cc, hh, ww, rfl⟩ : ∃ (b : Fin 32) (cc hh ww : Fin 64), i = ix4 b cc hh ww := ⟨i 0, i 1, i 2, i 3, eq_ix4 i⟩
    exact Cert.ReferenceIdeal.RefValue.refOut_apply _ _ _ _ _ b cc hh ww

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
